-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S_ : Shape := ⟨0, ![]⟩

class Facts : Prop where
  bcast_S_S8x512x48x48 : S_.BroadcastsInDim S8x512x48x48 (![] : Fin 0 → Fin S8x512x48x48.rank)
  reducesTo_S8x512x48x48_S_d0_1_2_3 : S8x512x48x48.ReducesTo [0, 1, 2, 3] S_
  h_S_ : 0 < S_.numel
  bcast_S_S8x2304x48x48 : S_.BroadcastsInDim S8x2304x48x48 (![] : Fin 0 → Fin S8x2304x48x48.rank)
  reducesTo_S8x2304x48x48_S_d0_1_2_3 : S8x2304x48x48.ReducesTo [0, 1, 2, 3] S_
  bcast_S_S8x2304x512 : S_.BroadcastsInDim S8x2304x512 (![] : Fin 0 → Fin S8x2304x512.rank)
  reducesTo_S8x2304x512_S_d0_1_2 : S8x2304x512.ReducesTo [0, 1, 2] S_
  bcast_S_S8x1x512 : S_.BroadcastsInDim S8x1x512 (![] : Fin 0 → Fin S8x1x512.rank)
  reducesTo_S8x1x512_S_d0_1_2 : S8x1x512.ReducesTo [0, 1, 2] S_

variable [Facts]

def fn_part3 {F : FTy → Type} [FloatOps F] (main_arg11 : FVec F S8x1x512 .f32) (main_v48 : IVec S_ 1) (main_v49 : FVec F S8x1x512 .f32) (main_v50 : FVec F S8x1x512 .f32) : IVec S_ 1 :=
  let main_v51 : IVec S8x1x512 1 := cmpf .olt main_v49 main_v50
  let main_c_19 : IVec S_ 1 := constantI S_ 1 1#1
  let main_v52 : IVec S_ 1 := (fun x v => Host.reduce IntOp.andi x v reducesTo_S8x1x512_S_d0_1_2 h_S_) main_v51 main_c_19
  let main_v53 : IVec S_ 1 := andi main_v48 main_v52
  let main_v54 : FVec F S8x1x512 .f32 := Host.absf main_arg11
  let main_cst_20 : FVec F S_ .f32 := constant S_ .f32 0x7F800000#32
  let main_v55 : FVec F S8x1x512 .f32 := broadcastInDim S8x1x512 ![] bcast_S_S8x1x512 main_cst_20
  let main_v56 : IVec S8x1x512 1 := cmpf .olt main_v54 main_v55
  let main_c_21 : IVec S_ 1 := constantI S_ 1 1#1
  let main_v57 : IVec S_ 1 := (fun x v => Host.reduce IntOp.andi x v reducesTo_S8x1x512_S_d0_1_2 h_S_) main_v56 main_c_21
  let main_v58 : IVec S_ 1 := andi main_v53 main_v57
  main_v58

def fn_part2 {F : FTy → Type} [FloatOps F] (main_arg7 : FVec F S8x1x512 .f32) (main_arg8 : FVec F S8x1x512 .f32) (main_arg9 : FVec F S8x1x512 .f32) (main_arg10 : FVec F S8x1x512 .f32) (main_arg11 : FVec F S8x1x512 .f32) (main_v33 : IVec S_ 1) : IVec S_ 1 :=
  let main_v34 : FVec F S8x1x512 .f32 := Host.absf main_arg7
  let main_cst_12 : FVec F S_ .f32 := constant S_ .f32 0x7F800000#32
  let main_v35 : FVec F S8x1x512 .f32 := broadcastInDim S8x1x512 ![] bcast_S_S8x1x512 main_cst_12
  let main_v36 : IVec S8x1x512 1 := cmpf .olt main_v34 main_v35
  let main_c_13 : IVec S_ 1 := constantI S_ 1 1#1
  let main_v37 : IVec S_ 1 := (fun x v => Host.reduce IntOp.andi x v reducesTo_S8x1x512_S_d0_1_2 h_S_) main_v36 main_c_13
  let main_v38 : IVec S_ 1 := andi main_v33 main_v37
  let main_v39 : FVec F S8x1x512 .f32 := Host.absf main_arg8
  let main_cst_14 : FVec F S_ .f32 := constant S_ .f32 0x7F800000#32
  let main_v40 : FVec F S8x1x512 .f32 := broadcastInDim S8x1x512 ![] bcast_S_S8x1x512 main_cst_14
  let main_v41 : IVec S8x1x512 1 := cmpf .olt main_v39 main_v40
  let main_c_15 : IVec S_ 1 := constantI S_ 1 1#1
  let main_v42 : IVec S_ 1 := (fun x v => Host.reduce IntOp.andi x v reducesTo_S8x1x512_S_d0_1_2 h_S_) main_v41 main_c_15
  let main_v43 : IVec S_ 1 := andi main_v38 main_v42
  let main_v44 : FVec F S8x1x512 .f32 := Host.absf main_arg9
  let main_cst_16 : FVec F S_ .f32 := constant S_ .f32 0x7F800000#32
  let main_v45 : FVec F S8x1x512 .f32 := broadcastInDim S8x1x512 ![] bcast_S_S8x1x512 main_cst_16
  let main_v46 : IVec S8x1x512 1 := cmpf .olt main_v44 main_v45
  let main_c_17 : IVec S_ 1 := constantI S_ 1 1#1
  let main_v47 : IVec S_ 1 := (fun x v => Host.reduce IntOp.andi x v reducesTo_S8x1x512_S_d0_1_2 h_S_) main_v46 main_c_17
  let main_v48 : IVec S_ 1 := andi main_v43 main_v47
  let main_v49 : FVec F S8x1x512 .f32 := Host.absf main_arg10
  let main_cst_18 : FVec F S_ .f32 := constant S_ .f32 0x7F800000#32
  let main_v50 : FVec F S8x1x512 .f32 := broadcastInDim S8x1x512 ![] bcast_S_S8x1x512 main_cst_18
  fn_part3 (F := F) main_arg11 main_v48 main_v49 main_v50

def fn_part1 {F : FTy → Type} [FloatOps F] (main_arg4 : FVec F S8x2304x512 .f32) (main_arg5 : FVec F S8x2304x512 .f32) (main_arg6 : FVec F S8x1x512 .f32) (main_arg7 : FVec F S8x1x512 .f32) (main_arg8 : FVec F S8x1x512 .f32) (main_arg9 : FVec F S8x1x512 .f32) (main_arg10 : FVec F S8x1x512 .f32) (main_arg11 : FVec F S8x1x512 .f32) (main_v13 : IVec S_ 1) (main_v16 : IVec S8x2304x512 1) : IVec S_ 1 :=
  let main_c_5 : IVec S_ 1 := constantI S_ 1 1#1
  let main_v17 : IVec S_ 1 := (fun x v => Host.reduce IntOp.andi x v reducesTo_S8x2304x512_S_d0_1_2 h_S_) main_v16 main_c_5
  let main_v18 : IVec S_ 1 := andi main_v13 main_v17
  let main_v19 : FVec F S8x2304x512 .f32 := Host.absf main_arg4
  let main_cst_6 : FVec F S_ .f32 := constant S_ .f32 0x7F800000#32
  let main_v20 : FVec F S8x2304x512 .f32 := broadcastInDim S8x2304x512 ![] bcast_S_S8x2304x512 main_cst_6
  let main_v21 : IVec S8x2304x512 1 := cmpf .olt main_v19 main_v20
  let main_c_7 : IVec S_ 1 := constantI S_ 1 1#1
  let main_v22 : IVec S_ 1 := (fun x v => Host.reduce IntOp.andi x v reducesTo_S8x2304x512_S_d0_1_2 h_S_) main_v21 main_c_7
  let main_v23 : IVec S_ 1 := andi main_v18 main_v22
  let main_v24 : FVec F S8x2304x512 .f32 := Host.absf main_arg5
  let main_cst_8 : FVec F S_ .f32 := constant S_ .f32 0x7F800000#32
  let main_v25 : FVec F S8x2304x512 .f32 := broadcastInDim S8x2304x512 ![] bcast_S_S8x2304x512 main_cst_8
  let main_v26 : IVec S8x2304x512 1 := cmpf .olt main_v24 main_v25
  let main_c_9 : IVec S_ 1 := constantI S_ 1 1#1
  let main_v27 : IVec S_ 1 := (fun x v => Host.reduce IntOp.andi x v reducesTo_S8x2304x512_S_d0_1_2 h_S_) main_v26 main_c_9
  let main_v28 : IVec S_ 1 := andi main_v23 main_v27
  let main_v29 : FVec F S8x1x512 .f32 := Host.absf main_arg6
  let main_cst_10 : FVec F S_ .f32 := constant S_ .f32 0x7F800000#32
  let main_v30 : FVec F S8x1x512 .f32 := broadcastInDim S8x1x512 ![] bcast_S_S8x1x512 main_cst_10
  let main_v31 : IVec S8x1x512 1 := cmpf .olt main_v29 main_v30
  let main_c_11 : IVec S_ 1 := constantI S_ 1 1#1
  let main_v32 : IVec S_ 1 := (fun x v => Host.reduce IntOp.andi x v reducesTo_S8x1x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x512x48x48 .f32) (main_arg1 : FVec F S8x2304x48x48 .f32) (main_arg2 : FVec F S8x2304x512 .f32) (main_arg3 : FVec F S8x2304x512 .f32) (main_arg4 : FVec F S8x2304x512 .f32) (main_arg5 : FVec F S8x2304x512 .f32) (main_arg6 : FVec F S8x1x512 .f32) (main_arg7 : FVec F S8x1x512 .f32) (main_arg8 : FVec F S8x1x512 .f32) (main_arg9 : FVec F S8x1x512 .f32) (main_arg10 : FVec F S8x1x512 .f32) (main_arg11 : FVec F S8x1x512 .f32) : IVec S_ 1 :=
  let main_v0 : FVec F S8x512x48x48 .f32 := Host.absf main_arg0
  let main_cst : FVec F S_ .f32 := constant S_ .f32 0x7F800000#32
  let main_v1 : FVec F S8x512x48x48 .f32 := broadcastInDim S8x512x48x48 ![] bcast_S_S8x512x48x48 main_cst
  let main_v2 : IVec S8x512x48x48 1 := cmpf .olt main_v0 main_v1
  let main_c : IVec S_ 1 := constantI S_ 1 1#1
  let main_v3 : IVec S_ 1 := (fun x v => Host.reduce IntOp.andi x v reducesTo_S8x512x48x48_S_d0_1_2_3 h_S_) main_v2 main_c
  let main_v4 : FVec F S8x2304x48x48 .f32 := Host.absf main_arg1
  let main_cst_0 : FVec F S_ .f32 := constant S_ .f32 0x7F800000#32
  let main_v5 : FVec F S8x2304x48x48 .f32 := broadcastInDim S8x2304x48x48 ![] bcast_S_S8x2304x48x48 main_cst_0
  let main_v6 : IVec S8x2304x48x48 1 := cmpf .olt main_v4 main_v5
  let main_c_1 : IVec S_ 1 := constantI S_ 1 1#1
  let main_v7 : IVec S_ 1 := (fun x v => Host.reduce IntOp.andi x v reducesTo_S8x2304x48x48_S_d0_1_2_3 h_S_) main_v6 main_c_1
  let main_v8 : IVec S_ 1 := andi main_v3 main_v7
  let main_v9 : FVec F S8x2304x512 .f32 := Host.absf main_arg2
  let main_cst_2 : FVec F S_ .f32 := constant S_ .f32 0x7F800000#32
  let main_v10 : FVec F S8x2304x512 .f32 := broadcastInDim S8x2304x512 ![] bcast_S_S8x2304x512 main_cst_2
  let main_v11 : IVec S8x2304x512 1 := cmpf .olt main_v9 main_v10
  let main_c_3 : IVec S_ 1 := constantI S_ 1 1#1
  let main_v12 : IVec S_ 1 := (fun x v => Host.reduce IntOp.andi x v reducesTo_S8x2304x512_S_d0_1_2 h_S_) main_v11 main_c_3
  let main_v13 : IVec S_ 1 := andi main_v8 main_v12
  let main_v14 : FVec F S8x2304x512 .f32 := Host.absf main_arg3
  let main_cst_4 : FVec F S_ .f32 := constant S_ .f32 0x7F800000#32
  let main_v15 : FVec F S8x2304x512 .f32 := broadcastInDim S8x2304x512 ![] bcast_S_S8x2304x512 main_cst_4
  let main_v16 : IVec S8x2304x512 1 := cmpf .olt main_v14 main_v15
  fn_part1 (F := F) main_arg4 main_arg5 main_arg6 main_arg7 main_arg8 main_arg9 main_arg10 main_arg11 main_v13 main_v16
-- ==== Kernel.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S8x512x2304 : Shape := ⟨3, ![8, 512, 2304]⟩
abbrev S8x2304x2304 : Shape := ⟨3, ![8, 2304, 2304]⟩
abbrev S8x2x2304 : Shape := ⟨3, ![8, 2, 2304]⟩
abbrev S1x2304x512 : Shape := ⟨3, ![1, 2304, 512]⟩
abbrev S1x512x256 : Shape := ⟨3, ![1, 512, 256]⟩
abbrev S1x2304x256 : Shape := ⟨3, ![1, 2304, 256]⟩
abbrev S1x2x256 : Shape := ⟨3, ![1, 2, 256]⟩
abbrev S512x256 : Shape := ⟨2, ![512, 256]⟩
abbrev S2304x256 : Shape := ⟨2, ![2304, 256]⟩
abbrev S2304x512 : Shape := ⟨2, ![2304, 512]⟩
abbrev S256 : Shape := ⟨1, ![256]⟩
abbrev S1x256 : Shape := ⟨2, ![1, 256]⟩
abbrev S1x1x256 : Shape := ⟨3, ![1, 1, 256]⟩
abbrev S8x6x512 : Shape := ⟨3, ![8, 6, 512]⟩
abbrev S8x8x2304 : Shape := ⟨3, ![8, 8, 2304]⟩
abbrev S1x6x512 : Shape := ⟨3, ![1, 6, 512]⟩
abbrev S1x512x384 : Shape := ⟨3, ![1, 512, 384]⟩
abbrev S1x8x384 : Shape := ⟨3, ![1, 8, 384]⟩
abbrev S512x384 : Shape := ⟨2, ![512, 384]⟩
abbrev S2304x384 : Shape := ⟨2, ![2304, 384]⟩
abbrev S384 : Shape := ⟨1, ![384]⟩
abbrev S1x384 : Shape := ⟨2, ![1, 384]⟩
abbrev S1x1x384 : Shape := ⟨3, ![1, 1, 384]⟩
abbrev S6x512 : Shape := ⟨2, ![6, 512]⟩
abbrev S6x384 : Shape := ⟨2, ![6, 384]⟩
abbrev S1x6x384 : Shape := ⟨3, ![1, 6, 384]⟩
abbrev S8x6x2304 : Shape := ⟨3, ![8, 6, 2304]⟩
abbrev S8x10x2304 : Shape := ⟨3, ![8, 10, 2304]⟩
abbrev S8x10x48x48 : Shape := ⟨4, ![8, 10, 48, 48]⟩

abbrev nBuf : Space → Nat
  | .hbm => 21
  | .vmem => 20
  | .smem => 0
  | _ => 0

abbrev bufTy : (tb : Table) → Fin (tcTables nBuf tb) → BufTy
  | .hbm, ⟨0, _⟩ => ⟨S8x512x48x48, .f32⟩
  | .hbm, ⟨1, _⟩ => ⟨S8x2304x48x48, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x1x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x512, .f32⟩
  | .hbm, ⟨12, _⟩ => ⟨S8x512x2304, .f32⟩
  | .hbm, ⟨13, _⟩ => ⟨S8x2304x2304, .f32⟩
  | .hbm, ⟨14, _⟩ => ⟨S8x2x2304, .f32⟩
  | .hbm, ⟨15, _⟩ => ⟨S8x6x512, .f32⟩
  | .hbm, ⟨16, _⟩ => ⟨S8x8x2304, .f32⟩
  | .hbm, ⟨17, _⟩ => ⟨S8x2x2304, .f32⟩
  | .hbm, ⟨18, _⟩ => ⟨S8x6x2304, .f32⟩
  | .hbm, ⟨19, _⟩ => ⟨S8x10x2304, .f32⟩
  | .hbm, ⟨20, _⟩ => ⟨S8x10x48x48, .f32⟩
  | .local _ .vmem, ⟨0, _⟩ => ⟨S1x2304x512, .f32⟩
  | .local _ .vmem, ⟨1, _⟩ => ⟨S1x2304x512, .f32⟩
  | .local _ .vmem, ⟨2, _⟩ => ⟨S1x2304x512, .f32⟩
  | .local _ .vmem, ⟨3, _⟩ => ⟨S1x2304x512, .f32⟩
  | .local _ .vmem, ⟨4, _⟩ => ⟨S1x512x256, .f32⟩
  | .local _ .vmem, ⟨5, _⟩ => ⟨S1x512x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2x256, .f32⟩
  | .local _ .vmem, ⟨9, _⟩ => ⟨S1x2x256, .f32⟩
  | .local _ .vmem, ⟨10, _⟩ => ⟨S1x2304x512, .f32⟩
  | .local _ .vmem, ⟨11, _⟩ => ⟨S1x2304x512, .f32⟩
  | .local _ .vmem, ⟨12, _⟩ => ⟨S1x2304x512, .f32⟩
  | .local _ .vmem, ⟨13, _⟩ => ⟨S1x2304x512, .f32⟩
  | .local _ .vmem, ⟨14, _⟩ => ⟨S1x6x512, .f32⟩
  | .local _ .vmem, ⟨15, _⟩ => ⟨S1x6x512, .f32⟩
  | .local _ .vmem, ⟨16, _⟩ => ⟨S1x512x384, .f32⟩
  | .local _ .vmem, ⟨17, _⟩ => ⟨S1x512x384, .f32⟩
  | .local _ .vmem, ⟨18, _⟩ => ⟨S1x8x384, .f32⟩
  | .local _ .vmem, ⟨19, _⟩ => ⟨S1x8x384, .f32⟩
  | _, _ => ⟨S8x512x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2304x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2304x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x6x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S8x512x48x48_S8x512x2304 : S8x512x48x48.ShapeCasts S8x512x2304
  shapeCasts_S8x2304x48x48_S8x2304x2304 : S8x2304x48x48.ShapeCasts S8x2304x2304
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x2304x256_S1x2304x256_0_0_0 : ∀ a, (![0, 0, 0] : Fin 3 → Nat) a + S1x2304x256.size a ≤ S1x2304x256.size a
  h_S1x2304x256 : 0 < S1x2304x256.numel
  shapeCasts_S1x2304x256_S2304x256 : S1x2304x256.ShapeCasts S2304x256
  inb_S1x2304x512_S1x2304x512_0_0_0 : ∀ a, (![0, 0, 0] : Fin 3 → Nat) a + S1x2304x512.size a ≤ S1x2304x512.size a
  h_S1x2304x512 : 0 < S1x2304x512.numel
  shapeCasts_S1x2304x512_S2304x512 : S1x2304x512.ShapeCasts S2304x512
  reduces_S2304x256_S256 : S2304x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  concatenates_S8x1x512_S8x1x512_S8x1x512_S8x1x512_S8x1x512_S8x1x512_S8x6x512_d1 : Shape.Concatenates [S8x1x512, S8x1x512, S8x1x512, S8x1x512, S8x1x512, S8x1x512] S8x6x512 1
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  reduces_S2304x384_S384 : S2304x384.Reduces [0] S384
  shapeCasts_S384_S1x384 : S384.ShapeCasts S1x384
  inb_S1x8x384_S1x1x384_0_0_0 : ∀ a, (![0, 0, 0] : Fin 3 → Nat) a + S1x1x384.size a ≤ S1x8x384.size a
  h_S1x1x384 : 0 < S1x1x384.numel
  shapeCasts_S1x1x384_S1x384 : S1x1x384.ShapeCasts S1x384
  shapeCasts_S1x384_S1x1x384 : S1x384.ShapeCasts S1x1x384
  inb_S1x8x384_S1x1x384_0_1_0 : ∀ a, (![0, 1, 0] : Fin 3 → Nat) a + S1x1x384.size a ≤ S1x8x384.size a
  inb_S1x6x512_S1x6x512_0_0_0 : ∀ a, (![0, 0, 0] : Fin 3 → Nat) a + S1x6x512.size a ≤ S1x6x512.size a
  h_S1x6x512 : 0 < S1x6x512.numel
  shapeCasts_S1x6x512_S6x512 : S1x6x512.ShapeCasts S6x512
  inb_S1x8x384_S1x6x384_0_2_0 : ∀ a, (![0, 2, 0] : Fin 3 → Nat) a + S1x6x384.size a ≤ S1x8x384.size a
  h_S1x6x384 : 0 < S1x6x384.numel
  shapeCasts_S1x6x384_S6x384 : S1x6x384.ShapeCasts S6x384
  shapeCasts_S6x384_S1x6x384 : S6x384.ShapeCasts S1x6x384
  slices_S8x8x2304_S8x2x2304_0_0_0 : S8x8x2304.Slices ![0, 0, 0] S8x2x2304
  slices_S8x8x2304_S8x6x2304_0_2_0 : S8x8x2304.Slices ![0, 2, 0] S8x6x2304
  concatenates_S8x2x2304_S8x2x2304_S8x6x2304_S8x10x2304_d1 : Shape.Concatenates [S8x2x2304, S8x2x2304, S8x6x2304] S8x10x2304 1
  shapeCasts_S8x10x2304_S8x10x48x48 : S8x10x2304.ShapeCasts S8x10x48x48
  dot_S2304x512_S512x256_S2304x256_1_0_0_1_n_n_wf : DotDims.WF S2304x512 S512x256 S2304x256 [1] [0] [0] [1] [] []
  dot_S2304x512_S512x384_S2304x384_1_0_0_1_n_n_wf : DotDims.WF S2304x512 S512x384 S2304x384 [1] [0] [0] [1] [] []
  dot_S6x512_S512x384_S6x384_1_0_0_1_n_n_wf : DotDims.WF S6x512 S512x384 S6x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2304x512.size a ≤ S8x2304x512.size a
  hwx0_0 : ∀ i : grid0.Coords, EltTy.bits .f32 = 32 ∨ (Rect.block (s := S8x2304x512) S1x2304x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2304x512.size a ≤ S8x2304x512.size a
  hwx0_1 : ∀ i : grid0.Coords, EltTy.bits .f32 = 32 ∨ (Rect.block (s := S8x2304x512) S1x2304x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x512x2304.size a
  hwx0_2 : ∀ i : grid0.Coords, EltTy.bits .f32 = 32 ∨ (Rect.block (s := S8x512x2304) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2304x256.size a ≤ S8x2304x2304.size a
  hwx0_3 : ∀ i : grid0.Coords, EltTy.bits .f32 = 32 ∨ (Rect.block (s := S8x2304x2304) S1x2304x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x256.size a ≤ S8x2x2304.size a
  hwx0_4 : ∀ i : grid0.Coords, EltTy.bits .f32 = 32 ∨ (Rect.block (s := S8x2x2304) S1x2x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2304x512.size a ≤ S8x2304x512.size a
  hwx1_0 : ∀ i : grid1.Coords, EltTy.bits .f32 = 32 ∨ (Rect.block (s := S8x2304x512) S1x2304x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2304x512.size a ≤ S8x2304x512.size a
  hwx1_1 : ∀ i : grid1.Coords, EltTy.bits .f32 = 32 ∨ (Rect.block (s := S8x2304x512) S1x2304x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6x512.size a ≤ S8x6x512.size a
  hwx1_2 : ∀ i : grid1.Coords, EltTy.bits .f32 = 32 ∨ (Rect.block (s := S8x6x512) S1x6x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x384.size a ≤ S8x512x2304.size a
  hwx1_3 : ∀ i : grid1.Coords, EltTy.bits .f32 = 32 ∨ (Rect.block (s := S8x512x2304) S1x512x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x384.size a ≤ S8x8x2304.size a
  hwx1_4 : ∀ i : grid1.Coords, EltTy.bits .f32 = 32 ∨ (Rect.block (s := S8x8x2304) S1x8x384.size (cc1_transform_4 i) (hinb1_4 i)).WholeWords (EltTy.packing .f32)

variable [Facts₀]

def dot_S2304x512_S512x256_S2304x256_1_0_0_1_n_n : DotDims S2304x512 S512x256 S2304x256 where
  lhsContracting := [1]
  rhsContracting := [0]
  lhsNonContracting := [0]
  rhsNonContracting := [1]
  lhsBatch := []
  rhsBatch := []
  wf := dot_S2304x512_S512x256_S2304x256_1_0_0_1_n_n_wf
def dot_S2304x512_S512x384_S2304x384_1_0_0_1_n_n : DotDims S2304x512 S512x384 S2304x384 where
  lhsContracting := [1]
  rhsContracting := [0]
  lhsNonContracting := [0]
  rhsNonContracting := [1]
  lhsBatch := []
  rhsBatch := []
  wf := dot_S2304x512_S512x384_S2304x384_1_0_0_1_n_n_wf
def dot_S6x512_S512x384_S6x384_1_0_0_1_n_n : DotDims S6x512 S512x384 S6x384 where
  lhsContracting := [1]
  rhsContracting := [0]
  lhsNonContracting := [0]
  rhsNonContracting := [1]
  lhsBatch := []
  rhsBatch := []
  wf := dot_S6x512_S512x384_S6x384_1_0_0_1_n_n_wf

abbrev win0_0 : Pipeline.Window sig grid0 :=
  Pipeline.Window.ofSpec (Memref.whole main_arg4) S1x2304x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x2304x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2304x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S1x2304x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x2304x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x6x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x512x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x8x384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S8x512x2304 : Shape := ⟨3, ![8, 512, 2304]⟩
abbrev S8x2304x2304 : Shape := ⟨3, ![8, 2304, 2304]⟩
abbrev S_ : Shape := ⟨0, ![]⟩
abbrev S8x2304 : Shape := ⟨2, ![8, 2304]⟩
abbrev S8x1x48x48 : Shape := ⟨4, ![8, 1, 48, 48]⟩
abbrev S8x2x48x48 : Shape := ⟨4, ![8, 2, 48, 48]⟩
abbrev S8x4x48x48 : Shape := ⟨4, ![8, 4, 48, 48]⟩
abbrev S8x1x2304 : Shape := ⟨3, ![8, 1, 2304]⟩
abbrev S8x6x48x48 : Shape := ⟨4, ![8, 6, 48, 48]⟩
abbrev S8x10x48x48 : Shape := ⟨4, ![8, 10, 48, 48]⟩

abbrev nBuf : Space → Nat
  | .hbm => 49
  | .vmem => 0
  | .smem => 0
  | _ => 0

abbrev bufTy : (tb : Table) → Fin (tcTables nBuf tb) → BufTy
  | .hbm, ⟨0, _⟩ => ⟨S8x512x48x48, .f32⟩
  | .hbm, ⟨1, _⟩ => ⟨S8x2304x48x48, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x1x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x512, .f32⟩
  | .hbm, ⟨12, _⟩ => ⟨S8x512x2304, .f32⟩
  | .hbm, ⟨13, _⟩ => ⟨S8x2304x2304, .f32⟩
  | .hbm, ⟨14, _⟩ => ⟨S8x2304x2304, .f32⟩
  | .hbm, ⟨15, _⟩ => ⟨S_, .f32⟩
  | .hbm, ⟨16, _⟩ => ⟨S8x2304, .f32⟩
  | .hbm, ⟨17, _⟩ => ⟨S8x1x48x48, .f32⟩
  | .hbm, ⟨18, _⟩ => ⟨S8x2304x2304, .f32⟩
  | .hbm, ⟨19, _⟩ => ⟨S_, .f32⟩
  | .hbm, ⟨20, _⟩ => ⟨S8x2304, .f32⟩
  | .hbm, ⟨21, _⟩ => ⟨S8x1x48x48, .f32⟩
  | .hbm, ⟨22, _⟩ => ⟨S8x2x48x48, .f32⟩
  | .hbm, ⟨23, _⟩ => ⟨S8x2304x2304, .f32⟩
  | .hbm, ⟨24, _⟩ => ⟨S8x2304x2304, .f32⟩
  | .hbm, ⟨25, _⟩ => ⟨S_, .f32⟩
  | .hbm, ⟨26, _⟩ => ⟨S8x2304, .f32⟩
  | .hbm, ⟨27, _⟩ => ⟨S8x1x48x48, .f32⟩
  | .hbm, ⟨28, _⟩ => ⟨S8x2304x2304, .f32⟩
  | .hbm, ⟨29, _⟩ => ⟨S8x2304x2304, .f32⟩
  | .hbm, ⟨30, _⟩ => ⟨S_, .f32⟩
  | .hbm, ⟨31, _⟩ => ⟨S8x2304, .f32⟩
  | .hbm, ⟨32, _⟩ => ⟨S8x1x48x48, .f32⟩
  | .hbm, ⟨33, _⟩ => ⟨S8x2x48x48, .f32⟩
  | .hbm, ⟨34, _⟩ => ⟨S8x4x48x48, .f32⟩
  | .hbm, ⟨35, _⟩ => ⟨S8x1x2304, .f32⟩
  | .hbm, ⟨36, _⟩ => ⟨S8x1x48x48, .f32⟩
  | .hbm, ⟨37, _⟩ => ⟨S8x1x2304, .f32⟩
  | .hbm, ⟨38, _⟩ => ⟨S8x1x48x48, .f32⟩
  | .hbm, ⟨39, _⟩ => ⟨S8x1x2304, .f32⟩
  | .hbm, ⟨40, _⟩ => ⟨S8x1x48x48, .f32⟩
  | .hbm, ⟨41, _⟩ => ⟨S8x1x2304, .f32⟩
  | .hbm, ⟨42, _⟩ => ⟨S8x1x48x48, .f32⟩
  | .hbm, ⟨43, _⟩ => ⟨S8x1x2304, .f32⟩
  | .hbm, ⟨44, _⟩ => ⟨S8x1x48x48, .f32⟩
  | .hbm, ⟨45, _⟩ => ⟨S8x1x2304, .f32⟩
  | .hbm, ⟨46, _⟩ => ⟨S8x1x48x48, .f32⟩
  | .hbm, ⟨47, _⟩ => ⟨S8x6x48x48, .f32⟩
  | .hbm, ⟨48, _⟩ => ⟨S8x10x48x48, .f32⟩
  | _, _ => ⟨S8x512x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  shapeCasts_S8x512x48x48_S8x512x2304 : S8x512x48x48.ShapeCasts S8x512x2304
  shapeCasts_S8x2304x48x48_S8x2304x2304 : S8x2304x48x48.ShapeCasts S8x2304x2304
  reducesTo_S8x2304x2304_S8x2304_d1 : S8x2304x2304.ReducesTo [1] S8x2304
  h_S_ : 0 < S_.numel
  shapeCasts_S8x2304_S8x1x48x48 : S8x2304.ShapeCasts S8x1x48x48
  concatenates_S8x1x48x48_S8x1x48x48_S8x2x48x48_d1 : Shape.Concatenates [S8x1x48x48, S8x1x48x48] S8x2x48x48 1
  concatenates_S8x2x48x48_S8x2x48x48_S8x4x48x48_d1 : Shape.Concatenates [S8x2x48x48, S8x2x48x48] S8x4x48x48 1
  shapeCasts_S8x1x2304_S8x1x48x48 : S8x1x2304.ShapeCasts S8x1x48x48
  concatenates_S8x1x48x48_S8x1x48x48_S8x1x48x48_S8x1x48x48_S8x1x48x48_S8x1x48x48_S8x6x48x48_d1 : Shape.Concatenates [S8x1x48x48, S8x1x48x48, S8x1x48x48, S8x1x48x48, S8x1x48x48, S8x1x48x48] S8x6x48x48 1
  concatenates_S8x4x48x48_S8x6x48x48_S8x10x48x48_d1 : Shape.Concatenates [S8x4x48x48, S8x6x48x48] S8x10x48x48 1
  dot_S8x2304x512_S8x512x2304_S8x2304x2304_2_1_1_2_0_0_wf : DotDims.WF S8x2304x512 S8x512x2304 S8x2304x2304 [2] [1] [1] [2] [0] [0]
  dot_S8x1x512_S8x512x2304_S8x1x2304_2_1_1_2_0_0_wf : DotDims.WF S8x1x512 S8x512x2304 S8x1x2304 [2] [1] [1] [2] [0] [0]

variable [Facts₀]

def dot_S8x2304x512_S8x512x2304_S8x2304x2304_2_1_1_2_0_0 : DotDims S8x2304x512 S8x512x2304 S8x2304x2304 where
  lhsContracting := [2]
  rhsContracting := [1]
  lhsNonContracting := [1]
  rhsNonContracting := [2]
  lhsBatch := [0]
  rhsBatch := [0]
  wf := dot_S8x2304x512_S8x512x2304_S8x2304x2304_2_1_1_2_0_0_wf
def dot_S8x1x512_S8x512x2304_S8x1x2304_2_1_1_2_0_0 : DotDims S8x1x512 S8x512x2304 S8x1x2304 where
  lhsContracting := [2]
  rhsContracting := [1]
  lhsNonContracting := [1]
  rhsNonContracting := [2]
  lhsBatch := [0]
  rhsBatch := [0]
  wf := dot_S8x1x512_S8x512x2304_S8x1x2304_2_1_1_2_0_0_wf

class Facts : Prop extends Facts₀ where

variable [Facts]
-- ==== Proof.KRegion0.lean ====
/-
  The masked launch (the first of the two kernel regions) as the pipeline library sees it, at any float instance and
  at a PARAMETER `V`: the contents of the core's buffers when the region is entered.

  A grid point's body reads four whole input blocks (the two local banks' [1, 2304, 512] slabs, the key's
  [1, 512, 256] tile, the mask's [1, 2304, 256] tile) and overwrites the [1, 2, 256] output block by two row stores
  that tile it; so after the body the output's staging buffer is a function `out0_4` of the four input blocks alone,
  whatever it held before (the body also loads each row before storing it, and drops what it read).  The proof data
  state exactly that, every input left in place, nothing owed, and the body obligation follows from one run of the
  body on whole staging buffers.
-/
import proofs.«171700_j49503793054049_2_alg».proof.Proof.Gen.Kernel.Launch
import proofs.«171700_j49503793054049_2_alg».proof.Proof.Gen.Kernel.Skeleton
import proofs.«171700_j49503793054049_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the two bank windows
    are fetched only when the batch index moves, and between fetches their block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A bank's whole [1, 2304, 512] block. -/
abbrev rBank0 : Rect S1x2304x512 := Rect.unit (s := S1x2304x512) ![0, 0, 0] S1x2304x512.size inb_S1x2304x512_S1x2304x512_0_0_0
/-- The key's whole [1, 512, 256] tile. -/
abbrev rKey0 : Rect S1x512x256 := Rect.unit (s := S1x512x256) ![0, 0, 0] S1x512x256.size inb_S1x512x256_S1x512x256_0_0_0
/-- The mask's whole [1, 2304, 256] tile. -/
abbrev rMask0 : Rect S1x2304x256 := Rect.unit (s := S1x2304x256) ![0, 0, 0] S1x2304x256.size inb_S1x2304x256_S1x2304x256_0_0_0
/-- Row 0 of the output block. -/
abbrev rRow0_0 : Rect S1x2x256 := Rect.unit (s := S1x2x256) ![0, 0, 0] S1x1x256.size inb_S1x2x256_S1x1x256_0_0_0
/-- Row 1 of the output block. -/
abbrev rRow0_1 : Rect S1x2x256 := Rect.unit (s := S1x2x256) ![0, 1, 0] S1x1x256.size inb_S1x2x256_S1x1x256_0_1_0

/-! ## What the body leaves in the output window's buffer -/

/-- The output's staging buffer after the body, from the input blocks: its two row stores as pieces, the last first. -/
def out0_4 (x0 x1 : Vec F S1x2304x512 .f32) (x2 : Vec F S1x512x256 .f32) (x3 : Vec F S1x2304x256 .f32) : Vec F S1x2x256 .f32 :=
  View.canon [⟨rRow0_1, k0_pay4 (View.ld x2 rKey0) (View.ld x3 rMask0) (View.ld x1 rBank0)⟩,
    ⟨rRow0_0, k0_pay3 (View.ld x2 rKey0) (View.ld x3 rMask0) (View.ld x0 rBank0)⟩]

/-- The two rows tile the block, so they cover it. -/
theorem cover0_4 (p0 p1 : Vec F S1x1x256 .f32) (y : S1x2x256.Idx) :
    ∃ pc ∈ ([⟨rRow0_1, p1⟩, ⟨rRow0_0, p0⟩] : List (View.Piece (Elt F) S1x2x256 .f32)), y ∈ pc.1.set :=
  View.cover_of_tiled [⟨rRow0_1, p1⟩, ⟨rRow0_0, p0⟩] S1x1x256.size (by rfl) y

/-! ## The body's triple -/

set_option maxHeartbeats 4000000 in
/-- The body on whole staging buffers, the inputs' at read contents and the output's at anything, runs to the
    continuation holding the inputs' as they were and the output's at `out0_4` of the inputs'. -/
theorem sound_kernel0 (c : Dev nD) (E : Set ℕ) (i : grid0.Coords)
    (arg2 : Memref sig .tc .vmem S1x2304x512 .f32) (harg2 : arg2.IsWhole) (arg3 : Memref sig .tc .vmem S1x2304x512 .f32) (harg3 : arg3.IsWhole)
    (arg4 : Memref sig .tc .vmem S1x512x256 .f32) (harg4 : arg4.IsWhole) (arg5 : Memref sig .tc .vmem S1x2304x256 .f32) (harg5 : arg5.IsWhole)
    (arg6 : Memref sig .tc .vmem S1x2x256 .f32) (harg6 : arg6.IsWhole)
    (x0 x1 : Vec F S1x2304x512 .f32) (x2 : Vec F S1x512x256 .f32) (x3 : Vec F S1x2304x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__local_fused_kernel i arg2 harg2 arg3 harg3 arg4 harg4 arg5 harg5 arg6 harg6) K := by
  simp only [cc0__local_fused_kernel_eq_skeleton]; unfold cc0__local_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _)

/-! ## The pipeline's proof data -/

/-- The proof data of the masked launch on core `c`: the arrays as the region finds them; after the body at point `t`
    each input's buffer at its block and the output's at `out0_4` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The unmasked launch (the second of the two kernel regions) as the pipeline library sees it, at any float instance
  and at a PARAMETER `V`: the contents of the core's buffers when the region is entered.

  A grid point's body reads four whole input blocks (the two global banks' [1, 2304, 512] slabs, the six stacked
  single-slot banks' [1, 6, 512] slab, the key's [1, 512, 384] tile) and overwrites the [1, 8, 384] output block by
  three stores — row 0, row 1, rows 2 … 7 — that tile it; so after the body the output's staging buffer is a function
  `out1_4` of the four input blocks alone, whatever it held before.  The proof data state exactly that, every input
  left in place, nothing owed, and the body obligation follows from one run of the body on whole staging buffers.
-/
import proofs.«171700_j49503793054049_2_alg».proof.Proof.Gen.Kernel.Launch
import proofs.«171700_j49503793054049_2_alg».proof.Proof.Gen.Kernel.Skeleton
import proofs.«171700_j49503793054049_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the two bank windows
    and the stacked banks' window are fetched only when the batch index moves, and between fetches their block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A bank's whole [1, 2304, 512] block. -/
abbrev rBank1 : Rect S1x2304x512 := Rect.unit (s := S1x2304x512) ![0, 0, 0] S1x2304x512.size inb_S1x2304x512_S1x2304x512_0_0_0
/-- The six stacked single-slot banks' whole [1, 6, 512] block. -/
abbrev rSix1 : Rect S1x6x512 := Rect.unit (s := S1x6x512) ![0, 0, 0] S1x6x512.size inb_S1x6x512_S1x6x512_0_0_0
/-- The key's whole [1, 512, 384] tile. -/
abbrev rKey1 : Rect S1x512x384 := Rect.unit (s := S1x512x384) ![0, 0, 0] S1x512x384.size inb_S1x512x384_S1x512x384_0_0_0
/-- Row 0 of the output block. -/
abbrev rRow1_0 : Rect S1x8x384 := Rect.unit (s := S1x8x384) ![0, 0, 0] S1x1x384.size inb_S1x8x384_S1x1x384_0_0_0
/-- Row 1 of the output block. -/
abbrev rRow1_1 : Rect S1x8x384 := Rect.unit (s := S1x8x384) ![0, 1, 0] S1x1x384.size inb_S1x8x384_S1x1x384_0_1_0
/-- Rows 2 … 7 of the output block. -/
abbrev rRows1_2 : Rect S1x8x384 := Rect.unit (s := S1x8x384) ![0, 2, 0] S1x6x384.size inb_S1x8x384_S1x6x384_0_2_0

/-! ## What the body leaves in the output window's buffer -/

/-- The output's staging buffer after the body, from the input blocks: its three stores as pieces, the last first. -/
def out1_4 (x0 x1 : Vec F S1x2304x512 .f32) (x2 : Vec F S1x6x512 .f32) (x3 : Vec F S1x512x384 .f32) : Vec F S1x8x384 .f32 :=
  View.canon [⟨rRows1_2, k1_pay4 (View.ld x3 rKey1) (View.ld x2 rSix1)⟩,
    ⟨rRow1_1, k1_pay3 (View.ld x3 rKey1) (View.ld x1 rBank1)⟩,
    ⟨rRow1_0, k1_pay2 (View.ld x3 rKey1) (View.ld x0 rBank1)⟩]

/-- Cut into single rows the three stores tile the block, so they cover it. -/
theorem cover1_4 (p0 p1 : Vec F S1x1x384 .f32) (p2 : Vec F S1x6x384 .f32) (y : S1x8x384.Idx) :
    ∃ pc ∈ ([⟨rRows1_2, p2⟩, ⟨rRow1_1, p1⟩, ⟨rRow1_0, p0⟩] : List (View.Piece (Elt F) S1x8x384 .f32)), y ∈ pc.1.set :=
  View.cover_of_tiledBy [⟨rRows1_2, p2⟩, ⟨rRow1_1, p1⟩, ⟨rRow1_0, p0⟩] S1x1x384.size (by sl_kernel_rfl) y

/-! ## The body's triple -/

set_option maxHeartbeats 4000000 in
/-- The body on whole staging buffers, the inputs' at read contents and the output's at anything, runs to the
    continuation holding the inputs' as they were and the output's at `out1_4` of the inputs'. -/
theorem sound_kernel1 (c : Dev nD) (E : Set ℕ) (i : grid1.Coords)
    (arg2 : Memref sig .tc .vmem S1x2304x512 .f32) (harg2 : arg2.IsWhole) (arg3 : Memref sig .tc .vmem S1x2304x512 .f32) (harg3 : arg3.IsWhole)
    (arg4 : Memref sig .tc .vmem S1x6x512 .f32) (harg4 : arg4.IsWhole) (arg5 : Memref sig .tc .vmem S1x512x384 .f32) (harg5 : arg5.IsWhole)
    (arg6 : Memref sig .tc .vmem S1x8x384 .f32) (harg6 : arg6.IsWhole)
    (x0 x1 : Vec F S1x2304x512 .f32) (x2 : Vec F S1x6x512 .f32) (x3 : Vec F S1x512x384 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__global_coarse_kernel i arg2 harg2 arg3 harg3 arg4 harg4 arg5 harg5 arg6 harg6) K := by
  simp only [cc1__global_coarse_kernel_eq_skeleton]; unfold cc1__global_coarse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _)

/-! ## The pipeline's proof data -/

/-- The proof data of the unmasked launch on core `c`: the arrays as the region finds them; after the body at point `t`
    each input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of the program, at any float instance: @main is five segments — a stretch of host operations (the two
  input reshapes), the masked launch, a stretch (the six single-slot banks stacked), the unmasked launch, a stretch (two
  slices, the concatenation of the ten rows, the last reshape).

  The contents of the core's unscoped buffers are followed from boundary to boundary: a host stretch applies its
  operations' results, a launch replaces its output array by what its write-backs leave and keeps every other buffer
  (an input window's array ends as it was found).  Every weakly fair execution terminates without a fault with every
  unscoped buffer at the last boundary's contents `W5`; no segment writes an argument, so each argument ends as launched.
-/
import proofs.«171700_j49503793054049_2_alg».proof.Proof.KRegion0
import proofs.«171700_j49503793054049_2_alg».proof.Proof.KRegion1
import proofs.«171700_j49503793054049_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the two input reshapes (the masked launch's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the masked launch's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the six single-slot banks are stacked (the unmasked launch's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the unmasked launch's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the closing host operations: the contents the program ends with. -/
abbrev W5 : Dev nD → Valuation τ sig (Elt F) := fun c => StableHlo.after hostOps2 (W4 m c)

/-! ## What each segment leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
/-- The masked launch changes only its output array: an input window's array ends as found, any other buffer is not its. -/
theorem W2_of (c : Dev nD) (b : Ref sig .tc) (hb : b ≠ main_v2) : W2 m c b = W1 m c b := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => exact absurd rfl hb
    exact (W2_arr m c w).trans (((dat0 (U1 m) c).arrAt_in w hw _).trans (A_eq0 (U1 m) c w))
  · exact W2_of_ne m c b fun w e => h ⟨w, e⟩
/-- The unmasked launch changes only its output array. -/
theorem W4_of (c : Dev nD) (b : Ref sig .tc) (hb : b ≠ main_v4) : W4 m c b = W3 m c b := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => exact absurd rfl hb
    exact (W4_arr m c w).trans (((dat1 (U3 m) c).arrAt_in w hw _).trans (A_eq1 (U3 m) c w))
  · exact W4_of_ne m c b fun w e => h ⟨w, e⟩

/-- A buffer no host operation writes and no launch outputs ends as launched: every argument is one. -/
theorem W5_kept (c : Dev nD) (b : Ref sig .tc) (h0 : b ∉ hostOps0_W) (h1 : b ∉ hostOps1_W) (h2 : b ∉ hostOps2_W)
    (hv2 : b ≠ main_v2) (hv4 : b ≠ main_v4) : W5 m c b = m ((c : Thread nD τ).loc b) :=
  (W5_of m c b h2).trans <| (W4_of m c b hv4).trans <| (W3_of m c b h1).trans <| (W2_of m c b hv2).trans <| (W1_of m c b h0).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues, at
    nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TH (c : Dev nD) : sProp 𝕄 := StableHlo.held (c : Thread nD τ) (Pipeline.ucRefs τ sig) (W5 m c)

/-! ## The regions as segments -/

set_option backward.isDefEq.respectTransparency.types false in
/-- The masked launch over the thread state: entered from every unscoped buffer at `W1`, left at `W2`. Its arrays are
    split out of the unscoped buffers and put back at the exit contents; the generator register goes into the
    invariant and comes out; nothing is owed; the kernel has no semaphore of its own. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The unmasked launch over the thread state: entered from every unscoped buffer at `W3`, left at `W4`. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segsH : List (Pipeline.Seg (pcfgs (F := F)) adm (pdatsH m) () defs₀ 𝒱H LH lvH) :=
  [ .host (hsegH hostOps0 hostOps0_sub hostOps0_fresh (W0 m)),
    .region (regH0 m),
    .host (hsegH hostOps1 hostOps1_sub hostOps1_fresh (W2 m)),
    .region (regH1 m),
    .host (hsegH hostOps2 hostOps2_sub hostOps2_fresh (W4 m)) ]
/-- @main is the run of the segments. -/
theorem main_run (c : Dev nD) : main (F := F) c = Pipeline.Seg.run (segsH m) := (main_chain c).trans (by chain_rfl)

set_option backward.isDefEq.respectTransparency.types false in
/-- THE RUN: from any memory with zero counters, every weakly fair execution of @main on the TensorCores terminates,
    nothing faulting, and every final state has every unscoped buffer at the last boundary's contents `W5`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m c (Proc.devRef .tc b)) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun c => by
      show iprop(StableHlo.held (c : Thread nD τ) (Pipeline.ucRefs τ sig) (W5 m c) ∗ RH c) ⊢ _
      iintro ⟨Hh, -, HO⟩
      isplitl [Hh]; · iexact Hh
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c main_arg0 (by decide)).trans (W5_kept m c main_arg0 (by decide) (by decide) (by decide) (by decide) (by decide)),
     (h c main_arg1 (by decide)).trans (W5_kept m c main_arg1 (by decide) (by decide) (by decide) (by decide) (by decide)),
     (h c main_arg2 (by decide)).trans (W5_kept m c main_arg2 (by decide) (by decide) (by decide) (by decide) (by decide)),
     (h c main_arg3 (by decide)).trans (W5_kept m c main_arg3 (by decide) (by decide) (by decide) (by decide) (by decide)),
     (h c main_arg4 (by decide)).trans (W5_kept m c main_arg4 (by decide) (by decide) (by decide) (by decide) (by decide)),
     (h c main_arg5 (by decide)).trans (W5_kept m c main_arg5 (by decide) (by decide) (by decide) (by decide) (by decide)),
     (h c main_arg6 (by decide)).trans (W5_kept m c main_arg6 (by decide) (by decide) (by decide) (by decide) (by decide)),
     (h c main_arg7 (by decide)).trans (W5_kept m c main_arg7 (by decide) (by decide) (by decide) (by decide) (by decide)),
     (h c main_arg8 (by decide)).trans (W5_kept m c main_arg8 (by decide) (by decide) (by decide) (by decide) (by decide)),
     (h c main_arg9 (by decide)).trans (W5_kept m c main_arg9 (by decide) (by decide) (by decide) (by decide) (by decide)),
     (h c main_arg10 (by decide)).trans (W5_kept m c main_arg10 (by decide) (by decide) (by decide) (by decide) (by decide)),
     (h c main_arg11 (by decide)).trans (W5_kept m c main_arg11 (by decide) (by decide) (by decide) (by decide) (by decide))⟩)
    (run_all m ρ)

end Cert.Kernel.Hand

end
-- ==== Proof.KiRegion0.lean ====
/-
  The masked launch (the first of the two kernel regions) as the pipeline library sees it, at any float instance and
  at a PARAMETER `V`: the contents of the core's buffers when the region is entered.

  A grid point's body reads four whole input blocks (the two local banks' [1, 2304, 512] slabs, the key's
  [1, 512, 256] tile, the mask's [1, 2304, 256] tile) and overwrites the [1, 2, 256] output block by two row stores
  that tile it; so after the body the output's staging buffer is a function `out0_4` of the four input blocks alone,
  whatever it held before (the body also loads each row before storing it, and drops what it read).  The proof data
  state exactly that, every input left in place, nothing owed, and the body obligation follows from one run of the
  body on whole staging buffers.
-/
import proofs.«171700_j49503793054049_2_alg».proof.Proof.Gen.KernelIdeal.Launch
import proofs.«171700_j49503793054049_2_alg».proof.Proof.Gen.KernelIdeal.Skeleton
import proofs.«171700_j49503793054049_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the two bank windows
    are fetched only when the batch index moves, and between fetches their block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A bank's whole [1, 2304, 512] block. -/
abbrev rBank0 : Rect S1x2304x512 := Rect.unit (s := S1x2304x512) ![0, 0, 0] S1x2304x512.size inb_S1x2304x512_S1x2304x512_0_0_0
/-- The key's whole [1, 512, 256] tile. -/
abbrev rKey0 : Rect S1x512x256 := Rect.unit (s := S1x512x256) ![0, 0, 0] S1x512x256.size inb_S1x512x256_S1x512x256_0_0_0
/-- The mask's whole [1, 2304, 256] tile. -/
abbrev rMask0 : Rect S1x2304x256 := Rect.unit (s := S1x2304x256) ![0, 0, 0] S1x2304x256.size inb_S1x2304x256_S1x2304x256_0_0_0
/-- Row 0 of the output block. -/
abbrev rRow0_0 : Rect S1x2x256 := Rect.unit (s := S1x2x256) ![0, 0, 0] S1x1x256.size inb_S1x2x256_S1x1x256_0_0_0
/-- Row 1 of the output block. -/
abbrev rRow0_1 : Rect S1x2x256 := Rect.unit (s := S1x2x256) ![0, 1, 0] S1x1x256.size inb_S1x2x256_S1x1x256_0_1_0

/-! ## What the body leaves in the output window's buffer -/

/-- The output's staging buffer after the body, from the input blocks: its two row stores as pieces, the last first. -/
def out0_4 (x0 x1 : Vec F S1x2304x512 .f32) (x2 : Vec F S1x512x256 .f32) (x3 : Vec F S1x2304x256 .f32) : Vec F S1x2x256 .f32 :=
  View.canon [⟨rRow0_1, k0_pay4 (View.ld x2 rKey0) (View.ld x3 rMask0) (View.ld x1 rBank0)⟩,
    ⟨rRow0_0, k0_pay3 (View.ld x2 rKey0) (View.ld x3 rMask0) (View.ld x0 rBank0)⟩]

/-- The two rows tile the block, so they cover it. -/
theorem cover0_4 (p0 p1 : Vec F S1x1x256 .f32) (y : S1x2x256.Idx) :
    ∃ pc ∈ ([⟨rRow0_1, p1⟩, ⟨rRow0_0, p0⟩] : List (View.Piece (Elt F) S1x2x256 .f32)), y ∈ pc.1.set :=
  View.cover_of_tiled [⟨rRow0_1, p1⟩, ⟨rRow0_0, p0⟩] S1x1x256.size (by rfl) y

/-! ## The body's triple -/

set_option maxHeartbeats 4000000 in
/-- The body on whole staging buffers, the inputs' at read contents and the output's at anything, runs to the
    continuation holding the inputs' as they were and the output's at `out0_4` of the inputs'. -/
theorem sound_kernel0 (c : Dev nD) (E : Set ℕ) (i : grid0.Coords)
    (arg2 : Memref sig .tc .vmem S1x2304x512 .f32) (harg2 : arg2.IsWhole) (arg3 : Memref sig .tc .vmem S1x2304x512 .f32) (harg3 : arg3.IsWhole)
    (arg4 : Memref sig .tc .vmem S1x512x256 .f32) (harg4 : arg4.IsWhole) (arg5 : Memref sig .tc .vmem S1x2304x256 .f32) (harg5 : arg5.IsWhole)
    (arg6 : Memref sig .tc .vmem S1x2x256 .f32) (harg6 : arg6.IsWhole)
    (x0 x1 : Vec F S1x2304x512 .f32) (x2 : Vec F S1x512x256 .f32) (x3 : Vec F S1x2304x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__local_fused_kernel i arg2 harg2 arg3 harg3 arg4 harg4 arg5 harg5 arg6 harg6) K := by
  simp only [cc0__local_fused_kernel_eq_skeleton]; unfold cc0__local_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _)

/-! ## The pipeline's proof data -/

/-- The proof data of the masked launch on core `c`: the arrays as the region finds them; after the body at point `t`
    each input's buffer at its block and the output's at `out0_4` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The unmasked launch (the second of the two kernel regions) as the pipeline library sees it, at any float instance
  and at a PARAMETER `V`: the contents of the core's buffers when the region is entered.

  A grid point's body reads four whole input blocks (the two global banks' [1, 2304, 512] slabs, the six stacked
  single-slot banks' [1, 6, 512] slab, the key's [1, 512, 384] tile) and overwrites the [1, 8, 384] output block by
  three stores — row 0, row 1, rows 2 … 7 — that tile it; so after the body the output's staging buffer is a function
  `out1_4` of the four input blocks alone, whatever it held before.  The proof data state exactly that, every input
  left in place, nothing owed, and the body obligation follows from one run of the body on whole staging buffers.
-/
import proofs.«171700_j49503793054049_2_alg».proof.Proof.Gen.KernelIdeal.Launch
import proofs.«171700_j49503793054049_2_alg».proof.Proof.Gen.KernelIdeal.Skeleton
import proofs.«171700_j49503793054049_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the two bank windows
    and the stacked banks' window are fetched only when the batch index moves, and between fetches their block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A bank's whole [1, 2304, 512] block. -/
abbrev rBank1 : Rect S1x2304x512 := Rect.unit (s := S1x2304x512) ![0, 0, 0] S1x2304x512.size inb_S1x2304x512_S1x2304x512_0_0_0
/-- The six stacked single-slot banks' whole [1, 6, 512] block. -/
abbrev rSix1 : Rect S1x6x512 := Rect.unit (s := S1x6x512) ![0, 0, 0] S1x6x512.size inb_S1x6x512_S1x6x512_0_0_0
/-- The key's whole [1, 512, 384] tile. -/
abbrev rKey1 : Rect S1x512x384 := Rect.unit (s := S1x512x384) ![0, 0, 0] S1x512x384.size inb_S1x512x384_S1x512x384_0_0_0
/-- Row 0 of the output block. -/
abbrev rRow1_0 : Rect S1x8x384 := Rect.unit (s := S1x8x384) ![0, 0, 0] S1x1x384.size inb_S1x8x384_S1x1x384_0_0_0
/-- Row 1 of the output block. -/
abbrev rRow1_1 : Rect S1x8x384 := Rect.unit (s := S1x8x384) ![0, 1, 0] S1x1x384.size inb_S1x8x384_S1x1x384_0_1_0
/-- Rows 2 … 7 of the output block. -/
abbrev rRows1_2 : Rect S1x8x384 := Rect.unit (s := S1x8x384) ![0, 2, 0] S1x6x384.size inb_S1x8x384_S1x6x384_0_2_0

/-! ## What the body leaves in the output window's buffer -/

/-- The output's staging buffer after the body, from the input blocks: its three stores as pieces, the last first. -/
def out1_4 (x0 x1 : Vec F S1x2304x512 .f32) (x2 : Vec F S1x6x512 .f32) (x3 : Vec F S1x512x384 .f32) : Vec F S1x8x384 .f32 :=
  View.canon [⟨rRows1_2, k1_pay4 (View.ld x3 rKey1) (View.ld x2 rSix1)⟩,
    ⟨rRow1_1, k1_pay3 (View.ld x3 rKey1) (View.ld x1 rBank1)⟩,
    ⟨rRow1_0, k1_pay2 (View.ld x3 rKey1) (View.ld x0 rBank1)⟩]

/-- Cut into single rows the three stores tile the block, so they cover it. -/
theorem cover1_4 (p0 p1 : Vec F S1x1x384 .f32) (p2 : Vec F S1x6x384 .f32) (y : S1x8x384.Idx) :
    ∃ pc ∈ ([⟨rRows1_2, p2⟩, ⟨rRow1_1, p1⟩, ⟨rRow1_0, p0⟩] : List (View.Piece (Elt F) S1x8x384 .f32)), y ∈ pc.1.set :=
  View.cover_of_tiledBy [⟨rRows1_2, p2⟩, ⟨rRow1_1, p1⟩, ⟨rRow1_0, p0⟩] S1x1x384.size (by sl_kernel_rfl) y

/-! ## The body's triple -/

set_option maxHeartbeats 4000000 in
/-- The body on whole staging buffers, the inputs' at read contents and the output's at anything, runs to the
    continuation holding the inputs' as they were and the output's at `out1_4` of the inputs'. -/
theorem sound_kernel1 (c : Dev nD) (E : Set ℕ) (i : grid1.Coords)
    (arg2 : Memref sig .tc .vmem S1x2304x512 .f32) (harg2 : arg2.IsWhole) (arg3 : Memref sig .tc .vmem S1x2304x512 .f32) (harg3 : arg3.IsWhole)
    (arg4 : Memref sig .tc .vmem S1x6x512 .f32) (harg4 : arg4.IsWhole) (arg5 : Memref sig .tc .vmem S1x512x384 .f32) (harg5 : arg5.IsWhole)
    (arg6 : Memref sig .tc .vmem S1x8x384 .f32) (harg6 : arg6.IsWhole)
    (x0 x1 : Vec F S1x2304x512 .f32) (x2 : Vec F S1x6x512 .f32) (x3 : Vec F S1x512x384 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__global_coarse_kernel i arg2 harg2 arg3 harg3 arg4 harg4 arg5 harg5 arg6 harg6) K := by
  simp only [cc1__global_coarse_kernel_eq_skeleton]; unfold cc1__global_coarse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _)

/-! ## The pipeline's proof data -/

/-- The proof data of the unmasked launch on core `c`: the arrays as the region finds them; after the body at point `t`
    each input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole run of the program, at any float instance: @main is five segments — a stretch of host operations (the two
  input reshapes), the masked launch, a stretch (the six single-slot banks stacked), the unmasked launch, a stretch (two
  slices, the concatenation of the ten rows, the last reshape).

  The contents of the core's unscoped buffers are followed from boundary to boundary: a host stretch applies its
  operations' results, a launch replaces its output array by what its write-backs leave and keeps every other buffer
  (an input window's array ends as it was found).  Every weakly fair execution terminates without a fault with every
  unscoped buffer at the last boundary's contents `W5`; no segment writes an argument, so each argument ends as launched.
-/
import proofs.«171700_j49503793054049_2_alg».proof.Proof.KiRegion0
import proofs.«171700_j49503793054049_2_alg».proof.Proof.KiRegion1
import proofs.«171700_j49503793054049_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the two input reshapes (the masked launch's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the masked launch's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the six single-slot banks are stacked (the unmasked launch's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the unmasked launch's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the closing host operations: the contents the program ends with. -/
abbrev W5 : Dev nD → Valuation τ sig (Elt F) := fun c => StableHlo.after hostOps2 (W4 m c)

/-! ## What each segment leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
/-- The masked launch changes only its output array: an input window's array ends as found, any other buffer is not its. -/
theorem W2_of (c : Dev nD) (b : Ref sig .tc) (hb : b ≠ main_v2) : W2 m c b = W1 m c b := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => exact absurd rfl hb
    exact (W2_arr m c w).trans (((dat0 (U1 m) c).arrAt_in w hw _).trans (A_eq0 (U1 m) c w))
  · exact W2_of_ne m c b fun w e => h ⟨w, e⟩
/-- The unmasked launch changes only its output array. -/
theorem W4_of (c : Dev nD) (b : Ref sig .tc) (hb : b ≠ main_v4) : W4 m c b = W3 m c b := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => exact absurd rfl hb
    exact (W4_arr m c w).trans (((dat1 (U3 m) c).arrAt_in w hw _).trans (A_eq1 (U3 m) c w))
  · exact W4_of_ne m c b fun w e => h ⟨w, e⟩

/-- A buffer no host operation writes and no launch outputs ends as launched: every argument is one. -/
theorem W5_kept (c : Dev nD) (b : Ref sig .tc) (h0 : b ∉ hostOps0_W) (h1 : b ∉ hostOps1_W) (h2 : b ∉ hostOps2_W)
    (hv2 : b ≠ main_v2) (hv4 : b ≠ main_v4) : W5 m c b = m ((c : Thread nD τ).loc b) :=
  (W5_of m c b h2).trans <| (W4_of m c b hv4).trans <| (W3_of m c b h1).trans <| (W2_of m c b hv2).trans <| (W1_of m c b h0).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues, at
    nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TH (c : Dev nD) : sProp 𝕄 := StableHlo.held (c : Thread nD τ) (Pipeline.ucRefs τ sig) (W5 m c)

/-! ## The regions as segments -/

set_option backward.isDefEq.respectTransparency.types false in
/-- The masked launch over the thread state: entered from every unscoped buffer at `W1`, left at `W2`. Its arrays are
    split out of the unscoped buffers and put back at the exit contents; the generator register goes into the
    invariant and comes out; nothing is owed; the kernel has no semaphore of its own. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The unmasked launch over the thread state: entered from every unscoped buffer at `W3`, left at `W4`. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segsH : List (Pipeline.Seg (pcfgs (F := F)) adm (pdatsH m) () defs₀ 𝒱H LH lvH) :=
  [ .host (hsegH hostOps0 hostOps0_sub hostOps0_fresh (W0 m)),
    .region (regH0 m),
    .host (hsegH hostOps1 hostOps1_sub hostOps1_fresh (W2 m)),
    .region (regH1 m),
    .host (hsegH hostOps2 hostOps2_sub hostOps2_fresh (W4 m)) ]
/-- @main is the run of the segments. -/
theorem main_run (c : Dev nD) : main (F := F) c = Pipeline.Seg.run (segsH m) := (main_chain c).trans (by chain_rfl)

set_option backward.isDefEq.respectTransparency.types false in
/-- THE RUN: from any memory with zero counters, every weakly fair execution of @main on the TensorCores terminates,
    nothing faulting, and every final state has every unscoped buffer at the last boundary's contents `W5`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m c (Proc.devRef .tc b)) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun c => by
      show iprop(StableHlo.held (c : Thread nD τ) (Pipeline.ucRefs τ sig) (W5 m c) ∗ RH c) ⊢ _
      iintro ⟨Hh, -, HO⟩
      isplitl [Hh]; · iexact Hh
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c main_arg0 (by decide)).trans (W5_kept m c main_arg0 (by decide) (by decide) (by decide) (by decide) (by decide)),
     (h c main_arg1 (by decide)).trans (W5_kept m c main_arg1 (by decide) (by decide) (by decide) (by decide) (by decide)),
     (h c main_arg2 (by decide)).trans (W5_kept m c main_arg2 (by decide) (by decide) (by decide) (by decide) (by decide)),
     (h c main_arg3 (by decide)).trans (W5_kept m c main_arg3 (by decide) (by decide) (by decide) (by decide) (by decide)),
     (h c main_arg4 (by decide)).trans (W5_kept m c main_arg4 (by decide) (by decide) (by decide) (by decide) (by decide)),
     (h c main_arg5 (by decide)).trans (W5_kept m c main_arg5 (by decide) (by decide) (by decide) (by decide) (by decide)),
     (h c main_arg6 (by decide)).trans (W5_kept m c main_arg6 (by decide) (by decide) (by decide) (by decide) (by decide)),
     (h c main_arg7 (by decide)).trans (W5_kept m c main_arg7 (by decide) (by decide) (by decide) (by decide) (by decide)),
     (h c main_arg8 (by decide)).trans (W5_kept m c main_arg8 (by decide) (by decide) (by decide) (by decide) (by decide)),
     (h c main_arg9 (by decide)).trans (W5_kept m c main_arg9 (by decide) (by decide) (by decide) (by decide) (by decide)),
     (h c main_arg10 (by decide)).trans (W5_kept m c main_arg10 (by decide) (by decide) (by decide) (by decide) (by decide)),
     (h c main_arg11 (by decide)).trans (W5_kept m c main_arg11 (by decide) (by decide) (by decide) (by decide) (by decide))⟩)
    (run_all m ρ)

end Cert.KernelIdeal.Hand

end
-- ==== Proof.Spec.lean ====
/-
  The value both programs compute, as ONE function of the argument arrays.

  With `K` the key reshaped to [8, 512, 2304] (batch, channel, position) and `Mk` the mask reshaped to
  [8, 2304, 2304] (batch, memory slot, position), the result before its last reshape is the [8, 10, 2304] array `Z`:
    row 0, 1    the maximum over the memory slots m of the score  Σ_e bank(b, m, e) · K(b, e, n)  for the two global banks;
    row 2, 3    the same maximum of  score · Mk(b, m, n)  for the two local banks;
    row 4 … 9   the score of each of the six single-slot banks.
  A maximum is the fold of `max` over the 2304 slots from −∞ (the float word 0xFF800000, which is never evaluated:
  the same word starts the fold on both sides).  The two kernel launches' outputs, `localOut` ([8, 2, 2304]) and
  `gcOut` ([8, 8, 2304], over the six single-slot banks stacked into one [8, 6, 512] array), are stated here too.
-/
import Idealize.ShloMosaic.PureOps.Ideal
import Idealize.ShloMosaic.Lib.ValueIdx

noncomputable section

namespace Cert.Spec

open Idealize.ShloMosaic Idealize.ShloMosaic.ValueIdx
open scoped BigOperators

/-- The reshaped key [batch, channel, position]. -/
abbrev SK : Shape := ⟨3, ![8, 512, 2304]⟩
/-- The reshaped mask [batch, memory slot, position]. -/
abbrev SM : Shape := ⟨3, ![8, 2304, 2304]⟩
/-- A memory bank [batch, memory slot, channel]. -/
abbrev SB : Shape := ⟨3, ![8, 2304, 512]⟩
/-- A single-slot bank [batch, 1, channel]. -/
abbrev SC : Shape := ⟨3, ![8, 1, 512]⟩
/-- The six single-slot banks stacked [batch, 6, channel]. -/
abbrev SC6 : Shape := ⟨3, ![8, 6, 512]⟩
/-- The masked launch's output [batch, 2, position]. -/
abbrev SL : Shape := ⟨3, ![8, 2, 2304]⟩
/-- The unmasked launch's output [batch, 8, position]. -/
abbrev SG : Shape := ⟨3, ![8, 8, 2304]⟩
/-- The result before its last reshape [batch, 10, position]. -/
abbrev SZ : Shape := ⟨3, ![8, 10, 2304]⟩

/-- −∞, the value every maximum starts from. -/
abbrev negInf : EReal := Ideal.ofBits .f32 0xFF800000#32

/-- The score of memory slot `m` of a bank against position `n` of batch `b`: the sum over the 512 channels. -/
def dotAt {M : Nat} (bank : (⟨3, ![8, M, 512]⟩ : Shape).Idx → EReal) (K : SK.Idx → EReal)
    (b : Fin 8) (m : Fin M) (n : Fin 2304) : EReal :=
  ∑ e : Fin 512, bank (ix3 b m e) * K (ix3 b e n)

/-- The maximum over the memory slots of a bank's scores at position `n` of batch `b`. -/
def fineMax (bank : SB.Idx → EReal) (K : SK.Idx → EReal) (b : Fin 8) (n : Fin 2304) : EReal :=
  (Finset.univ : Finset (Fin 2304)).fold max negInf fun m => dotAt bank K b m n

/-- The same maximum with every score multiplied by the mask at (b, m, n) first. -/
def maskedMax (bank : SB.Idx → EReal) (K : SK.Idx → EReal) (Mk : SM.Idx → EReal) (b : Fin 8) (n : Fin 2304) : EReal :=
  (Finset.univ : Finset (Fin 2304)).fold max negInf fun m => dotAt bank K b m n * Mk (ix3 b m n)

/-- What the masked launch writes: row 0 from the first local bank, row 1 from the second. -/
def localOut (lbg lfg : SB.Idx → EReal) (K : SK.Idx → EReal) (Mk : SM.Idx → EReal) : SL.Idx → EReal := fun i =>
  if (i 1).val = 0 then maskedMax lbg K Mk (i 0) (i 2) else maskedMax lfg K Mk (i 0) (i 2)

/-- What the unmasked launch writes: rows 0 and 1 the two global banks' maxima, rows 2 … 7 the scores of the six stacked
    single-slot banks. -/
def gcOut (gbg gfg : SB.Idx → EReal) (C6 : SC6.Idx → EReal) (K : SK.Idx → EReal) : SG.Idx → EReal := fun i =>
  if (i 1).val = 0 then fineMax gbg K (i 0) (i 2)
  else if (i 1).val = 1 then fineMax gfg K (i 0) (i 2)
  else dotAt C6 K (i 0) ⟨((i 1).val - 2) % 6, Nat.mod_lt _ (by decide)⟩ (i 2)

/-- The single-slot bank number `j` of six. -/
def coarseSel (c0 c1 c2 c3 c4 c5 : SC.Idx → EReal) (j : Nat) : SC.Idx → EReal :=
  if j = 0 then c0 else if j = 1 then c1 else if j = 2 then c2 else if j = 3 then c3 else if j = 4 then c4 else c5

/-- The result before its last reshape, row by row. -/
def Z (K : SK.Idx → EReal) (Mk : SM.Idx → EReal) (gbg gfg lbg lfg : SB.Idx → EReal)
    (c0 c1 c2 c3 c4 c5 : SC.Idx → EReal) : SZ.Idx → EReal := fun i =>
  if (i 1).val = 0 then fineMax gbg K (i 0) (i 2)
  else if (i 1).val = 1 then fineMax gfg K (i 0) (i 2)
  else if (i 1).val = 2 then maskedMax lbg K Mk (i 0) (i 2)
  else if (i 1).val = 3 then maskedMax lfg K Mk (i 0) (i 2)
  else dotAt (coarseSel c0 c1 c2 c3 c4 c5 ((i 1).val - 4)) K (i 0) (0 : Fin 1) (i 2)

/-- The last reshape: [8, 10, 2304] to [8, 10, 48, 48], a position `n` becoming the pixel (n / 48, n % 48). -/
theorem castZ : SZ.ShapeCasts (⟨4, ![8, 10, 48, 48]⟩ : Shape) := by decide

end Cert.Spec

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.PayIdx.lean ====
/-
  The two kernels' stored values read at an index, at the exact-real instance.

  Each stored row is a shape-cast of a column maximum (or, for the six single-slot banks, of a matrix product itself):
  entry q of the row is the fold of `max` from −∞ over the 2304 memory slots mm of
  (Σ_e bank(0, mm, e) · key(0, e, q)) — times mask(0, mm, q) in the masked launch —, the change of float format
  being the identity on extended reals and the product into a zero accumulator a plain sum over the channels.
-/
import proofs.«171700_j49503793054049_2_alg».proof.Proof.Gen.KernelIdeal.Skeleton
import proofs.«171700_j49503793054049_2_alg».proof.Proof.Spec
import proofs.«171700_j49503793054049_2_alg».proof.Proof.LibMatmulNN
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx
open scoped BigOperators

/-- Reducing a `[2304, n]` array over its rows: the index inserted at column `q` and row `mm` is `(mm, q)`. -/
private theorem lift_rows {n : ℕ} (h : (⟨2, ![2304, n]⟩ : Shape).Reduces [0] ⟨1, ![n]⟩) (q : Fin n) (mm : Fin 2304) :
    h.lift (ix1 q) mm = ix2 mm q := by
  funext a
  apply Fin.ext
  match a with
  | ⟨0, _⟩ => rfl
  | ⟨1, _⟩ => rfl

/-- Row 0 of the masked launch's block: the first local bank. -/
theorem k0_pay3_apply (v0 : Vec Ideal S1x512x256 .f32) (v3 : Vec Ideal S1x2304x256 .f32) (v5 : Vec Ideal S1x2304x512 .f32) (q : Fin 256) :
    k0_pay3 (F := Ideal) v0 v3 v5 (ix3 0 0 q)
      = (Finset.univ : Finset (Fin 2304)).fold max Cert.Spec.negInf fun mm =>
          (∑ e : Fin 512, v5 (ix3 0 mm e) * v0 (ix3 0 e q)) * v3 (ix3 0 mm q) := by
  unfold k0_pay3
  -- the two outer casts [256] → [1, 256] → [1, 1, 256] read the vector at q
  refine (shapeCast_ab_1ab_apply _ _ 0 0 q).trans ?_
  refine (shapeCast_a_1a_apply _ _ 0 q).trans ?_
  -- the column maximum is the fold of max from −∞ over the rows
  refine (Ideal.multiReduction_maximumf_single _ _ _ _ _ (ix1 q)).trans ?_
  refine congrArg (fun f => Finset.fold max Cert.Spec.negInf f (Finset.univ : Finset (Fin 2304))) (funext fun mm => ?_)
  refine (congrArg _ (lift_rows reduces_S2304x256_S256 q mm)).trans ?_
  -- entry (mm, q): the product's entry times the mask's
  refine congrArg₂ (· * ·) ?_ ?_
  · refine (Cert.LibMatmulNN.matmul_zero_apply dot_S2304x512_S512x256_S2304x256_1_0_0_1_n_n_wf none _ _ mm q).trans ?_
    refine Finset.sum_congr rfl fun e _ => ?_
    unfold k0_pay1
    exact congrArg₂ (· * ·) (shapeCast_1ab_ab_apply v5 _ mm e) (shapeCast_1ab_ab_apply v0 _ e q)
  · unfold k0_pay2
    exact shapeCast_1ab_ab_apply v3 _ mm q

/-- Row 1 of the masked launch's block: the second local bank. -/
theorem k0_pay4_apply (v0 : Vec Ideal S1x512x256 .f32) (v3 : Vec Ideal S1x2304x256 .f32) (v15 : Vec Ideal S1x2304x512 .f32) (q : Fin 256) :
    k0_pay4 (F := Ideal) v0 v3 v15 (ix3 0 0 q)
      = (Finset.univ : Finset (Fin 2304)).fold max Cert.Spec.negInf fun mm =>
          (∑ e : Fin 512, v15 (ix3 0 mm e) * v0 (ix3 0 e q)) * v3 (ix3 0 mm q) := by
  unfold k0_pay4
  refine (shapeCast_ab_1ab_apply _ _ 0 0 q).trans ?_
  refine (shapeCast_a_1a_apply _ _ 0 q).trans ?_
  refine (Ideal.multiReduction_maximumf_single _ _ _ _ _ (ix1 q)).trans ?_
  refine congrArg (fun f => Finset.fold max Cert.Spec.negInf f (Finset.univ : Finset (Fin 2304))) (funext fun mm => ?_)
  refine (congrArg _ (lift_rows reduces_S2304x256_S256 q mm)).trans ?_
  refine congrArg₂ (· * ·) ?_ ?_
  · refine (Cert.LibMatmulNN.matmul_zero_apply dot_S2304x512_S512x256_S2304x256_1_0_0_1_n_n_wf none _ _ mm q).trans ?_
    refine Finset.sum_congr rfl fun e _ => ?_
    unfold k0_pay1
    exact congrArg₂ (· * ·) (shapeCast_1ab_ab_apply v15 _ mm e) (shapeCast_1ab_ab_apply v0 _ e q)
  · unfold k0_pay2
    exact shapeCast_1ab_ab_apply v3 _ mm q

/-- Row 0 of the unmasked launch's block: the first global bank. -/
theorem k1_pay2_apply (v0 : Vec Ideal S1x512x384 .f32) (v3 : Vec Ideal S1x2304x512 .f32) (q : Fin 384) :
    k1_pay2 (F := Ideal) v0 v3 (ix3 0 0 q)
      = (Finset.univ : Finset (Fin 2304)).fold max Cert.Spec.negInf fun mm =>
          ∑ e : Fin 512, v3 (ix3 0 mm e) * v0 (ix3 0 e q) := by
  unfold k1_pay2
  refine (shapeCast_ab_1ab_apply _ _ 0 0 q).trans ?_
  refine (shapeCast_a_1a_apply _ _ 0 q).trans ?_
  refine (Ideal.multiReduction_maximumf_single _ _ _ _ _ (ix1 q)).trans ?_
  refine congrArg (fun f => Finset.fold max Cert.Spec.negInf f (Finset.univ : Finset (Fin 2304))) (funext fun mm => ?_)
  refine (congrArg _ (lift_rows reduces_S2304x384_S384 q mm)).trans ?_
  refine (Cert.LibMatmulNN.matmul_zero_apply dot_S2304x512_S512x384_S2304x384_1_0_0_1_n_n_wf none _ _ mm q).trans ?_
  refine Finset.sum_congr rfl fun e _ => ?_
  unfold k1_pay1
  exact congrArg₂ (· * ·) (shapeCast_1ab_ab_apply v3 _ mm e) (shapeCast_1ab_ab_apply v0 _ e q)

/-- Row 1 of the unmasked launch's block: the second global bank. -/
theorem k1_pay3_apply (v0 : Vec Ideal S1x512x384 .f32) (v12 : Vec Ideal S1x2304x512 .f32) (q : Fin 384) :
    k1_pay3 (F := Ideal) v0 v12 (ix3 0 0 q)
      = (Finset.univ : Finset (Fin 2304)).fold max Cert.Spec.negInf fun mm =>
          ∑ e : Fin 512, v12 (ix3 0 mm e) * v0 (ix3 0 e q) := by
  unfold k1_pay3
  refine (shapeCast_ab_1ab_apply _ _ 0 0 q).trans ?_
  refine (shapeCast_a_1a_apply _ _ 0 q).trans ?_
  refine (Ideal.multiReduction_maximumf_single _ _ _ _ _ (ix1 q)).trans ?_
  refine congrArg (fun f => Finset.fold max Cert.Spec.negInf f (Finset.univ : Finset (Fin 2304))) (funext fun mm => ?_)
  refine (congrArg _ (lift_rows reduces_S2304x384_S384 q mm)).trans ?_
  refine (Cert.LibMatmulNN.matmul_zero_apply dot_S2304x512_S512x384_S2304x384_1_0_0_1_n_n_wf none _ _ mm q).trans ?_
  refine Finset.sum_congr rfl fun e _ => ?_
  unfold k1_pay1
  exact congrArg₂ (· * ·) (shapeCast_1ab_ab_apply v12 _ mm e) (shapeCast_1ab_ab_apply v0 _ e q)

/-- Rows 2 … 7 of the unmasked launch's block: the six stacked single-slot banks. -/
theorem k1_pay4_apply (v0 : Vec Ideal S1x512x384 .f32) (v21 : Vec Ideal S1x6x512 .f32) (j : Fin 6) (q : Fin 384) :
    k1_pay4 (F := Ideal) v0 v21 (ix3 0 j q) = ∑ e : Fin 512, v21 (ix3 0 j e) * v0 (ix3 0 e q) := by
  unfold k1_pay4
  -- the outer cast [6, 384] → [1, 6, 384] reads the product at (j, q)
  refine (shapeCast_ab_1ab_apply _ _ 0 j q).trans ?_
  refine (Cert.LibMatmulNN.matmul_zero_apply dot_S6x512_S512x384_S6x384_1_0_0_1_n_n_wf none _ _ j q).trans ?_
  refine Finset.sum_congr rfl fun e _ => ?_
  unfold k1_pay1
  exact congrArg₂ (· * ·) (shapeCast_1ab_ab_apply v21 _ j e) (shapeCast_1ab_ab_apply v0 _ e q)

end Cert.KernelIdeal.Hand

end
-- ==== Proof.KiBlocks0.lean ====
/-
  From blocks to the array, the masked launch, at the exact-real instance.

  Grid point t = 9 b + k writes back the [1, 2, 256] block of batch b and positions 256 k … 256 k + 255.  Its two rows are
  the two row stores' payloads: entry q of row r is the maximum over the 2304 memory slots of the local bank r's score
  against the key's tile at q, times the mask's tile there.  The four input blocks are the arrays' restrictions to batch b
  (and, for the key and the mask, to the same positions), so the block is the restriction of `Cert.Spec.localOut`; the 72
  blocks cover [8, 2, 2304], so the array ends holding `Cert.Spec.localOut`.
-/
import proofs.«171700_j49503793054049_2_alg».proof.Proof.KiRegion0
import proofs.«171700_j49503793054049_2_alg».proof.Proof.PayIdx
import proofs.«171700_j49503793054049_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

private theorem hz3 : (![0, 0, 0] : Fin 3 → Nat) = fun _ => 0 := funext fun a => by fin_cases a <;> rfl

/-- An index of a [1, n1, n2] block is its last two coordinates. -/
private theorem eq_ix3_unit {n1 n2 : Nat} (y : (⟨3, ![1, n1, n2]⟩ : Shape).Idx) : y = ix3 0 (y 1) (y 2) := by
  funext a
  match a with
  | ⟨0, _⟩ => exact Fin.ext (Nat.lt_one_iff.mp (y 0).isLt)
  | ⟨1, _⟩ => rfl
  | ⟨2, _⟩ => rfl

/-! ## The output block at an index -/

/-- The masked maximum of a block's scores at position q of the tile. -/
def blkMax0 (bank : Vec Ideal S1x2304x512 .f32) (key : Vec Ideal S1x512x256 .f32) (mask : Vec Ideal S1x2304x256 .f32)
    (q : Fin 256) : EReal :=
  (Finset.univ : Finset (Fin 2304)).fold max Cert.Spec.negInf fun mm =>
    (∑ e : Fin 512, bank (ix3 0 mm e) * key (ix3 0 e q)) * mask (ix3 0 mm q)

/-- Row 1 of the output block is the last store's payload: the second local bank's masked maximum. -/
theorem out0_4_row1 (x0 x1 : Vec Ideal S1x2304x512 .f32) (x2 : Vec Ideal S1x512x256 .f32) (x3 : Vec Ideal S1x2304x256 .f32) (q : Fin 256) :
    out0_4 x0 x1 x2 x3 (ix3 0 1 q) = blkMax0 x1 x2 x3 q := by
  unfold out0_4
  have h : (ix3 0 1 q : S1x2x256.Idx) = rRow0_1.emb (ix3 0 0 q) := by
    funext a; apply Fin.ext
    match a with
    | ⟨0, _⟩ => rfl
    | ⟨1, _⟩ => rfl
    | ⟨2, _⟩ => show q.val = 0 + 1 * q.val; omega
  rw [h, View.canon_cons_emb]
  refine (k0_pay4_apply _ _ _ q).trans ?_
  have e2 : View.ld x2 rKey0 = x2 := View.ld_unit_zero (S := S1x512x256) hz3 _ x2
  have e3 : View.ld x3 rMask0 = x3 := View.ld_unit_zero (S := S1x2304x256) hz3 _ x3
  have e1 : View.ld x1 rBank0 = x1 := View.ld_unit_zero (S := S1x2304x512) hz3 _ x1
  rw [e1, e2, e3]
  rfl

/-- Row 0 is off the last store's row, so it is the first store's payload: the first local bank's masked maximum. -/
theorem out0_4_row0 (x0 x1 : Vec Ideal S1x2304x512 .f32) (x2 : Vec Ideal S1x512x256 .f32) (x3 : Vec Ideal S1x2304x256 .f32) (q : Fin 256) :
    out0_4 x0 x1 x2 x3 (ix3 0 0 q) = blkMax0 x0 x2 x3 q := by
  unfold out0_4
  have hn : (ix3 0 0 q : S1x2x256.Idx) ∉ rRow0_1.set := by
    intro hm
    have h1 := (Rect.mem_set_unit.mp hm) 1
    have h2 : (1 : Nat) ≤ 0 := h1.1
    omega
  refine (View.canon_cons_of_not_mem (⟨rRow0_1, _⟩ : View.Piece (Elt Ideal) S1x2x256 .f32) _ hn).trans ?_
  have h : (ix3 0 0 q : S1x2x256.Idx) = rRow0_0.emb (ix3 0 0 q) := by
    funext a; apply Fin.ext
    match a with
    | ⟨0, _⟩ => rfl
    | ⟨1, _⟩ => rfl
    | ⟨2, _⟩ => show q.val = 0 + 1 * q.val; omega
  rw [h, View.canon_cons_emb]
  refine (k0_pay3_apply _ _ _ q).trans ?_
  have e2 : View.ld x2 rKey0 = x2 := View.ld_unit_zero (S := S1x512x256) hz3 _ x2
  have e3 : View.ld x3 rMask0 = x3 := View.ld_unit_zero (S := S1x2304x256) hz3 _ x3
  have e0 : View.ld x0 rBank0 = x0 := View.ld_unit_zero (S := S1x2304x512) hz3 _ x0
  rw [e0, e2, e3]
  rfl

/-- The block maximum of blocks that are the arrays' restrictions to batch b and position n is the arrays' masked maximum. -/
theorem blkMax0_eq (x : Vec Ideal S1x2304x512 .f32) (x2 : Vec Ideal S1x512x256 .f32) (x3 : Vec Ideal S1x2304x256 .f32)
    (bank : Cert.Spec.SB.Idx → EReal) (K : Cert.Spec.SK.Idx → EReal) (Mk : Cert.Spec.SM.Idx → EReal)
    (b : Fin 8) (q : Fin 256) (n : Fin 2304)
    (h0 : ∀ mm e, x (ix3 0 mm e) = bank (ix3 b mm e))
    (h2 : ∀ e, x2 (ix3 0 e q) = K (ix3 b e n))
    (h3 : ∀ mm, x3 (ix3 0 mm q) = Mk (ix3 b mm n)) :
    blkMax0 x x2 x3 q = Cert.Spec.maskedMax bank K Mk b n := by
  unfold blkMax0 Cert.Spec.maskedMax Cert.Spec.dotAt
  refine congrArg (fun f => Finset.fold max Cert.Spec.negInf f (Finset.univ : Finset (Fin 2304))) (funext fun mm => ?_)
  rw [h3 mm]
  refine congrArg (· * _) (Finset.sum_congr rfl fun e _ => ?_)
  rw [h0 mm e, h2 e]

/-- The output block at (0, r, q), from input blocks that are the arrays' restrictions, is the launch's value at (b, r, n). -/
theorem out0_4_at (x0 x1 : Vec Ideal S1x2304x512 .f32) (x2 : Vec Ideal S1x512x256 .f32) (x3 : Vec Ideal S1x2304x256 .f32)
    (lbg lfg : Cert.Spec.SB.Idx → EReal) (K : Cert.Spec.SK.Idx → EReal) (Mk : Cert.Spec.SM.Idx → EReal)
    (b : Fin 8) (r : Fin 2) (q : Fin 256) (n : Fin 2304)
    (h0 : ∀ mm e, x0 (ix3 0 mm e) = lbg (ix3 b mm e))
    (h1 : ∀ mm e, x1 (ix3 0 mm e) = lfg (ix3 b mm e))
    (h2 : ∀ e, x2 (ix3 0 e q) = K (ix3 b e n))
    (h3 : ∀ mm, x3 (ix3 0 mm q) = Mk (ix3 b mm n)) :
    out0_4 x0 x1 x2 x3 (ix3 0 r q) = Cert.Spec.localOut lbg lfg K Mk (ix3 b r n) := by
  match r with
  | ⟨0, _⟩ =>
    refine (out0_4_row0 x0 x1 x2 x3 q).trans ?_
    refine (blkMax0_eq x0 x2 x3 lbg K Mk b q n h0 h2 h3).trans ?_
    unfold Cert.Spec.localOut
    exact (if_pos rfl).symm
  | ⟨1, _⟩ =>
    refine (out0_4_row1 x0 x1 x2 x3 q).trans ?_
    refine (blkMax0_eq x1 x2 x3 lfg K Mk b q n h1 h2 h3).trans ?_
    unfold Cert.Spec.localOut
    exact (if_neg Nat.one_ne_zero).symm

/-! ## The grid's points and the input blocks -/

/-- The printed index maps, decided over the 72 points: point t is batch t / 9 and position tile t % 9; the banks' blocks
    follow the batch alone, the key's, the mask's and the output's the batch and the tile. -/
theorem idx_facts0 : ∀ t : Fin cfg0.N,
    win0_0.index t (0 : Fin 3) = t.val / 9 ∧ win0_0.index t (1 : Fin 3) = 0 ∧ win0_0.index t (2 : Fin 3) = 0
    ∧ win0_1.index t (0 : Fin 3) = t.val / 9 ∧ win0_1.index t (1 : Fin 3) = 0 ∧ win0_1.index t (2 : Fin 3) = 0
    ∧ win0_2.index t (0 : Fin 3) = t.val / 9 ∧ win0_2.index t (1 : Fin 3) = 0 ∧ win0_2.index t (2 : Fin 3) = t.val % 9
    ∧ win0_3.index t (0 : Fin 3) = t.val / 9 ∧ win0_3.index t (1 : Fin 3) = 0 ∧ win0_3.index t (2 : Fin 3) = t.val % 9
    ∧ win0_4.index t (0 : Fin 3) = t.val / 9 ∧ win0_4.index t (1 : Fin 3) = 0 ∧ win0_4.index t (2 : Fin 3) = t.val % 9 :=
  (by decide +kernel : ∀ t : Fin grid0.N, _)

/-- Every (batch, tile) is some point's. -/
theorem idx_onto0 : ∀ (b : Fin 8) (k : Fin 9), ∃ t : Fin cfg0.N, t.val = b.val * 9 + k.val :=
  (by decide +kernel : ∀ (b : Fin 8) (k : Fin 9), ∃ t : Fin grid0.N, t.val = b.val * 9 + k.val)

variable (V : (c : Dev nD) → (b : Ref sig .tc) → Buf (Elt Ideal) ((c : Thread nD τ).loc b))

/-- The first local bank's block at point t is its batch t / 9. -/
theorem iblk0_0_apply (c : Dev nD) (t : Fin cfg0.N) (b : Fin 8) (hb : b.val = t.val / 9) (mm : Fin 2304) (e : Fin 512) :
    (iblk0 V c 0 t : Vec Ideal S1x2304x512 .f32) (ix3 0 mm e) = (V c main_arg4 : Cert.Spec.SB.Idx → EReal) (ix3 b mm e) := by
  obtain ⟨e0, e1, e2, -⟩ := idx_facts0 t
  show V c main_arg4 (((cfg0.win 0).blk t).view.emb (ix3 0 mm e)) = V c main_arg4 (ix3 b mm e)
  congr 1
  funext a; apply Fin.ext
  match a with
  | ⟨0, _⟩ => show win0_0.index t (0 : Fin 3) * 1 + 1 * 0 = b.val; omega
  | ⟨1, _⟩ => show win0_0.index t (1 : Fin 3) * 2304 + 1 * mm.val = mm.val; omega
  | ⟨2, _⟩ => show win0_0.index t (2 : Fin 3) * 512 + 1 * e.val = e.val; omega

/-- The second local bank's block at point t is its batch t / 9. -/
theorem iblk0_1_apply (c : Dev nD) (t : Fin cfg0.N) (b : Fin 8) (hb : b.val = t.val / 9) (mm : Fin 2304) (e : Fin 512) :
    (iblk0 V c 1 t : Vec Ideal S1x2304x512 .f32) (ix3 0 mm e) = (V c main_arg5 : Cert.Spec.SB.Idx → EReal) (ix3 b mm e) := by
  obtain ⟨-, -, -, e0, e1, e2, -⟩ := idx_facts0 t
  show V c main_arg5 (((cfg0.win 1).blk t).view.emb (ix3 0 mm e)) = V c main_arg5 (ix3 b mm e)
  congr 1
  funext a; apply Fin.ext
  match a with
  | ⟨0, _⟩ => show win0_1.index t (0 : Fin 3) * 1 + 1 * 0 = b.val; omega
  | ⟨1, _⟩ => show win0_1.index t (1 : Fin 3) * 2304 + 1 * mm.val = mm.val; omega
  | ⟨2, _⟩ => show win0_1.index t (2 : Fin 3) * 512 + 1 * e.val = e.val; omega

/-- The key's tile at point t is batch t / 9, positions 256 (t % 9) + q. -/
theorem iblk0_2_apply (c : Dev nD) (t : Fin cfg0.N) (b : Fin 8) (hb : b.val = t.val / 9) (q : Fin 256) (n : Fin 2304)
    (hn : n.val = t.val % 9 * 256 + q.val) (e : Fin 512) :
    (iblk0 V c 2 t : Vec Ideal S1x512x256 .f32) (ix3 0 e q) = (V c main_v0 : Cert.Spec.SK.Idx → EReal) (ix3 b e n) := by
  obtain ⟨-, -, -, -, -, -, e0, e1, e2, -⟩ := idx_facts0 t
  show V c main_v0 (((cfg0.win 2).blk t).view.emb (ix3 0 e q)) = V c main_v0 (ix3 b e n)
  congr 1
  funext a; apply Fin.ext
  match a with
  | ⟨0, _⟩ => show win0_2.index t (0 : Fin 3) * 1 + 1 * 0 = b.val; omega
  | ⟨1, _⟩ => show win0_2.index t (1 : Fin 3) * 512 + 1 * e.val = e.val; omega
  | ⟨2, _⟩ => show win0_2.index t (2 : Fin 3) * 256 + 1 * q.val = n.val; omega

/-- The mask's tile at point t is batch t / 9, positions 256 (t % 9) + q. -/
theorem iblk0_3_apply (c : Dev nD) (t : Fin cfg0.N) (b : Fin 8) (hb : b.val = t.val / 9) (q : Fin 256) (n : Fin 2304)
    (hn : n.val = t.val % 9 * 256 + q.val) (mm : Fin 2304) :
    (iblk0 V c 3 t : Vec Ideal S1x2304x256 .f32) (ix3 0 mm q) = (V c main_v1 : Cert.Spec.SM.Idx → EReal) (ix3 b mm n) := by
  obtain ⟨-, -, -, -, -, -, -, -, -, e0, e1, e2, -⟩ := idx_facts0 t
  show V c main_v1 (((cfg0.win 3).blk t).view.emb (ix3 0 mm q)) = V c main_v1 (ix3 b mm n)
  congr 1
  funext a; apply Fin.ext
  match a with
  | ⟨0, _⟩ => show win0_3.index t (0 : Fin 3) * 1 + 1 * 0 = b.val; omega
  | ⟨1, _⟩ => show win0_3.index t (1 : Fin 3) * 2304 + 1 * mm.val = mm.val; omega
  | ⟨2, _⟩ => show win0_3.index t (2 : Fin 3) * 256 + 1 * q.val = n.val; omega

/-- The output block's entry (0, r, q) at point t sits at (t / 9, r, 256 (t % 9) + q) of the array. -/
theorem oblk0_emb (t : Fin cfg0.N) (b : Fin 8) (hb : b.val = t.val / 9) (r : Fin 2) (q : Fin 256) (n : Fin 2304)
    (hn : n.val = t.val % 9 * 256 + q.val) :
    ((cfg0.win 4).blk t).view.emb (ix3 0 r q : S1x2x256.Idx) = (ix3 b r n : Cert.Spec.SL.Idx) := by
  obtain ⟨-, -, -, -, -, -, -, -, -, -, -, -, e0, e1, e2⟩ := idx_facts0 t
  funext a; apply Fin.ext
  match a with
  | ⟨0, _⟩ => show win0_4.index t (0 : Fin 3) * 1 + 1 * 0 = b.val; omega
  | ⟨1, _⟩ => show win0_4.index t (1 : Fin 3) * 2 + 1 * r.val = r.val; omega
  | ⟨2, _⟩ => show win0_4.index t (2 : Fin 3) * 256 + 1 * q.val = n.val; omega

/-- What point t writes back is block t of the launch's value. -/
theorem flushed0_eq (c : Dev nD) (t : Fin cfg0.N) :
    (dat0 (F := Ideal) V c).flushed 4 t
      = ((cfg0.win 4).blk t).view.read (Elt Ideal) (Cert.Spec.localOut (V c main_arg4) (V c main_arg5) (V c main_v0) (V c main_v1)) := by
  show (cfg0.win 4).cut (grid0.coords t) ((dat0 V c).after 4 t) = _
  rw [after0_4]
  have ht : t.val < 72 := lt_of_lt_of_eq t.isLt N_0
  refine funext fun (y : S1x2x256.Idx) => ?_
  obtain ⟨r, q, rfl⟩ : ∃ (r : Fin 2) (q : Fin 256), y = ix3 0 r q := ⟨y 1, y 2, eq_ix3_unit y⟩
  have hq : q.val < 256 := q.isLt
  refine (out0_4_at _ _ _ _ (V c main_arg4) (V c main_arg5) (V c main_v0) (V c main_v1)
    ⟨t.val / 9, by omega⟩ r q ⟨t.val % 9 * 256 + q.val, by omega⟩
    (fun mm e => iblk0_0_apply V c t _ rfl mm e) (fun mm e => iblk0_1_apply V c t _ rfl mm e)
    (fun e => iblk0_2_apply V c t _ rfl q _ rfl e) (fun mm => iblk0_3_apply V c t _ rfl q _ rfl mm)).trans ?_
  exact congrArg (Cert.Spec.localOut (V c main_arg4) (V c main_arg5) (V c main_v0) (V c main_v1))
    (oblk0_emb t _ rfl r q _ rfl).symm

/-- An index of the array is in point t's block iff each coordinate is in the block's range on its axis. -/
theorem mem_blk0 (t : Fin cfg0.N) (i : S8x2x2304.Idx) :
    i ∈ ((cfg0.win 4).blk t).view.set ↔ ∀ a : Fin 3, win0_4.index t a * S1x2x256.size a ≤ (i a).val ∧ (i a).val < win0_4.index t a * S1x2x256.size a + S1x2x256.size a := by
  show i ∈ ((View.whole main_v2).slice (win0_4.rect t)).set ↔ _
  rw [View.set_slice_whole, Rect.mem_set_unit]
  exact Iff.rfl

/-- The 72 blocks cover the array: (b, r, n) is in the block of point 9 b + n / 256. -/
theorem cover0 (i : S8x2x2304.Idx) : ∃ t : Fin cfg0.N, (cfg0.win 4).flush t = true ∧ i ∈ ((cfg0.win 4).blk t).view.set := by
  have hi0 : (i 0).val < 8 := (i 0).isLt
  have hi1 : (i 1).val < 2 := (i 1).isLt
  have hi2 : (i 2).val < 2304 := (i 2).isLt
  obtain ⟨t, ht⟩ := idx_onto0 ⟨(i 0).val, hi0⟩ ⟨(i 2).val / 256, by omega⟩
  have ht' : t.val = (i 0).val * 9 + (i 2).val / 256 := ht
  obtain ⟨-, -, -, -, -, -, -, -, -, -, -, -, e0, e1, e2⟩ := idx_facts0 t
  refine ⟨t, flush0_4 t, ?_⟩
  rw [mem_blk0]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2 ≤ (i 1).val ∧ (i 1).val < win0_4.index t (1 : Fin 3) * 2 + 2; omega
  | ⟨2, _⟩ => show win0_4.index t (2 : Fin 3) * 256 ≤ (i 2).val ∧ (i 2).val < win0_4.index t (2 : Fin 3) * 256 + 256; omega

/-- The masked launch's output array after its last grid point holds the launch's value. -/
theorem maskedLaunch_array (c : Dev nD) :
    (dat0 (F := Ideal) V c).arrAt 4 cfg0.N
      = Cert.Spec.localOut (V c main_arg4) (V c main_arg5) (V c main_v0) (V c main_v1) :=
  (dat0 (F := Ideal) V c).arrAt_eq_of_cover 4 (Cert.Spec.localOut (V c main_arg4) (V c main_arg5) (V c main_v0) (V c main_v1))
    (fun t _ => flushed0_eq V c t) cover0

end Cert.KernelIdeal.Hand

end
-- ==== Proof.KiBlocks1.lean ====
/-
  From blocks to the array, the unmasked launch, at the exact-real instance.

  Grid point t = 6 b + k writes back the [1, 8, 384] block of batch b and positions 384 k … 384 k + 383.  Its rows are the
  three stores' payloads: entry q of row 0 (row 1) is the maximum over the 2304 memory slots of the first (second) global
  bank's score against the key's tile at q, and entry q of row j + 2 is the score of the stacked single-slot bank j.  The
  four input blocks are the arrays' restrictions to batch b (and, for the key, to the same positions), so the block is the
  restriction of `Cert.Spec.gcOut`; the 48 blocks cover [8, 8, 2304], so the array ends holding `Cert.Spec.gcOut`.
-/
import proofs.«171700_j49503793054049_2_alg».proof.Proof.KiRegion1
import proofs.«171700_j49503793054049_2_alg».proof.Proof.PayIdx
import proofs.«171700_j49503793054049_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

private theorem hz3 : (![0, 0, 0] : Fin 3 → Nat) = fun _ => 0 := funext fun a => by fin_cases a <;> rfl

/-- An index of a [1, n1, n2] block is its last two coordinates. -/
private theorem eq_ix3_unit {n1 n2 : Nat} (y : (⟨3, ![1, n1, n2]⟩ : Shape).Idx) : y = ix3 0 (y 1) (y 2) := by
  funext a
  match a with
  | ⟨0, _⟩ => exact Fin.ext (Nat.lt_one_iff.mp (y 0).isLt)
  | ⟨1, _⟩ => rfl
  | ⟨2, _⟩ => rfl

/-! ## The output block at an index -/

/-- The maximum of a block's scores at position q of the tile. -/
def blkMax1 (bank : Vec Ideal S1x2304x512 .f32) (key : Vec Ideal S1x512x384 .f32) (q : Fin 384) : EReal :=
  (Finset.univ : Finset (Fin 2304)).fold max Cert.Spec.negInf fun mm =>
    ∑ e : Fin 512, bank (ix3 0 mm e) * key (ix3 0 e q)

/-- Rows 2 … 7 of the output block are the last store's payload: the six stacked banks' scores. -/
theorem out1_4_rows2 (x0 x1 : Vec Ideal S1x2304x512 .f32) (x2 : Vec Ideal S1x6x512 .f32) (x3 : Vec Ideal S1x512x384 .f32)
    (j : Fin 6) (q : Fin 384) :
    out1_4 x0 x1 x2 x3 (ix3 0 (⟨j.val + 2, by omega⟩ : Fin 8) q) = ∑ e : Fin 512, x2 (ix3 0 j e) * x3 (ix3 0 e q) := by
  unfold out1_4
  have h : (ix3 0 (⟨j.val + 2, by omega⟩ : Fin 8) q : S1x8x384.Idx) = rRows1_2.emb (ix3 0 j q) := by
    funext a; apply Fin.ext
    match a with
    | ⟨0, _⟩ => rfl
    | ⟨1, _⟩ => show j.val + 2 = 2 + 1 * j.val; omega
    | ⟨2, _⟩ => show q.val = 0 + 1 * q.val; omega
  rw [h, View.canon_cons_emb]
  refine (k1_pay4_apply _ _ j q).trans ?_
  have e2 : View.ld x2 rSix1 = x2 := View.ld_unit_zero (S := S1x6x512) hz3 _ x2
  have e3 : View.ld x3 rKey1 = x3 := View.ld_unit_zero (S := S1x512x384) hz3 _ x3
  rw [e2, e3]

/-- Row 1 is off rows 2 … 7, so it is the second store's payload: the second global bank's maximum. -/
theorem out1_4_row1 (x0 x1 : Vec Ideal S1x2304x512 .f32) (x2 : Vec Ideal S1x6x512 .f32) (x3 : Vec Ideal S1x512x384 .f32) (q : Fin 384) :
    out1_4 x0 x1 x2 x3 (ix3 0 1 q) = blkMax1 x1 x3 q := by
  unfold out1_4
  have hn : (ix3 0 1 q : S1x8x384.Idx) ∉ rRows1_2.set := by
    intro hm
    have h1 := (Rect.mem_set_unit.mp hm) 1
    have h2 : (2 : Nat) ≤ 1 := h1.1
    omega
  refine (View.canon_cons_of_not_mem (⟨rRows1_2, _⟩ : View.Piece (Elt Ideal) S1x8x384 .f32) _ hn).trans ?_
  have h : (ix3 0 1 q : S1x8x384.Idx) = rRow1_1.emb (ix3 0 0 q) := by
    funext a; apply Fin.ext
    match a with
    | ⟨0, _⟩ => rfl
    | ⟨1, _⟩ => rfl
    | ⟨2, _⟩ => show q.val = 0 + 1 * q.val; omega
  rw [h, View.canon_cons_emb]
  refine (k1_pay3_apply _ _ q).trans ?_
  have e1 : View.ld x1 rBank1 = x1 := View.ld_unit_zero (S := S1x2304x512) hz3 _ x1
  have e3 : View.ld x3 rKey1 = x3 := View.ld_unit_zero (S := S1x512x384) hz3 _ x3
  rw [e1, e3]
  rfl

/-- Row 0 is off both later stores, so it is the first store's payload: the first global bank's maximum. -/
theorem out1_4_row0 (x0 x1 : Vec Ideal S1x2304x512 .f32) (x2 : Vec Ideal S1x6x512 .f32) (x3 : Vec Ideal S1x512x384 .f32) (q : Fin 384) :
    out1_4 x0 x1 x2 x3 (ix3 0 0 q) = blkMax1 x0 x3 q := by
  unfold out1_4
  have hn : (ix3 0 0 q : S1x8x384.Idx) ∉ rRows1_2.set := by
    intro hm
    have h1 := (Rect.mem_set_unit.mp hm) 1
    have h2 : (2 : Nat) ≤ 0 := h1.1
    omega
  refine (View.canon_cons_of_not_mem (⟨rRows1_2, _⟩ : View.Piece (Elt Ideal) S1x8x384 .f32) _ hn).trans ?_
  have hn' : (ix3 0 0 q : S1x8x384.Idx) ∉ rRow1_1.set := by
    intro hm
    have h1 := (Rect.mem_set_unit.mp hm) 1
    have h2 : (1 : Nat) ≤ 0 := h1.1
    omega
  refine (View.canon_cons_of_not_mem (⟨rRow1_1, _⟩ : View.Piece (Elt Ideal) S1x8x384 .f32) _ hn').trans ?_
  have h : (ix3 0 0 q : S1x8x384.Idx) = rRow1_0.emb (ix3 0 0 q) := by
    funext a; apply Fin.ext
    match a with
    | ⟨0, _⟩ => rfl
    | ⟨1, _⟩ => rfl
    | ⟨2, _⟩ => show q.val = 0 + 1 * q.val; omega
  rw [h, View.canon_cons_emb]
  refine (k1_pay2_apply _ _ q).trans ?_
  have e0 : View.ld x0 rBank1 = x0 := View.ld_unit_zero (S := S1x2304x512) hz3 _ x0
  have e3 : View.ld x3 rKey1 = x3 := View.ld_unit_zero (S := S1x512x384) hz3 _ x3
  rw [e0, e3]
  rfl

/-- The block maximum of blocks that are the arrays' restrictions to batch b and position n is the arrays' maximum. -/
theorem blkMax1_eq (x : Vec Ideal S1x2304x512 .f32) (x3 : Vec Ideal S1x512x384 .f32)
    (bank : Cert.Spec.SB.Idx → EReal) (K : Cert.Spec.SK.Idx → EReal)
    (b : Fin 8) (q : Fin 384) (n : Fin 2304)
    (h0 : ∀ mm e, x (ix3 0 mm e) = bank (ix3 b mm e))
    (h3 : ∀ e, x3 (ix3 0 e q) = K (ix3 b e n)) :
    blkMax1 x x3 q = Cert.Spec.fineMax bank K b n := by
  unfold blkMax1 Cert.Spec.fineMax Cert.Spec.dotAt
  refine congrArg (fun f => Finset.fold max Cert.Spec.negInf f (Finset.univ : Finset (Fin 2304))) (funext fun mm => ?_)
  refine Finset.sum_congr rfl fun e _ => ?_
  rw [h0 mm e, h3 e]

/-- The output block at (0, r, q), from input blocks that are the arrays' restrictions, is the launch's value at (b, r, n). -/
theorem out1_4_at (x0 x1 : Vec Ideal S1x2304x512 .f32) (x2 : Vec Ideal S1x6x512 .f32) (x3 : Vec Ideal S1x512x384 .f32)
    (gbg gfg : Cert.Spec.SB.Idx → EReal) (C6 : Cert.Spec.SC6.Idx → EReal) (K : Cert.Spec.SK.Idx → EReal)
    (b : Fin 8) (r : Fin 8) (q : Fin 384) (n : Fin 2304)
    (h0 : ∀ mm e, x0 (ix3 0 mm e) = gbg (ix3 b mm e))
    (h1 : ∀ mm e, x1 (ix3 0 mm e) = gfg (ix3 b mm e))
    (h2 : ∀ j e, x2 (ix3 0 j e) = C6 (ix3 b j e))
    (h3 : ∀ e, x3 (ix3 0 e q) = K (ix3 b e n)) :
    out1_4 x0 x1 x2 x3 (ix3 0 r q) = Cert.Spec.gcOut gbg gfg C6 K (ix3 b r n) := by
  match r with
  | ⟨0, _⟩ =>
    refine (out1_4_row0 x0 x1 x2 x3 q).trans ?_
    refine (blkMax1_eq x0 x3 gbg K b q n h0 h3).trans ?_
    unfold Cert.Spec.gcOut
    exact (if_pos rfl).symm
  | ⟨1, _⟩ =>
    refine (out1_4_row1 x0 x1 x2 x3 q).trans ?_
    refine (blkMax1_eq x1 x3 gfg K b q n h1 h3).trans ?_
    unfold Cert.Spec.gcOut
    exact ((if_neg Nat.one_ne_zero).trans (if_pos rfl)).symm
  | ⟨j + 2, hj2⟩ =>
    have hj : j < 6 := by omega
    refine (out1_4_rows2 x0 x1 x2 x3 ⟨j, hj⟩ q).trans ?_
    have e6 : (⟨(j + 2 - 2) % 6, Nat.mod_lt _ (by decide)⟩ : Fin 6) = ⟨j, hj⟩ := Fin.ext (by show (j + 2 - 2) % 6 = j; omega)
    unfold Cert.Spec.gcOut
    refine Eq.trans ?_ ((if_neg (show ¬ j + 2 = 0 by omega)).trans (if_neg (show ¬ j + 2 = 1 by omega))).symm
    show _ = Cert.Spec.dotAt C6 K b ⟨(j + 2 - 2) % 6, Nat.mod_lt _ (by decide)⟩ n
    rw [e6]
    unfold Cert.Spec.dotAt
    refine Finset.sum_congr rfl fun e _ => ?_
    rw [h2, h3 e]

/-! ## The grid's points and the input blocks -/

/-- The printed index maps, decided over the 48 points: point t is batch t / 6 and position tile t % 6; the banks' blocks
    follow the batch alone, the key's and the output's the batch and the tile. -/
theorem idx_facts1 : ∀ t : Fin cfg1.N,
    win1_0.index t (0 : Fin 3) = t.val / 6 ∧ win1_0.index t (1 : Fin 3) = 0 ∧ win1_0.index t (2 : Fin 3) = 0
    ∧ win1_1.index t (0 : Fin 3) = t.val / 6 ∧ win1_1.index t (1 : Fin 3) = 0 ∧ win1_1.index t (2 : Fin 3) = 0
    ∧ win1_2.index t (0 : Fin 3) = t.val / 6 ∧ win1_2.index t (1 : Fin 3) = 0 ∧ win1_2.index t (2 : Fin 3) = 0
    ∧ win1_3.index t (0 : Fin 3) = t.val / 6 ∧ win1_3.index t (1 : Fin 3) = 0 ∧ win1_3.index t (2 : Fin 3) = t.val % 6
    ∧ win1_4.index t (0 : Fin 3) = t.val / 6 ∧ win1_4.index t (1 : Fin 3) = 0 ∧ win1_4.index t (2 : Fin 3) = t.val % 6 :=
  (by decide +kernel : ∀ t : Fin grid1.N, _)

/-- Every (batch, tile) is some point's. -/
theorem idx_onto1 : ∀ (b : Fin 8) (k : Fin 6), ∃ t : Fin cfg1.N, t.val = b.val * 6 + k.val :=
  (by decide +kernel : ∀ (b : Fin 8) (k : Fin 6), ∃ t : Fin grid1.N, t.val = b.val * 6 + k.val)

variable (V : (c : Dev nD) → (b : Ref sig .tc) → Buf (Elt Ideal) ((c : Thread nD τ).loc b))

/-- The first global bank's block at point t is its batch t / 6. -/
theorem iblk1_0_apply (c : Dev nD) (t : Fin cfg1.N) (b : Fin 8) (hb : b.val = t.val / 6) (mm : Fin 2304) (e : Fin 512) :
    (iblk1 V c 0 t : Vec Ideal S1x2304x512 .f32) (ix3 0 mm e) = (V c main_arg2 : Cert.Spec.SB.Idx → EReal) (ix3 b mm e) := by
  obtain ⟨e0, e1, e2, -⟩ := idx_facts1 t
  show V c main_arg2 (((cfg1.win 0).blk t).view.emb (ix3 0 mm e)) = V c main_arg2 (ix3 b mm e)
  congr 1
  funext a; apply Fin.ext
  match a with
  | ⟨0, _⟩ => show win1_0.index t (0 : Fin 3) * 1 + 1 * 0 = b.val; omega
  | ⟨1, _⟩ => show win1_0.index t (1 : Fin 3) * 2304 + 1 * mm.val = mm.val; omega
  | ⟨2, _⟩ => show win1_0.index t (2 : Fin 3) * 512 + 1 * e.val = e.val; omega

/-- The second global bank's block at point t is its batch t / 6. -/
theorem iblk1_1_apply (c : Dev nD) (t : Fin cfg1.N) (b : Fin 8) (hb : b.val = t.val / 6) (mm : Fin 2304) (e : Fin 512) :
    (iblk1 V c 1 t : Vec Ideal S1x2304x512 .f32) (ix3 0 mm e) = (V c main_arg3 : Cert.Spec.SB.Idx → EReal) (ix3 b mm e) := by
  obtain ⟨-, -, -, e0, e1, e2, -⟩ := idx_facts1 t
  show V c main_arg3 (((cfg1.win 1).blk t).view.emb (ix3 0 mm e)) = V c main_arg3 (ix3 b mm e)
  congr 1
  funext a; apply Fin.ext
  match a with
  | ⟨0, _⟩ => show win1_1.index t (0 : Fin 3) * 1 + 1 * 0 = b.val; omega
  | ⟨1, _⟩ => show win1_1.index t (1 : Fin 3) * 2304 + 1 * mm.val = mm.val; omega
  | ⟨2, _⟩ => show win1_1.index t (2 : Fin 3) * 512 + 1 * e.val = e.val; omega

/-- The six stacked banks' block at point t is their batch t / 6. -/
theorem iblk1_2_apply (c : Dev nD) (t : Fin cfg1.N) (b : Fin 8) (hb : b.val = t.val / 6) (j : Fin 6) (e : Fin 512) :
    (iblk1 V c 2 t : Vec Ideal S1x6x512 .f32) (ix3 0 j e) = (V c main_v3 : Cert.Spec.SC6.Idx → EReal) (ix3 b j e) := by
  obtain ⟨-, -, -, -, -, -, e0, e1, e2, -⟩ := idx_facts1 t
  show V c main_v3 (((cfg1.win 2).blk t).view.emb (ix3 0 j e)) = V c main_v3 (ix3 b j e)
  congr 1
  funext a; apply Fin.ext
  match a with
  | ⟨0, _⟩ => show win1_2.index t (0 : Fin 3) * 1 + 1 * 0 = b.val; omega
  | ⟨1, _⟩ => show win1_2.index t (1 : Fin 3) * 6 + 1 * j.val = j.val; omega
  | ⟨2, _⟩ => show win1_2.index t (2 : Fin 3) * 512 + 1 * e.val = e.val; omega

/-- The key's tile at point t is batch t / 6, positions 384 (t % 6) + q. -/
theorem iblk1_3_apply (c : Dev nD) (t : Fin cfg1.N) (b : Fin 8) (hb : b.val = t.val / 6) (q : Fin 384) (n : Fin 2304)
    (hn : n.val = t.val % 6 * 384 + q.val) (e : Fin 512) :
    (iblk1 V c 3 t : Vec Ideal S1x512x384 .f32) (ix3 0 e q) = (V c main_v0 : Cert.Spec.SK.Idx → EReal) (ix3 b e n) := by
  obtain ⟨-, -, -, -, -, -, -, -, -, e0, e1, e2, -⟩ := idx_facts1 t
  show V c main_v0 (((cfg1.win 3).blk t).view.emb (ix3 0 e q)) = V c main_v0 (ix3 b e n)
  congr 1
  funext a; apply Fin.ext
  match a with
  | ⟨0, _⟩ => show win1_3.index t (0 : Fin 3) * 1 + 1 * 0 = b.val; omega
  | ⟨1, _⟩ => show win1_3.index t (1 : Fin 3) * 512 + 1 * e.val = e.val; omega
  | ⟨2, _⟩ => show win1_3.index t (2 : Fin 3) * 384 + 1 * q.val = n.val; omega

/-- The output block's entry (0, r, q) at point t sits at (t / 6, r, 384 (t % 6) + q) of the array. -/
theorem oblk1_emb (t : Fin cfg1.N) (b : Fin 8) (hb : b.val = t.val / 6) (r : Fin 8) (q : Fin 384) (n : Fin 2304)
    (hn : n.val = t.val % 6 * 384 + q.val) :
    ((cfg1.win 4).blk t).view.emb (ix3 0 r q : S1x8x384.Idx) = (ix3 b r n : Cert.Spec.SG.Idx) := by
  obtain ⟨-, -, -, -, -, -, -, -, -, -, -, -, e0, e1, e2⟩ := idx_facts1 t
  funext a; apply Fin.ext
  match a with
  | ⟨0, _⟩ => show win1_4.index t (0 : Fin 3) * 1 + 1 * 0 = b.val; omega
  | ⟨1, _⟩ => show win1_4.index t (1 : Fin 3) * 8 + 1 * r.val = r.val; omega
  | ⟨2, _⟩ => show win1_4.index t (2 : Fin 3) * 384 + 1 * q.val = n.val; omega

/-! ## From the blocks to the array -/

/-- What point t writes back is block t of the launch's value. -/
theorem flushed1_eq (c : Dev nD) (t : Fin cfg1.N) :
    (dat1 (F := Ideal) V c).flushed 4 t
      = ((cfg1.win 4).blk t).view.read (Elt Ideal) (Cert.Spec.gcOut (V c main_arg2) (V c main_arg3) (V c main_v3) (V c main_v0)) := by
  show (cfg1.win 4).cut (grid1.coords t) ((dat1 V c).after 4 t) = _
  rw [after1_4]
  have ht : t.val < 48 := lt_of_lt_of_eq t.isLt N_1
  refine funext fun (y : S1x8x384.Idx) => ?_
  obtain ⟨r, q, rfl⟩ : ∃ (r : Fin 8) (q : Fin 384), y = ix3 0 r q := ⟨y 1, y 2, eq_ix3_unit y⟩
  have hq : q.val < 384 := q.isLt
  refine (out1_4_at _ _ _ _ (V c main_arg2) (V c main_arg3) (V c main_v3) (V c main_v0)
    ⟨t.val / 6, by omega⟩ r q ⟨t.val % 6 * 384 + q.val, by omega⟩
    (fun mm e => iblk1_0_apply V c t _ rfl mm e) (fun mm e => iblk1_1_apply V c t _ rfl mm e)
    (fun j e => iblk1_2_apply V c t _ rfl j e) (fun e => iblk1_3_apply V c t _ rfl q _ rfl e)).trans ?_
  exact congrArg (Cert.Spec.gcOut (V c main_arg2) (V c main_arg3) (V c main_v3) (V c main_v0))
    (oblk1_emb t _ rfl r q _ rfl).symm

/-- An index of the array is in point t's block iff each coordinate is in the block's range on its axis. -/
theorem mem_blk1 (t : Fin cfg1.N) (i : S8x8x2304.Idx) :
    i ∈ ((cfg1.win 4).blk t).view.set ↔ ∀ a : Fin 3, win1_4.index t a * S1x8x384.size a ≤ (i a).val ∧ (i a).val < win1_4.index t a * S1x8x384.size a + S1x8x384.size a := by
  show i ∈ ((View.whole main_v4).slice (win1_4.rect t)).set ↔ _
  rw [View.set_slice_whole, Rect.mem_set_unit]
  exact Iff.rfl

/-- The 48 blocks cover the array: (b, r, n) is in the block of point 6 b + n / 384. -/
theorem cover1 (i : S8x8x2304.Idx) : ∃ t : Fin cfg1.N, (cfg1.win 4).flush t = true ∧ i ∈ ((cfg1.win 4).blk t).view.set := by
  have hi0 : (i 0).val < 8 := (i 0).isLt
  have hi1 : (i 1).val < 8 := (i 1).isLt
  have hi2 : (i 2).val < 2304 := (i 2).isLt
  obtain ⟨t, ht⟩ := idx_onto1 ⟨(i 0).val, hi0⟩ ⟨(i 2).val / 384, by omega⟩
  have ht' : t.val = (i 0).val * 6 + (i 2).val / 384 := ht
  obtain ⟨-, -, -, -, -, -, -, -, -, -, -, -, e0, e1, e2⟩ := idx_facts1 t
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 8 ≤ (i 1).val ∧ (i 1).val < win1_4.index t (1 : Fin 3) * 8 + 8; omega
  | ⟨2, _⟩ => show win1_4.index t (2 : Fin 3) * 384 ≤ (i 2).val ∧ (i 2).val < win1_4.index t (2 : Fin 3) * 384 + 384; omega

/-- The unmasked launch's output array after its last grid point holds the launch's value. -/
theorem unmaskedLaunch_array (c : Dev nD) :
    (dat1 (F := Ideal) V c).arrAt 4 cfg1.N
      = Cert.Spec.gcOut (V c main_arg2) (V c main_arg3) (V c main_v3) (V c main_v0) :=
  (dat1 (F := Ideal) V c).arrAt_eq_of_cover 4 (Cert.Spec.gcOut (V c main_arg2) (V c main_arg3) (V c main_v3) (V c main_v0))
    (fun t _ => flushed1_eq V c t) cover1

end Cert.KernelIdeal.Hand

end
-- ==== Proof.KiBlocks.lean ====
/-
  From blocks to arrays, at the exact-real instance: what each launch leaves in its output array, as ONE function of
  the arrays it found.

  Grid point (b, t) of the masked launch writes back the [1, 2, 256] block of batch b and positions 256·t … 256·t + 255,
  computed from the two local banks' slabs of batch b, the key's tile and the mask's tile at the same positions; the 72
  blocks tile the [8, 2, 2304] array, and each holds the restriction of `Cert.Spec.localOut`.  Likewise the 48 blocks
  [1, 8, 384] of the unmasked launch tile [8, 8, 2304] and hold the restriction of `Cert.Spec.gcOut`.  The two launches
  are worked out in the two modules imported here, one each.
-/
import proofs.«171700_j49503793054049_2_alg».proof.Proof.KiBlocks0
import proofs.«171700_j49503793054049_2_alg».proof.Proof.KiBlocks1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The masked launch's output array after its last grid point. -/
theorem arrAt0 (c : Dev nD) :
    (dat0 (F := Ideal) V c).arrAt 4 cfg0.N
      = Cert.Spec.localOut (V c main_arg4) (V c main_arg5) (V c main_v0) (V c main_v1) :=
  maskedLaunch_array V c

/-- The unmasked launch's output array after its last grid point. -/
theorem arrAt1 (c : Dev nD) :
    (dat1 (F := Ideal) V c).arrAt 4 cfg1.N
      = Cert.Spec.gcOut (V c main_arg2) (V c main_arg3) (V c main_v3) (V c main_v0) :=
  unmaskedLaunch_array V c

end Cert.KernelIdeal.Hand

end
-- ==== Proof.KiValueHost.lean ====
/-
  The result's ten rows, row by row, at the exact extended reals: a statement over arbitrary arrays.

  With G an [8, 8, 2304] array and L an [8, 2, 2304] array, the concatenation along axis 1 of rows 0, 1 of G, of L, and of
  rows 2 … 7 of G reads, at row r, row r of G (r < 2), row r − 2 of L (2 ≤ r < 4), row r − 2 of G (4 ≤ r).  When G is
  `Cert.Spec.gcOut` over the stack of six single-slot banks and L is `Cert.Spec.localOut`, that is `Cert.Spec.Z`: the
  stack read at slot j is bank number j at its one slot, so the score against the stack at slot r − 4 is the score of
  bank number r − 4.
-/
import proofs.«171700_j49503793054049_2_alg».proof.Proof.Gen.KernelIdeal
import proofs.«171700_j49503793054049_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand.Rows

open Cert.KernelIdeal Cert.KernelIdeal.Gen
open Idealize.ShloMosaic Idealize.ShloMosaic.ValueIdx
open scoped BigOperators

/-- The six single-slot banks as the pieces of one stack. -/
abbrev six (c0 c1 c2 c3 c4 c5 : S8x1x512.Idx → EReal) : List ((s : Shape) × (s.Idx → EReal)) :=
  [⟨S8x1x512, c0⟩, ⟨S8x1x512, c1⟩, ⟨S8x1x512, c2⟩, ⟨S8x1x512, c3⟩, ⟨S8x1x512, c4⟩, ⟨S8x1x512, c5⟩]

/-- Off the stacking axis a piece's index has the coordinates of the whole array's. -/
theorem off_axis {M N P : ℕ} (b : Fin 8) (r' : Fin M) (r : Fin N) (n : Fin P) :
    ∀ a : Fin 3, a.cast (rfl : (⟨3, ![8, M, P]⟩ : Shape).rank = (⟨3, ![8, N, P]⟩ : Shape).rank) ≠ (1 : Fin 3) →
      ((ix3 b r' n : (⟨3, ![8, M, P]⟩ : Shape).Idx) a).val = ((ix3 b r n : (⟨3, ![8, N, P]⟩ : Shape).Idx) (a.cast rfl)).val :=
  fun a ha =>
    match a, ha with
    | ⟨0, _⟩, _ => rfl
    | ⟨1, _⟩, ha => absurd rfl ha
    | ⟨2, _⟩, _ => rfl

/-- The six single-slot banks stacked along axis 1, read at slot `j`: bank number `j` at its one slot. -/
theorem stack_apply (c0 c1 c2 c3 c4 c5 : S8x1x512.Idx → EReal) (b : Fin 8) (j : Fin 6) (e : Fin 512) :
    concatenate S8x6x512 1 (six c0 c1 c2 c3 c4 c5)
        concatenates_S8x1x512_S8x1x512_S8x1x512_S8x1x512_S8x1x512_S8x1x512_S8x6x512_d1 (ix3 b j e)
      = Cert.Spec.coarseSel c0 c1 c2 c3 c4 c5 j.val (ix3 b 0 e) := by
  match j with
  | ⟨0, h⟩ => exact concatenate_apply_piece 1 (six c0 c1 c2 c3 c4 c5) _ (ix3 b ⟨0, h⟩ e) 0 (by show (0 : ℕ) < 6; decide) S8x1x512 c0 rfl rfl 0 rfl (ix3 b 0 e) (off_axis b 0 ⟨0, h⟩ e) rfl
  | ⟨1, h⟩ => exact concatenate_apply_piece 1 (six c0 c1 c2 c3 c4 c5) _ (ix3 b ⟨1, h⟩ e) 1 (by show (1 : ℕ) < 6; decide) S8x1x512 c1 rfl rfl 1 rfl (ix3 b 0 e) (off_axis b 0 ⟨1, h⟩ e) rfl
  | ⟨2, h⟩ => exact concatenate_apply_piece 1 (six c0 c1 c2 c3 c4 c5) _ (ix3 b ⟨2, h⟩ e) 2 (by show (2 : ℕ) < 6; decide) S8x1x512 c2 rfl rfl 2 rfl (ix3 b 0 e) (off_axis b 0 ⟨2, h⟩ e) rfl
  | ⟨3, h⟩ => exact concatenate_apply_piece 1 (six c0 c1 c2 c3 c4 c5) _ (ix3 b ⟨3, h⟩ e) 3 (by show (3 : ℕ) < 6; decide) S8x1x512 c3 rfl rfl 3 rfl (ix3 b 0 e) (off_axis b 0 ⟨3, h⟩ e) rfl
  | ⟨4, h⟩ => exact concatenate_apply_piece 1 (six c0 c1 c2 c3 c4 c5) _ (ix3 b ⟨4, h⟩ e) 4 (by show (4 : ℕ) < 6; decide) S8x1x512 c4 rfl rfl 4 rfl (ix3 b 0 e) (off_axis b 0 ⟨4, h⟩ e) rfl
  | ⟨5, h⟩ => exact concatenate_apply_piece 1 (six c0 c1 c2 c3 c4 c5) _ (ix3 b ⟨5, h⟩ e) 5 (by show (5 : ℕ) < 6; decide) S8x1x512 c5 rfl rfl 5 rfl (ix3 b 0 e) (off_axis b 0 ⟨5, h⟩ e) rfl

/-- A score against the stack at slot `j` is the score against bank number `j` at its one slot. -/
theorem dot_stack (K : S8x512x2304.Idx → EReal) (c0 c1 c2 c3 c4 c5 : S8x1x512.Idx → EReal) (b : Fin 8) (j : Fin 6) (n : Fin 2304) :
    Cert.Spec.dotAt (concatenate S8x6x512 1 (six c0 c1 c2 c3 c4 c5)
        concatenates_S8x1x512_S8x1x512_S8x1x512_S8x1x512_S8x1x512_S8x1x512_S8x6x512_d1) K b j n
      = Cert.Spec.dotAt (Cert.Spec.coarseSel c0 c1 c2 c3 c4 c5 j.val) K b (0 : Fin 1) n := by
  unfold Cert.Spec.dotAt
  exact Finset.sum_congr rfl fun e _ => congrArg (· * K (ix3 b e n)) (stack_apply c0 c1 c2 c3 c4 c5 b j e)

/-- The common value read at (b, r, n), by rows. -/
theorem Z_apply (K : S8x512x2304.Idx → EReal) (Mk : S8x2304x2304.Idx → EReal) (gbg gfg lbg lfg : S8x2304x512.Idx → EReal)
    (c0 c1 c2 c3 c4 c5 : S8x1x512.Idx → EReal) (b : Fin 8) (r : Fin 10) (n : Fin 2304) :
    Cert.Spec.Z K Mk gbg gfg lbg lfg c0 c1 c2 c3 c4 c5 (ix3 b r n)
      = if r.val = 0 then Cert.Spec.fineMax gbg K b n else if r.val = 1 then Cert.Spec.fineMax gfg K b n
        else if r.val = 2 then Cert.Spec.maskedMax lbg K Mk b n else if r.val = 3 then Cert.Spec.maskedMax lfg K Mk b n
        else Cert.Spec.dotAt (Cert.Spec.coarseSel c0 c1 c2 c3 c4 c5 (r.val - 4)) K b (0 : Fin 1) n := rfl

/-- The unmasked launch's output read at (b, r, n), by rows. -/
theorem gcOut_apply (gbg gfg : S8x2304x512.Idx → EReal) (C6 : S8x6x512.Idx → EReal) (K : S8x512x2304.Idx → EReal)
    (b : Fin 8) (r : Fin 8) (n : Fin 2304) :
    Cert.Spec.gcOut gbg gfg C6 K (ix3 b r n)
      = if r.val = 0 then Cert.Spec.fineMax gbg K b n else if r.val = 1 then Cert.Spec.fineMax gfg K b n
        else Cert.Spec.dotAt C6 K b ⟨(r.val - 2) % 6, Nat.mod_lt _ (by decide)⟩ n := rfl

/-- The masked launch's output read at (b, r, n), by rows. -/
theorem localOut_apply (lbg lfg : S8x2304x512.Idx → EReal) (K : S8x512x2304.Idx → EReal) (Mk : S8x2304x2304.Idx → EReal)
    (b : Fin 8) (r : Fin 2) (n : Fin 2304) :
    Cert.Spec.localOut lbg lfg K Mk (ix3 b r n)
      = if r.val = 0 then Cert.Spec.maskedMax lbg K Mk b n else Cert.Spec.maskedMax lfg K Mk b n := rfl

/-- The three pieces of the result's rows: rows 0, 1 of the unmasked output, the masked output, rows 2 … 7 of the unmasked output. -/
abbrev three (G : S8x8x2304.Idx → EReal) (L : S8x2x2304.Idx → EReal) : List ((s : Shape) × (s.Idx → EReal)) :=
  [⟨S8x2x2304, extractStridedSlice S8x2x2304 ![0, 0, 0] G slices_S8x8x2304_S8x2x2304_0_0_0⟩,
   ⟨S8x2x2304, L⟩,
   ⟨S8x6x2304, extractStridedSlice S8x6x2304 ![0, 2, 0] G slices_S8x8x2304_S8x6x2304_0_2_0⟩]

/-- The ten rows read at an index: row r < 2 is row r of G, row 2 ≤ r < 4 is row r − 2 of L, row r ≥ 4 is row r − 2 of G. -/
theorem rows_apply (G : S8x8x2304.Idx → EReal) (L : S8x2x2304.Idx → EReal) (b : Fin 8) (r : Fin 10) (n : Fin 2304) :
    concatenate S8x10x2304 1 (three G L) concatenates_S8x2x2304_S8x2x2304_S8x6x2304_S8x10x2304_d1 (ix3 b r n)
      = if h2 : r.val < 2 then G (ix3 b ⟨r.val, by omega⟩ n)
        else if h4 : r.val < 4 then L (ix3 b ⟨r.val - 2, by omega⟩ n)
        else G (ix3 b ⟨r.val - 2, by omega⟩ n) := by
  have hr := r.isLt
  split_ifs with h2 h4
  · refine (concatenate_apply_piece 1 (three G L) _ (ix3 b r n) 0 (by show (0 : ℕ) < 3; decide) S8x2x2304 _ rfl rfl 0 rfl
      (ix3 b ⟨r.val, h2⟩ n) (off_axis b _ r n) (Nat.zero_add _)).trans ?_
    exact extractStridedSlice_apply _ G _ _ (ix3 b ⟨r.val, by omega⟩ n) fun a =>
      match a with
      | ⟨0, _⟩ => (Nat.zero_add _).symm
      | ⟨1, _⟩ => (Nat.zero_add _).symm
      | ⟨2, _⟩ => (Nat.zero_add _).symm
  · exact concatenate_apply_piece 1 (three G L) _ (ix3 b r n) 1 (by show (1 : ℕ) < 3; decide) S8x2x2304 L rfl rfl 2 rfl
      (ix3 b ⟨r.val - 2, by omega⟩ n) (off_axis b _ r n) (by show 2 + (r.val - 2) = r.val; omega)
  · refine (concatenate_apply_piece 1 (three G L) _ (ix3 b r n) 2 (by show (2 : ℕ) < 3; decide) S8x6x2304 _ rfl rfl 4 rfl
      (ix3 b ⟨r.val - 4, by omega⟩ n) (off_axis b _ r n) (by show 4 + (r.val - 4) = r.val; omega)).trans ?_
    exact extractStridedSlice_apply _ G _ _ (ix3 b ⟨r.val - 2, by omega⟩ n) fun a =>
      match a with
      | ⟨0, _⟩ => (Nat.zero_add _).symm
      | ⟨1, _⟩ => by show r.val - 2 = 2 + (r.val - 4); omega
      | ⟨2, _⟩ => (Nat.zero_add _).symm

/-- Row by row the ten rows are the common value. -/
theorem rows_eq (K : S8x512x2304.Idx → EReal) (Mk : S8x2304x2304.Idx → EReal) (gbg gfg lbg lfg : S8x2304x512.Idx → EReal)
    (c0 c1 c2 c3 c4 c5 : S8x1x512.Idx → EReal) :
    concatenate S8x10x2304 1
        (three (Cert.Spec.gcOut gbg gfg (concatenate S8x6x512 1 (six c0 c1 c2 c3 c4 c5)
            concatenates_S8x1x512_S8x1x512_S8x1x512_S8x1x512_S8x1x512_S8x1x512_S8x6x512_d1) K) (Cert.Spec.localOut lbg lfg K Mk))
        concatenates_S8x2x2304_S8x2x2304_S8x6x2304_S8x10x2304_d1
      = Cert.Spec.Z K Mk gbg gfg lbg lfg c0 c1 c2 c3 c4 c5 := by
  funext i
  obtain ⟨b, r, n, rfl⟩ : ∃ (b : Fin 8) (r : Fin 10) (n : Fin 2304), i = ix3 b r n := ⟨i 0, i 1, i 2, eq_ix3 i⟩
  have hr := r.isLt
  rw [rows_apply, Z_apply]
  by_cases h2 : r.val < 2
  · rw [dif_pos h2, gcOut_apply]
    show (if r.val = 0 then _ else if r.val = 1 then _ else _) = _
    split_ifs <;> first | rfl | omega
  · rw [dif_neg h2]
    by_cases h4 : r.val < 4
    · rw [dif_pos h4, localOut_apply]
      show (if r.val - 2 = 0 then _ else _) = _
      split_ifs <;> first | rfl | omega
    · rw [dif_neg h4, gcOut_apply]
      show (if r.val - 2 = 0 then _ else if r.val - 2 = 1 then _ else Cert.Spec.dotAt _ K b ⟨(r.val - 2 - 2) % 6, Nat.mod_lt _ (by decide)⟩ n) = _
      rw [if_neg (by omega), if_neg (by omega), if_neg (by omega), if_neg (by omega), if_neg (by omega), if_neg (by omega)]
      have hj : (⟨(r.val - 2 - 2) % 6, Nat.mod_lt _ (by decide)⟩ : Fin 6) = ⟨r.val - 4, by omega⟩ :=
        Fin.ext (by show (r.val - 2 - 2) % 6 = r.val - 4; omega)
      rw [hj]
      exact dot_stack K c0 c1 c2 c3 c4 c5 b ⟨r.val - 4, by omega⟩ n

end Cert.KernelIdeal.Hand.Rows

end
-- ==== Proof.KiValue.lean ====
/-
  The program's result as the common value, at the exact-real instance.

  Followed through the five segments: the two input reshapes give the key K [8, 512, 2304] and the mask Mk
  [8, 2304, 2304]; the masked launch leaves `Cert.Spec.localOut` of the two local banks, K and Mk in its output array; the
  six single-slot banks are stacked along axis 1; the unmasked launch leaves `Cert.Spec.gcOut` of the two global banks,
  the stack and K; the closing operations put rows 0, 1 of the unmasked output, the two masked rows, and rows 2 … 7 of the
  unmasked output one after the other — row by row exactly `Cert.Spec.Z` — and reshape [8, 10, 2304] to [8, 10, 48, 48].
-/
import proofs.«171700_j49503793054049_2_alg».proof.Proof.KiRun
import proofs.«171700_j49503793054049_2_alg».proof.Proof.KiBlocks
import proofs.«171700_j49503793054049_2_alg».proof.Proof.KiValueHost
import proofs.«171700_j49503793054049_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx

/-- The program's result on core `c`, from the launch memory `m`. -/
def kerSpec (m : (ℓ : Loc nD τ sig) → Buf (Elt Ideal) ℓ) (c : Dev nD) : FVec Ideal S8x10x48x48 .f32 :=
  shapeCast S8x10x48x48 (Cert.Spec.Z
    (shapeCast S8x512x2304 (m ((c.tc : Thread nD τ).loc main_arg0)) shapeCasts_S8x512x48x48_S8x512x2304)
    (shapeCast S8x2304x2304 (m ((c.tc : Thread nD τ).loc main_arg1)) shapeCasts_S8x2304x48x48_S8x2304x2304)
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))) Cert.Spec.castZ

section Boundaries

variable (m : (ℓ : Loc nD τ sig) → Buf (Elt Ideal) ℓ) (c : Dev nD)

/-- After the input reshapes the key's buffer holds the key reshaped to [8, 512, 2304]. -/
private theorem W1_v0 : (W1 (F := Ideal) m c (Proc.devRef .tc main_v0) : S8x512x2304.Idx → EReal)
    = shapeCast S8x512x2304 (m ((c.tc : Thread nD τ).loc main_arg0)) shapeCasts_S8x512x48x48_S8x512x2304 := by
  show StableHlo.after hostOps0 _ (Proc.devRef .tc main_v0) = _
  after_results
  rfl

/-- … and the mask's buffer the mask reshaped to [8, 2304, 2304]. -/
private theorem W1_v1 : (W1 (F := Ideal) m c (Proc.devRef .tc main_v1) : S8x2304x2304.Idx → EReal)
    = shapeCast S8x2304x2304 (m ((c.tc : Thread nD τ).loc main_arg1)) shapeCasts_S8x2304x48x48_S8x2304x2304 := by
  show StableHlo.after hostOps0 _ (Proc.devRef .tc main_v1) = _
  after_results
  rfl

/-- An argument no host operation writes is, at the masked launch's exit, as launched. -/
private theorem W2_arg (b : Ref sig .tc) (h0 : b ∉ hostOps0_W) (hv2 : b ≠ main_v2) :
    W2 (F := Ideal) m c b = m ((c.tc : Thread nD τ).loc b) :=
  (W2_of m c b hv2).trans (W1_of m c b h0)

/-- The masked launch's output array holds `Cert.Spec.localOut` of the two local banks, the key and the mask. -/
private theorem W2_v2 : (W2 (F := Ideal) m c (Proc.devRef .tc main_v2) : S8x2x2304.Idx → EReal)
    = Cert.Spec.localOut (m ((c.tc : Thread nD τ).loc main_arg4)) (m ((c.tc : Thread nD τ).loc main_arg5))
        (shapeCast S8x512x2304 (m ((c.tc : Thread nD τ).loc main_arg0)) shapeCasts_S8x512x48x48_S8x512x2304)
        (shapeCast S8x2304x2304 (m ((c.tc : Thread nD τ).loc main_arg1)) shapeCasts_S8x2304x48x48_S8x2304x2304) := by
  refine ((W2_arr m c 4).trans (arrAt0 (U1 m) c)).trans ?_
  have e4 : U1 m c main_arg4 = m ((c.tc : Thread nD τ).loc main_arg4) := W1_of m c main_arg4 (by decide)
  have e5 : U1 m c main_arg5 = m ((c.tc : Thread nD τ).loc main_arg5) := W1_of m c main_arg5 (by decide)
  have e0 : U1 m c main_v0 = _ := W1_v0 m c
  have e1 : U1 m c main_v1 = _ := W1_v1 m c
  rw [e4, e5, e0, e1]

/-- After the stacking the stack's buffer holds the six single-slot banks along axis 1. -/
private theorem W3_v3 : (W3 (F := Ideal) m c (Proc.devRef .tc main_v3) : S8x6x512.Idx → EReal)
    = concatenate S8x6x512 1 (Rows.six (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)))
        concatenates_S8x1x512_S8x1x512_S8x1x512_S8x1x512_S8x1x512_S8x1x512_S8x6x512_d1 := by
  have e : (W3 (F := Ideal) m c (Proc.devRef .tc main_v3) : S8x6x512.Idx → EReal)
      = concatenate S8x6x512 1 [⟨S8x1x512, W2 m c (Proc.devRef .tc main_arg6)⟩, ⟨S8x1x512, W2 m c (Proc.devRef .tc main_arg7)⟩,
          ⟨S8x1x512, W2 m c (Proc.devRef .tc main_arg8)⟩, ⟨S8x1x512, W2 m c (Proc.devRef .tc main_arg9)⟩,
          ⟨S8x1x512, W2 m c (Proc.devRef .tc main_arg10)⟩, ⟨S8x1x512, W2 m c (Proc.devRef .tc main_arg11)⟩]
          concatenates_S8x1x512_S8x1x512_S8x1x512_S8x1x512_S8x1x512_S8x1x512_S8x6x512_d1 := by
    show StableHlo.after hostOps1 _ (Proc.devRef .tc main_v3) = _
    after_results
    rfl
  have e6 : W2 (F := Ideal) m c (Proc.devRef .tc main_arg6) = m ((c.tc : Thread nD τ).loc main_arg6) := W2_arg m c main_arg6 (by decide) (by decide)
  have e7 : W2 (F := Ideal) m c (Proc.devRef .tc main_arg7) = m ((c.tc : Thread nD τ).loc main_arg7) := W2_arg m c main_arg7 (by decide) (by decide)
  have e8 : W2 (F := Ideal) m c (Proc.devRef .tc main_arg8) = m ((c.tc : Thread nD τ).loc main_arg8) := W2_arg m c main_arg8 (by decide) (by decide)
  have e9 : W2 (F := Ideal) m c (Proc.devRef .tc main_arg9) = m ((c.tc : Thread nD τ).loc main_arg9) := W2_arg m c main_arg9 (by decide) (by decide)
  have e10 : W2 (F := Ideal) m c (Proc.devRef .tc main_arg10) = m ((c.tc : Thread nD τ).loc main_arg10) := W2_arg m c main_arg10 (by decide) (by decide)
  have e11 : W2 (F := Ideal) m c (Proc.devRef .tc main_arg11) = m ((c.tc : Thread nD τ).loc main_arg11) := W2_arg m c main_arg11 (by decide) (by decide)
  rw [e, e6, e7, e8, e9, e10, e11]

/-- The unmasked launch's output array holds `Cert.Spec.gcOut` of the two global banks, the stack and the key. -/
private theorem W4_v4 : (W4 (F := Ideal) m c (Proc.devRef .tc main_v4) : S8x8x2304.Idx → EReal)
    = Cert.Spec.gcOut (m ((c.tc : Thread nD τ).loc main_arg2)) (m ((c.tc : Thread nD τ).loc main_arg3))
        (concatenate S8x6x512 1 (Rows.six (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)))
          concatenates_S8x1x512_S8x1x512_S8x1x512_S8x1x512_S8x1x512_S8x1x512_S8x6x512_d1)
        (shapeCast S8x512x2304 (m ((c.tc : Thread nD τ).loc main_arg0)) shapeCasts_S8x512x48x48_S8x512x2304) := by
  refine ((W4_arr m c 4).trans (arrAt1 (U3 m) c)).trans ?_
  have e2 : U3 m c main_arg2 = m ((c.tc : Thread nD τ).loc main_arg2) :=
    (W3_of m c main_arg2 (by decide)).trans (W2_arg m c main_arg2 (by decide) (by decide))
  have e3 : U3 m c main_arg3 = m ((c.tc : Thread nD τ).loc main_arg3) :=
    (W3_of m c main_arg3 (by decide)).trans (W2_arg m c main_arg3 (by decide) (by decide))
  have e33 : U3 m c main_v3 = _ := W3_v3 m c
  have e0 : U3 m c main_v0 = _ :=
    (W3_of m c main_v0 (by decide)).trans ((W2_of m c main_v0 (by decide)).trans (W1_v0 m c))
  rw [e2, e3, e33, e0]

/-- After the closing operations the result's buffer holds the reshape of the ten rows. -/
private theorem W5_v8 : (W5 (F := Ideal) m c (Proc.devRef .tc main_v8) : S8x10x48x48.Idx → EReal)
    = shapeCast S8x10x48x48 (concatenate S8x10x2304 1
        (Rows.three (W4 m c (Proc.devRef .tc main_v4)) (W4 m c (Proc.devRef .tc main_v2)))
        concatenates_S8x2x2304_S8x2x2304_S8x6x2304_S8x10x2304_d1) shapeCasts_S8x10x2304_S8x10x48x48 := by
  show StableHlo.after hostOps2 _ (Proc.devRef .tc main_v8) = _
  after_results
  rfl

end Boundaries

/-- The result buffer at the last boundary holds the common value. -/
theorem W5_main_v8 (m : (ℓ : Loc nD τ sig) → Buf (Elt Ideal) ℓ) (c : Dev nD) :
    W5 (F := Ideal) m c (Proc.devRef .tc main_v8) = kerSpec m c := by
  refine (W5_v8 m c).trans ?_
  have ev2 : (W4 (F := Ideal) m c (Proc.devRef .tc main_v2) : S8x2x2304.Idx → EReal) = _ :=
    (W4_of m c main_v2 (by decide)).trans ((W3_of m c main_v2 (by decide)).trans (W2_v2 m c))
  rw [ev2, W4_v4 m c]
  unfold kerSpec
  exact congrArg (fun z => shapeCast S8x10x48x48 z Cert.Spec.castZ) (Rows.rows_eq _ _ _ _ _ _ _ _ _ _ _ _)

end Cert.KernelIdeal.Hand

end
-- ==== Proof.RefOps.lean ====
/-
  The reference program as a list of its host operations, and its run from any launch memory.

  The program is a straight line of 37 operations over tensor values: two reshapes (the key to
  [8, 512, 2304], the mask to [8, 2304, 2304]); for each of the four fine banks a batched product with the
  key, for the two local banks a pointwise product with the mask, a maximum over the memory slots from −∞
  and a reshape to a [8, 1, 48, 48] row; for each of the six single-slot banks a batched product with the key
  and a reshape to a row; and five concatenations of the rows along axis 1.  Every weakly fair execution
  terminates with each buffer at the fold `after ops` of the operations' results over the launch contents;
  no operation writes an argument, so each argument ends as it began.
-/
import proofs.«171700_j49503793054049_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 37 operations, in order. -/
abbrev ops : List (HloOp τ sig (Elt F)) :=
  [ reshape main_arg0 main_v0 rfl shapeCasts_S8x512x48x48_S8x512x2304,
    reshape main_arg1 main_v1 rfl shapeCasts_S8x2304x48x48_S8x2304x2304,
    binary main_arg2 main_v0 main_v2 ((fun l r => Host.dotGeneral dot_S8x2304x512_S8x512x2304_S8x2304x2304_2_1_1_2_0_0 none l r) : (⟨S8x2304x512, .f32⟩ : BufTy).Contents (Elt F) → (⟨S8x512x2304, .f32⟩ : BufTy).Contents (Elt F) → (⟨S8x2304x2304, .f32⟩ : BufTy).Contents (Elt F)),
    nullary main_cst (constant S_ .f32 0xFF800000#32),
    binary main_v2 main_cst main_v3 ((fun x v => Host.reduce FloatOps.maximumf x v reducesTo_S8x2304x2304_S8x2304_d1 h_S_) : (⟨S8x2304x2304, .f32⟩ : BufTy).Contents (Elt F) → (⟨S_, .f32⟩ : BufTy).Contents (Elt F) → (⟨S8x2304, .f32⟩ : BufTy).Contents (Elt F)),
    reshape main_v3 main_v4 rfl shapeCasts_S8x2304_S8x1x48x48,
    binary main_arg3 main_v0 main_v5 ((fun l r => Host.dotGeneral dot_S8x2304x512_S8x512x2304_S8x2304x2304_2_1_1_2_0_0 none l r) : (⟨S8x2304x512, .f32⟩ : BufTy).Contents (Elt F) → (⟨S8x512x2304, .f32⟩ : BufTy).Contents (Elt F) → (⟨S8x2304x2304, .f32⟩ : BufTy).Contents (Elt F)),
    nullary main_cst_0 (constant S_ .f32 0xFF800000#32),
    binary main_v5 main_cst_0 main_v6 ((fun x v => Host.reduce FloatOps.maximumf x v reducesTo_S8x2304x2304_S8x2304_d1 h_S_) : (⟨S8x2304x2304, .f32⟩ : BufTy).Contents (Elt F) → (⟨S_, .f32⟩ : BufTy).Contents (Elt F) → (⟨S8x2304, .f32⟩ : BufTy).Contents (Elt F)),
    reshape main_v6 main_v7 rfl shapeCasts_S8x2304_S8x1x48x48,
    binary main_v4 main_v7 main_v8 ((fun a b => concatenate S8x2x48x48 1 [⟨S8x1x48x48, a⟩, ⟨S8x1x48x48, b⟩] concatenates_S8x1x48x48_S8x1x48x48_S8x2x48x48_d1) : (⟨S8x1x48x48, .f32⟩ : BufTy).Contents (Elt F) → (⟨S8x1x48x48, .f32⟩ : BufTy).Contents (Elt F) → (⟨S8x2x48x48, .f32⟩ : BufTy).Contents (Elt F)),
    binary main_arg4 main_v0 main_v9 ((fun l r => Host.dotGeneral dot_S8x2304x512_S8x512x2304_S8x2304x2304_2_1_1_2_0_0 none l r) : (⟨S8x2304x512, .f32⟩ : BufTy).Contents (Elt F) → (⟨S8x512x2304, .f32⟩ : BufTy).Contents (Elt F) → (⟨S8x2304x2304, .f32⟩ : BufTy).Contents (Elt F)),
    binary main_v9 main_v1 main_v10 (mulf : (⟨S8x2304x2304, .f32⟩ : BufTy).Contents (Elt F) → (⟨S8x2304x2304, .f32⟩ : BufTy).Contents (Elt F) → (⟨S8x2304x2304, .f32⟩ : BufTy).Contents (Elt F)),
    nullary main_cst_1 (constant S_ .f32 0xFF800000#32),
    binary main_v10 main_cst_1 main_v11 ((fun x v => Host.reduce FloatOps.maximumf x v reducesTo_S8x2304x2304_S8x2304_d1 h_S_) : (⟨S8x2304x2304, .f32⟩ : BufTy).Contents (Elt F) → (⟨S_, .f32⟩ : BufTy).Contents (Elt F) → (⟨S8x2304, .f32⟩ : BufTy).Contents (Elt F)),
    reshape main_v11 main_v12 rfl shapeCasts_S8x2304_S8x1x48x48,
    binary main_arg5 main_v0 main_v13 ((fun l r => Host.dotGeneral dot_S8x2304x512_S8x512x2304_S8x2304x2304_2_1_1_2_0_0 none l r) : (⟨S8x2304x512, .f32⟩ : BufTy).Contents (Elt F) → (⟨S8x512x2304, .f32⟩ : BufTy).Contents (Elt F) → (⟨S8x2304x2304, .f32⟩ : BufTy).Contents (Elt F)),
    binary main_v13 main_v1 main_v14 (mulf : (⟨S8x2304x2304, .f32⟩ : BufTy).Contents (Elt F) → (⟨S8x2304x2304, .f32⟩ : BufTy).Contents (Elt F) → (⟨S8x2304x2304, .f32⟩ : BufTy).Contents (Elt F)),
    nullary main_cst_2 (constant S_ .f32 0xFF800000#32),
    binary main_v14 main_cst_2 main_v15 ((fun x v => Host.reduce FloatOps.maximumf x v reducesTo_S8x2304x2304_S8x2304_d1 h_S_) : (⟨S8x2304x2304, .f32⟩ : BufTy).Contents (Elt F) → (⟨S_, .f32⟩ : BufTy).Contents (Elt F) → (⟨S8x2304, .f32⟩ : BufTy).Contents (Elt F)),
    reshape main_v15 main_v16 rfl shapeCasts_S8x2304_S8x1x48x48,
    binary main_v12 main_v16 main_v17 ((fun a b => concatenate S8x2x48x48 1 [⟨S8x1x48x48, a⟩, ⟨S8x1x48x48, b⟩] concatenates_S8x1x48x48_S8x1x48x48_S8x2x48x48_d1) : (⟨S8x1x48x48, .f32⟩ : BufTy).Contents (Elt F) → (⟨S8x1x48x48, .f32⟩ : BufTy).Contents (Elt F) → (⟨S8x2x48x48, .f32⟩ : BufTy).Contents (Elt F)),
    binary main_v8 main_v17 main_v18 ((fun a b => concatenate S8x4x48x48 1 [⟨S8x2x48x48, a⟩, ⟨S8x2x48x48, b⟩] concatenates_S8x2x48x48_S8x2x48x48_S8x4x48x48_d1) : (⟨S8x2x48x48, .f32⟩ : BufTy).Contents (Elt F) → (⟨S8x2x48x48, .f32⟩ : BufTy).Contents (Elt F) → (⟨S8x4x48x48, .f32⟩ : BufTy).Contents (Elt F)),
    binary main_arg6 main_v0 main_v19 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v19 main_v20 rfl shapeCasts_S8x1x2304_S8x1x48x48,
    binary main_arg7 main_v0 main_v21 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v21 main_v22 rfl shapeCasts_S8x1x2304_S8x1x48x48,
    binary main_arg8 main_v0 main_v23 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v23 main_v24 rfl shapeCasts_S8x1x2304_S8x1x48x48,
    binary main_arg9 main_v0 main_v25 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v25 main_v26 rfl shapeCasts_S8x1x2304_S8x1x48x48,
    binary main_arg10 main_v0 main_v27 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v27 main_v28 rfl shapeCasts_S8x1x2304_S8x1x48x48,
    binary main_arg11 main_v0 main_v29 ((fun l r => Host.dotGeneral dot_S8x1x512_S8x512x2304_S8x1x2304_2_1_1_2_0_0 none l r) : (⟨S8x1x512, .f32⟩ : BufTy).Contents (Elt F) → (⟨S8x512x2304, .f32⟩ : BufTy).Contents (Elt F) → (⟨S8x1x2304, .f32⟩ : BufTy).Contents (Elt F)),
    reshape main_v29 main_v30 rfl shapeCasts_S8x1x2304_S8x1x48x48,
    nary ![main_v20, main_v22, main_v24, main_v26, main_v28, main_v30] main_v31 (fun u => concatenate S8x6x48x48 1 [⟨S8x1x48x48, u 0⟩, ⟨S8x1x48x48, u 1⟩, ⟨S8x1x48x48, u 2⟩, ⟨S8x1x48x48, u 3⟩, ⟨S8x1x48x48, u 4⟩, ⟨S8x1x48x48, u 5⟩] concatenates_S8x1x48x48_S8x1x48x48_S8x1x48x48_S8x1x48x48_S8x1x48x48_S8x1x48x48_S8x6x48x48_d1),
    binary main_v18 main_v31 main_v32 ((fun a b => concatenate S8x10x48x48 1 [⟨S8x4x48x48, a⟩, ⟨S8x6x48x48, b⟩] concatenates_S8x4x48x48_S8x6x48x48_S8x10x48x48_d1) : (⟨S8x4x48x48, .f32⟩ : BufTy).Contents (Elt F) → (⟨S8x6x48x48, .f32⟩ : BufTy).Contents (Elt F) → (⟨S8x10x48x48, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., reshape_bufs_sub .., binary_bufs_sub .., nullary_bufs_sub .., binary_bufs_sub .., reshape_bufs_sub .., binary_bufs_sub .., nullary_bufs_sub .., binary_bufs_sub .., reshape_bufs_sub .., binary_bufs_sub .., binary_bufs_sub .., binary_bufs_sub .., nullary_bufs_sub .., binary_bufs_sub .., reshape_bufs_sub .., binary_bufs_sub .., binary_bufs_sub .., nullary_bufs_sub .., binary_bufs_sub .., reshape_bufs_sub .., binary_bufs_sub .., binary_bufs_sub .., binary_bufs_sub .., reshape_bufs_sub .., binary_bufs_sub .., reshape_bufs_sub .., binary_bufs_sub .., reshape_bufs_sub .., binary_bufs_sub .., reshape_bufs_sub .., binary_bufs_sub .., reshape_bufs_sub .., binary_bufs_sub .., reshape_bufs_sub .., nary_bufs_sub .., binary_bufs_sub ..⟩

/-- From any memory with zero counters every weakly fair execution of @main terminates, each buffer of each
    device at the operations' fold over that device's launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

/-! ## The arguments are never written -/

theorem after_arg0 (V : Valuation τ sig (Elt F)) :
    after ops V (Proc.devRef .tc main_arg0) = V (Proc.devRef .tc main_arg0) := by after_results_simp
theorem after_arg1 (V : Valuation τ sig (Elt F)) :
    after ops V (Proc.devRef .tc main_arg1) = V (Proc.devRef .tc main_arg1) := by after_results_simp
theorem after_arg2 (V : Valuation τ sig (Elt F)) :
    after ops V (Proc.devRef .tc main_arg2) = V (Proc.devRef .tc main_arg2) := by after_results_simp
theorem after_arg3 (V : Valuation τ sig (Elt F)) :
    after ops V (Proc.devRef .tc main_arg3) = V (Proc.devRef .tc main_arg3) := by after_results_simp
theorem after_arg4 (V : Valuation τ sig (Elt F)) :
    after ops V (Proc.devRef .tc main_arg4) = V (Proc.devRef .tc main_arg4) := by after_results_simp
theorem after_arg5 (V : Valuation τ sig (Elt F)) :
    after ops V (Proc.devRef .tc main_arg5) = V (Proc.devRef .tc main_arg5) := by after_results_simp
theorem after_arg6 (V : Valuation τ sig (Elt F)) :
    after ops V (Proc.devRef .tc main_arg6) = V (Proc.devRef .tc main_arg6) := by after_results_simp
theorem after_arg7 (V : Valuation τ sig (Elt F)) :
    after ops V (Proc.devRef .tc main_arg7) = V (Proc.devRef .tc main_arg7) := by after_results_simp
theorem after_arg8 (V : Valuation τ sig (Elt F)) :
    after ops V (Proc.devRef .tc main_arg8) = V (Proc.devRef .tc main_arg8) := by after_results_simp
theorem after_arg9 (V : Valuation τ sig (Elt F)) :
    after ops V (Proc.devRef .tc main_arg9) = V (Proc.devRef .tc main_arg9) := by after_results_simp
theorem after_arg10 (V : Valuation τ sig (Elt F)) :
    after ops V (Proc.devRef .tc main_arg10) = V (Proc.devRef .tc main_arg10) := by after_results_simp
theorem after_arg11 (V : Valuation τ sig (Elt F)) :
    after ops V (Proc.devRef .tc main_arg11) = V (Proc.devRef .tc main_arg11) := by after_results_simp

end Cert.ReferenceIdeal.RefValue

end
-- ==== Proof.RefStages.lean ====
/-
  The reference program's result as a function of its twelve argument arrays.

  The result buffer [8, 10, 48, 48] is a concatenation along axis 1 of ten rows [8, 1, 48, 48]: rows 0 and 1 the maximum
  over the 2304 memory slots of a global bank's scores against the key, rows 2 and 3 the same maximum of a local bank's
  scores times the mask, rows 4 … 9 the six single-slot banks' scores.  The fold of the 37 operations at the result
  buffer is evaluated from the outermost concatenation inwards, one piece at a time: the operations before a piece's own
  give its value, the operations after it do not write its buffer.
-/
import proofs.«171700_j49503793054049_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The values the program computes, as functions of its argument arrays -/

/-- The key [8, 512, 48, 48] read as [8, 512, 2304]: a pixel (h, w) becomes the position 48 h + w. -/
def keyOf (a0 : FVec F S8x512x48x48 .f32) : FVec F S8x512x2304 .f32 :=
  shapeCast S8x512x2304 a0 shapeCasts_S8x512x48x48_S8x512x2304

/-- The mask [8, 2304, 48, 48] read as [8, 2304, 2304]. -/
def maskOf (a1 : FVec F S8x2304x48x48 .f32) : FVec F S8x2304x2304 .f32 :=
  shapeCast S8x2304x2304 a1 shapeCasts_S8x2304x48x48_S8x2304x2304

/-- A fine bank's scores [8, 2304, 2304]: batch by batch the bank [2304, 512] times the key [512, 2304]. -/
def fineScores (bank : FVec F S8x2304x512 .f32) (K : FVec F S8x512x2304 .f32) : FVec F S8x2304x2304 .f32 :=
  Host.dotGeneral dot_S8x2304x512_S8x512x2304_S8x2304x2304_2_1_1_2_0_0 none bank K

/-- The maximum of a [8, 2304, 2304] array over its memory slots (axis 1), from −∞, as a [8, 1, 48, 48] row. -/
def maxRow (x : FVec F S8x2304x2304 .f32) : FVec F S8x1x48x48 .f32 :=
  shapeCast S8x1x48x48
    (Host.reduce FloatOps.maximumf x (constant S_ .f32 0xFF800000#32) reducesTo_S8x2304x2304_S8x2304_d1 h_S_)
    shapeCasts_S8x2304_S8x1x48x48

/-- A single-slot bank's scores [8, 1, 2304] as a [8, 1, 48, 48] row. -/
def coarseRow (bank : FVec F S8x1x512 .f32) (K : FVec F S8x512x2304 .f32) : FVec F S8x1x48x48 .f32 :=
  shapeCast S8x1x48x48 (Host.dotGeneral dot_S8x1x512_S8x512x2304_S8x1x2304_2_1_1_2_0_0 none bank K)
    shapeCasts_S8x1x2304_S8x1x48x48

/-- Rows 0 … 3: the two global banks' maxima, then the two local banks' masked maxima. -/
def fineRows (K : FVec F S8x512x2304 .f32) (Mk : FVec F S8x2304x2304 .f32) (a2 a3 a4 a5 : FVec F S8x2304x512 .f32) :
    FVec F S8x4x48x48 .f32 :=
  concatenate S8x4x48x48 1
    [⟨S8x2x48x48, concatenate S8x2x48x48 1
        [⟨S8x1x48x48, maxRow (fineScores a2 K)⟩, ⟨S8x1x48x48, maxRow (fineScores a3 K)⟩]
        concatenates_S8x1x48x48_S8x1x48x48_S8x2x48x48_d1⟩,
     ⟨S8x2x48x48, concatenate S8x2x48x48 1
        [⟨S8x1x48x48, maxRow (mulf (fineScores a4 K) Mk)⟩, ⟨S8x1x48x48, maxRow (mulf (fineScores a5 K) Mk)⟩]
        concatenates_S8x1x48x48_S8x1x48x48_S8x2x48x48_d1⟩]
    concatenates_S8x2x48x48_S8x2x48x48_S8x4x48x48_d1

/-- Rows 4 … 9: the six single-slot banks' scores. -/
def coarseRows (K : FVec F S8x512x2304 .f32) (a6 a7 a8 a9 a10 a11 : FVec F S8x1x512 .f32) : FVec F S8x6x48x48 .f32 :=
  concatenate S8x6x48x48 1
    [⟨S8x1x48x48, coarseRow a6 K⟩, ⟨S8x1x48x48, coarseRow a7 K⟩, ⟨S8x1x48x48, coarseRow a8 K⟩,
     ⟨S8x1x48x48, coarseRow a9 K⟩, ⟨S8x1x48x48, coarseRow a10 K⟩, ⟨S8x1x48x48, coarseRow a11 K⟩]
    concatenates_S8x1x48x48_S8x1x48x48_S8x1x48x48_S8x1x48x48_S8x1x48x48_S8x1x48x48_S8x6x48x48_d1

/-- The program's result [8, 10, 48, 48] as a function of its twelve arguments. -/
def refTerm (a0 : FVec F S8x512x48x48 .f32) (a1 : FVec F S8x2304x48x48 .f32) (a2 a3 a4 a5 : FVec F S8x2304x512 .f32)
    (a6 a7 a8 a9 a10 a11 : FVec F S8x1x512 .f32) : FVec F S8x10x48x48 .f32 :=
  concatenate S8x10x48x48 1
    [⟨S8x4x48x48, fineRows (keyOf a0) (maskOf a1) a2 a3 a4 a5⟩, ⟨S8x6x48x48, coarseRows (keyOf a0) a6 a7 a8 a9 a10 a11⟩]
    concatenates_S8x4x48x48_S8x6x48x48_S8x10x48x48_d1

/-! ## A concatenation of equal pieces -/

/-- Two-piece concatenations of equal pieces are equal. -/
theorem concat2_congr {α : Type} {t : Shape} {d : Fin t.rank} {s₁ s₂ : Shape} {x₁ y₁ : s₁.Idx → α} {x₂ y₂ : s₂.Idx → α}
    (h : Shape.Concatenates [s₁, s₂] t d) (h₁ : x₁ = y₁) (h₂ : x₂ = y₂) :
    concatenate t d [⟨s₁, x₁⟩, ⟨s₂, x₂⟩] h = concatenate t d [⟨s₁, y₁⟩, ⟨s₂, y₂⟩] h := by
  subst h₁ h₂; rfl

/-- Six-piece concatenations of equal pieces are equal. -/
theorem concat6_congr {α : Type} {t : Shape} {d : Fin t.rank} {s₁ s₂ s₃ s₄ s₅ s₆ : Shape}
    {x₁ y₁ : s₁.Idx → α} {x₂ y₂ : s₂.Idx → α} {x₃ y₃ : s₃.Idx → α} {x₄ y₄ : s₄.Idx → α} {x₅ y₅ : s₅.Idx → α}
    {x₆ y₆ : s₆.Idx → α} (h : Shape.Concatenates [s₁, s₂, s₃, s₄, s₅, s₆] t d)
    (h₁ : x₁ = y₁) (h₂ : x₂ = y₂) (h₃ : x₃ = y₃) (h₄ : x₄ = y₄) (h₅ : x₅ = y₅) (h₆ : x₆ = y₆) :
    concatenate t d [⟨s₁, x₁⟩, ⟨s₂, x₂⟩, ⟨s₃, x₃⟩, ⟨s₄, x₄⟩, ⟨s₅, x₅⟩, ⟨s₆, x₆⟩] h
      = concatenate t d [⟨s₁, y₁⟩, ⟨s₂, y₂⟩, ⟨s₃, y₃⟩, ⟨s₄, y₄⟩, ⟨s₅, y₅⟩, ⟨s₆, y₆⟩] h := by
  subst h₁ h₂ h₃ h₄ h₅ h₆; rfl

/-! ## The result buffer, evaluated concatenation by concatenation

A piece of a concatenation is evaluated on its own: each of the ten rows is the fold of the operations before it at its own
buffer, and no later operation writes that buffer. -/

/-- The six-piece concatenation's result, from any contents: its six operands' contents, concatenated. -/
theorem nary6_result (W : Valuation τ sig (Elt F)) :
    (nary ![main_v20, main_v22, main_v24, main_v26, main_v28, main_v30] main_v31 (fun u => concatenate S8x6x48x48 1 [⟨S8x1x48x48, u 0⟩, ⟨S8x1x48x48, u 1⟩, ⟨S8x1x48x48, u 2⟩, ⟨S8x1x48x48, u 3⟩, ⟨S8x1x48x48, u 4⟩, ⟨S8x1x48x48, u 5⟩] concatenates_S8x1x48x48_S8x1x48x48_S8x1x48x48_S8x1x48x48_S8x1x48x48_S8x1x48x48_S8x6x48x48_d1) : HloOp τ sig (Elt F)).result W (Proc.devRef .tc main_v31)
      = concatenate S8x6x48x48 1 [⟨S8x1x48x48, W (Proc.devRef .tc main_v20)⟩, ⟨S8x1x48x48, W (Proc.devRef .tc main_v22)⟩, ⟨S8x1x48x48, W (Proc.devRef .tc main_v24)⟩, ⟨S8x1x48x48, W (Proc.devRef .tc main_v26)⟩, ⟨S8x1x48x48, W (Proc.devRef .tc main_v28)⟩, ⟨S8x1x48x48, W (Proc.devRef .tc main_v30)⟩] concatenates_S8x1x48x48_S8x1x48x48_S8x1x48x48_S8x1x48x48_S8x1x48x48_S8x1x48x48_S8x6x48x48_d1 := by
  rw [nary_result]; rfl

/-- The result buffer after the 37 operations, from any contents `V`: the program's value at `V`'s arguments. -/
theorem after_v32 (V : Valuation τ sig (Elt F)) :
    after ops V (Proc.devRef .tc main_v32)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  after_results_simp
  refine concat2_congr _ ?_ ?_
  · -- rows 0 … 3
    after_results_simp
    refine concat2_congr _ ?_ ?_
    · after_results_simp
      refine concat2_congr _ ?_ ?_ <;> (after_results_simp; rfl)
    · after_results_simp
      refine concat2_congr _ ?_ ?_ <;> (after_results_simp; rfl)
  · -- rows 4 … 9
    refine (nary6_result _).trans ?_
    refine concat6_congr _ ?_ ?_ ?_ ?_ ?_ ?_ <;> (after_results_simp; rfl)

/-- From any memory with zero counters every weakly fair execution of @main terminates, on every device the result
    buffer at the program's value of the arguments' launch contents, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
        = refTerm (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v32).trans (after_v32 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _)⟩)
    (run_after m ρ)

end Cert.ReferenceIdeal.RefValue

end
-- ==== Proof.LibDotBatchedNT.lean ====
/-
  A batched matrix product against a transposed right factor, read at an index at the exact extended reals: a
  general lemma.

  The einsum `'bmk,bnk->bmn'`: with dimension numbers that take axis 0 of both factors as the batch axis and contract
  axis 2 of a `[B, M, K]` left factor with axis 2 of a `[B, N, K]` right factor (the result `[B, M, N]`), entry
  `(b, p, q)` of the host's product is the sum over `e` of `lhs (b, p, e) * rhs (b, q, e)`: within batch member
  `b`, row `p` of the left factor against row `q` of the right one.  Generic in the four extents.
-/
import Idealize.ShloMosaic.PureOps.Ideal
import Idealize.ShloMosaic.PureOps.Ideal.Laws
import Idealize.ShloMosaic.Lib.ValueIdx

noncomputable section

namespace Cert.LibDotBatchedNT

open Idealize.ShloMosaic Idealize.ShloMosaic.ValueIdx

variable {B M N K : ℕ}

/-- The dimension numbers "within each batch member, rows against rows": batch axis 0 of each factor, contract
    axis 2 with axis 2, keep axis 1 of each factor. -/
abbrev dims (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) where
  lhsContracting := [2]
  rhsContracting := [2]
  lhsNonContracting := [1]
  rhsNonContracting := [1]
  lhsBatch := [0]
  rhsBatch := [0]
  wf := wf

variable (wf : DotDims.WF (⟨3, ![B, M, K]⟩ : Shape) (⟨3, ![B, N, K]⟩ : Shape) (⟨3, ![B, M, N]⟩ : Shape) [2] [2] [1] [1] [0] [0])

/-- The left index keeps the result's batch coordinate on its batch axis. -/
theorem lhsIdx_batch (j : (⟨3, ![B, M, N]⟩ : Shape).Idx) (k : (dims wf).contr.Idx) :
    ((dims wf).lhsIdx j k 0).val = (j 0).val := by
  unfold DotDims.lhsIdx
  rw [dif_pos (show (0 : Fin (⟨3, ![B, M, K]⟩ : Shape).rank) ∈ (dims wf).lhsBatch from List.mem_singleton.mpr rfl)]
  rfl

/-- The left index keeps the result's row coordinate on its row axis. -/
theorem lhsIdx_row (j : (⟨3, ![B, M, N]⟩ : Shape).Idx) (k : (dims wf).contr.Idx) :
    ((dims wf).lhsIdx j k 1).val = (j 1).val := by
  unfold DotDims.lhsIdx
  rw [dif_neg (show ¬(1 : Fin (⟨3, ![B, M, K]⟩ : Shape).rank) ∈ (dims wf).lhsBatch from
      fun h => Nat.one_ne_zero (congrArg Fin.val (List.mem_singleton.mp h))),
    dif_pos (show (1 : Fin (⟨3, ![B, M, K]⟩ : Shape).rank) ∈ (dims wf).lhsNonContracting from List.mem_singleton.mpr rfl)]
  rfl

/-- The right index keeps the result's batch coordinate on its batch axis. -/
theorem rhsIdx_batch (j : (⟨3, ![B, M, N]⟩ : Shape).Idx) (k : (dims wf).contr.Idx) :
    ((dims wf).rhsIdx j k 0).val = (j 0).val := by
  unfold DotDims.rhsIdx
  rw [dif_pos (show (0 : Fin (⟨3, ![B, N, K]⟩ : Shape).rank) ∈ (dims wf).rhsBatch from List.mem_singleton.mpr rfl)]
  rfl

/-- The right index puts the result's column coordinate on its row axis. -/
theorem rhsIdx_row (j : (⟨3, ![B, M, N]⟩ : Shape).Idx) (k : (dims wf).contr.Idx) :
    ((dims wf).rhsIdx j k 1).val = (j 2).val := by
  unfold DotDims.rhsIdx
  rw [dif_neg (show ¬(1 : Fin (⟨3, ![B, N, K]⟩ : Shape).rank) ∈ (dims wf).rhsBatch from
      fun h => Nat.one_ne_zero (congrArg Fin.val (List.mem_singleton.mp h))),
    dif_pos (show (1 : Fin (⟨3, ![B, N, K]⟩ : Shape).rank) ∈ (dims wf).rhsNonContracting from List.mem_singleton.mpr rfl)]
  rfl

/-- The left index at result `(b, p, q)` and contraction position `e` is `(b, p, e)`. -/
theorem lhsIdx_eq (b : Fin B) (p : Fin M) (q : Fin N) (e : Fin K) :
    (dims wf).lhsIdx (ix3 b p q) ((contrEquiv1 (dims wf) K rfl rfl).symm e) = ix3 b p e := by
  have he := contrEquiv1_symm_val (dims wf) K rfl rfl e
  funext a
  apply Fin.ext
  match a with
  | ⟨0, _⟩ => exact lhsIdx_batch wf _ _
  | ⟨1, _⟩ => exact lhsIdx_row wf _ _
  | ⟨2, _⟩ => exact ((dims wf).lhsIdx_val_of_single rfl _ _).trans he

/-- The right index at result `(b, p, q)` and contraction position `e` is `(b, q, e)`. -/
theorem rhsIdx_eq (b : Fin B) (p : Fin M) (q : Fin N) (e : Fin K) :
    (dims wf).rhsIdx (ix3 b p q) ((contrEquiv1 (dims wf) K rfl rfl).symm e) = ix3 b q e := by
  have he := contrEquiv1_symm_val (dims wf) K rfl rfl e
  funext a
  apply Fin.ext
  match a with
  | ⟨0, _⟩ => exact rhsIdx_batch wf _ _
  | ⟨1, _⟩ => exact rhsIdx_row wf _ _
  | ⟨2, _⟩ => exact ((dims wf).rhsIdx_val_of_single rfl _ _).trans he

/-- Entry `(b, p, q)` of the host's batched product: within batch member `b`, row `p` of `lhs` against row `q`
    of `rhs`. -/
theorem dotGeneral_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    Host.dotGeneral (F := Ideal) (dims wf) prec lhs rhs (ix3 b p q)
      = ∑ e : Fin K, lhs (ix3 b p e) * rhs (ix3 b q e) := by
  unfold Host.dotGeneral
  rw [Ideal.dotGeneral_apply, ← Equiv.sum_comp (contrEquiv1 (dims wf) K rfl rfl).symm]
  refine Finset.sum_congr rfl fun e _ => ?_
  rw [lhsIdx_eq wf b p q e, rhsIdx_eq wf b p q e]

end Cert.LibDotBatchedNT

end
-- ==== Proof.LibBatchedProducts.lean ====
/-
  Batched matrix products read at an index at the exact extended reals: general lemmas.

  Within each batch member `b` (axis 0 of both factors and of the result):
  * "rows against rows" — a `[B, M, K]` left factor against a `[B, N, K]` right factor, contracting the last axis of
    both: entry `(b, p, q)` is `∑ e, lhs (b, p, e) * rhs (b, q, e)`;
  * "rows against columns" — a `[B, M, K]` left factor against a `[B, K, N]` right factor, contracting the last axis
    of the left with the middle axis of the right: entry `(b, p, q)` is `∑ e, lhs (b, p, e) * rhs (b, e, q)`.
  Each is stated for the host's product and for a kernel's matrix unit accumulating into a zero array.  Generic in
  the four extents.
-/
import Idealize.ShloMosaic.PureOps.Ideal
import Idealize.ShloMosaic.PureOps.Ideal.Laws
import Idealize.ShloMosaic.Lib.ValueIdx
import proofs.«171700_j49503793054049_2_alg».proof.Proof.LibDotBatchedNT

noncomputable section

namespace Cert.LibBatchedProducts

open Idealize.ShloMosaic Idealize.ShloMosaic.ValueIdx

variable {B M N K : ℕ}

/-! ## Rows against rows -/

section NT

variable (wf : DotDims.WF (⟨3, ![B, M, K]⟩ : Shape) (⟨3, ![B, N, K]⟩ : Shape) (⟨3, ![B, M, N]⟩ : Shape) [2] [2] [1] [1] [0] [0])

/-- Entry `(b, p, q)` of a matrix unit's batched product into a zero accumulator: within batch member `b`, row `p`
    of `lhs` against row `q` of `rhs`. -/
theorem matmulNT_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    FloatOps.matmul (F := Ideal) (Cert.LibDotBatchedNT.dims wf) prec lhs rhs
        (constant (⟨3, ![B, M, N]⟩ : Shape) .f32 0x00000000#32) (ix3 b p q)
      = ∑ e : Fin K, lhs (ix3 b p e) * rhs (ix3 b q e) := by
  rw [Ideal.matmul_constant_zero_apply, ← Equiv.sum_comp (contrEquiv1 (Cert.LibDotBatchedNT.dims wf) K rfl rfl).symm]
  refine Finset.sum_congr rfl fun e _ => ?_
  rw [Cert.LibDotBatchedNT.lhsIdx_eq wf b p q e, Cert.LibDotBatchedNT.rhsIdx_eq wf b p q e]

end NT

/-! ## Rows against columns -/

section NN

/-- The dimension numbers "within each batch member, rows against columns": batch axis 0 of each factor, contract
    axis 2 of the left factor with axis 1 of the right, keep axis 1 of the left and axis 2 of the right. -/
abbrev dimsNN (wf : DotDims.WF (⟨3, ![B, M, K]⟩ : Shape) (⟨3, ![B, K, N]⟩ : Shape) (⟨3, ![B, M, N]⟩ : Shape) [2] [1] [1] [2] [0] [0]) :
    DotDims (⟨3, ![B, M, K]⟩ : Shape) (⟨3, ![B, K, N]⟩ : Shape) (⟨3, ![B, M, N]⟩ : Shape) where
  lhsContracting := [2]
  rhsContracting := [1]
  lhsNonContracting := [1]
  rhsNonContracting := [2]
  lhsBatch := [0]
  rhsBatch := [0]
  wf := wf

variable (wf : DotDims.WF (⟨3, ![B, M, K]⟩ : Shape) (⟨3, ![B, K, N]⟩ : Shape) (⟨3, ![B, M, N]⟩ : Shape) [2] [1] [1] [2] [0] [0])

theorem lhsIdxNN_batch (j : (⟨3, ![B, M, N]⟩ : Shape).Idx) (k : (dimsNN wf).contr.Idx) :
    ((dimsNN wf).lhsIdx j k 0).val = (j 0).val := by
  unfold DotDims.lhsIdx
  rw [dif_pos (show (0 : Fin (⟨3, ![B, M, K]⟩ : Shape).rank) ∈ (dimsNN wf).lhsBatch from List.mem_singleton.mpr rfl)]
  rfl

theorem lhsIdxNN_row (j : (⟨3, ![B, M, N]⟩ : Shape).Idx) (k : (dimsNN wf).contr.Idx) :
    ((dimsNN wf).lhsIdx j k 1).val = (j 1).val := by
  unfold DotDims.lhsIdx
  rw [dif_neg (show ¬(1 : Fin (⟨3, ![B, M, K]⟩ : Shape).rank) ∈ (dimsNN wf).lhsBatch from
      fun h => Nat.one_ne_zero (congrArg Fin.val (List.mem_singleton.mp h))),
    dif_pos (show (1 : Fin (⟨3, ![B, M, K]⟩ : Shape).rank) ∈ (dimsNN wf).lhsNonContracting from List.mem_singleton.mpr rfl)]
  rfl

theorem rhsIdxNN_batch (j : (⟨3, ![B, M, N]⟩ : Shape).Idx) (k : (dimsNN wf).contr.Idx) :
    ((dimsNN wf).rhsIdx j k 0).val = (j 0).val := by
  unfold DotDims.rhsIdx
  rw [dif_pos (show (0 : Fin (⟨3, ![B, K, N]⟩ : Shape).rank) ∈ (dimsNN wf).rhsBatch from List.mem_singleton.mpr rfl)]
  rfl

theorem rhsIdxNN_col (j : (⟨3, ![B, M, N]⟩ : Shape).Idx) (k : (dimsNN wf).contr.Idx) :
    ((dimsNN wf).rhsIdx j k 2).val = (j 2).val := by
  unfold DotDims.rhsIdx
  rw [dif_neg (show ¬(2 : Fin (⟨3, ![B, K, N]⟩ : Shape).rank) ∈ (dimsNN wf).rhsBatch from
      fun h => (by decide : (2 : ℕ) ≠ 0) (congrArg Fin.val (List.mem_singleton.mp h))),
    dif_pos (show (2 : Fin (⟨3, ![B, K, N]⟩ : Shape).rank) ∈ (dimsNN wf).rhsNonContracting from List.mem_singleton.mpr rfl)]
  rfl

/-- The left index at result `(b, p, q)` and contraction position `e` is `(b, p, e)`. -/
theorem lhsIdxNN_eq (b : Fin B) (p : Fin M) (q : Fin N) (e : Fin K) :
    (dimsNN wf).lhsIdx (ix3 b p q) ((contrEquiv1 (dimsNN wf) K rfl rfl).symm e) = ix3 b p e := by
  have he := contrEquiv1_symm_val (dimsNN wf) K rfl rfl e
  funext a
  apply Fin.ext
  match a with
  | ⟨0, _⟩ => exact lhsIdxNN_batch wf _ _
  | ⟨1, _⟩ => exact lhsIdxNN_row wf _ _
  | ⟨2, _⟩ => exact ((dimsNN wf).lhsIdx_val_of_single rfl _ _).trans he

/-- The right index at result `(b, p, q)` and contraction position `e` is `(b, e, q)`. -/
theorem rhsIdxNN_eq (b : Fin B) (p : Fin M) (q : Fin N) (e : Fin K) :
    (dimsNN wf).rhsIdx (ix3 b p q) ((contrEquiv1 (dimsNN wf) K rfl rfl).symm e) = ix3 b e q := by
  have he := contrEquiv1_symm_val (dimsNN wf) K rfl rfl e
  funext a
  apply Fin.ext
  match a with
  | ⟨0, _⟩ => exact rhsIdxNN_batch wf _ _
  | ⟨1, _⟩ => exact ((dimsNN wf).rhsIdx_val_of_single rfl _ _).trans he
  | ⟨2, _⟩ => exact rhsIdxNN_col wf _ _

/-- Entry `(b, p, q)` of the host's batched product: within batch member `b`, row `p` of `lhs` against column `q`
    of `rhs`. -/
theorem dotGeneralNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    Host.dotGeneral (F := Ideal) (dimsNN wf) prec lhs rhs (ix3 b p q)
      = ∑ e : Fin K, lhs (ix3 b p e) * rhs (ix3 b e q) := by
  unfold Host.dotGeneral
  rw [Ideal.dotGeneral_apply, ← Equiv.sum_comp (contrEquiv1 (dimsNN wf) K rfl rfl).symm]
  refine Finset.sum_congr rfl fun e _ => ?_
  rw [lhsIdxNN_eq wf b p q e, rhsIdxNN_eq wf b p q e]

/-- Entry `(b, p, q)` of a matrix unit's batched product into a zero accumulator: the same sum. -/
theorem matmulNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    FloatOps.matmul (F := Ideal) (dimsNN wf) prec lhs rhs
        (constant (⟨3, ![B, M, N]⟩ : Shape) .f32 0x00000000#32) (ix3 b p q)
      = ∑ e : Fin K, lhs (ix3 b p e) * rhs (ix3 b e q) := by
  rw [Ideal.matmul_constant_zero_apply, ← Equiv.sum_comp (contrEquiv1 (dimsNN wf) K rfl rfl).symm]
  refine Finset.sum_congr rfl fun e _ => ?_
  rw [lhsIdxNN_eq wf b p q e, rhsIdxNN_eq wf b p q e]

end NN

end Cert.LibBatchedProducts

end
-- ==== Proof.RefValue.lean ====
/-
  The reference program computes the common value.

  Read at an index (b, r, h, w) of the result [8, 10, 48, 48], with n = 48 h + w the position of the pixel: the
  concatenations pick row r's piece; a piece is a [8, 2304] maximum or a [8, 1, 2304] score array reshaped to a
  [8, 1, 48, 48] row, read at (b, n) resp. (b, 0, n); a maximum over the memory slots is the fold of `max` from −∞
  over the slots m of the scores at (b, m, n), for the local banks each times the mask at (b, m, n); a score is the
  sum over the 512 channels e of bank (b, m, e) · key (b, e, n).  That is row r of `Cert.Spec.Z` at (b, n), which
  the last reshape of the common value reads at the same index.
-/
import proofs.«171700_j49503793054049_2_alg».proof.Proof.RefStages
import proofs.«171700_j49503793054049_2_alg».proof.Proof.Spec
import proofs.«171700_j49503793054049_2_alg».proof.Proof.LibBatchedProducts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-! ## Reading the reshapes at an index -/

/-- The position of the pixel (h, w) of a 48 × 48 map: 48 h + w. -/
def pos (h w : Fin 48) : Fin 2304 := ⟨h.val * 48 + w.val, by have := h.isLt; have := w.isLt; omega⟩

/-- A [8, 2304] array read as [8, 1, 48, 48], at (b, 0, h, w): the array at (b, 48 h + w). -/
theorem cast_row_apply {α : Type} (y : S8x2304.Idx → α) (b : Fin 8) (h w : Fin 48) :
    shapeCast S8x1x48x48 y shapeCasts_S8x2304_S8x1x48x48 (ix4 b (0 : Fin 1) h w) = y (ix2 b (pos h w)) :=
  shapeCast_apply y shapeCasts_S8x2304_S8x1x48x48 (ix4 b (0 : Fin 1) h w) (ix2 b (pos h w))
    (by rewrite [Shape.rowMajor_val_two, Shape.rowMajor_val_four]
        show b.val * 2304 + (h.val * 48 + w.val) = ((b.val * 1 + 0) * 48 + h.val) * 48 + w.val
        omega)

/-- A [8, 1, 2304] array read as [8, 1, 48, 48], at (b, 0, h, w): the array at (b, 0, 48 h + w). -/
theorem cast_row3_apply {α : Type} (y : S8x1x2304.Idx → α) (b : Fin 8) (h w : Fin 48) :
    shapeCast S8x1x48x48 y shapeCasts_S8x1x2304_S8x1x48x48 (ix4 b (0 : Fin 1) h w) = y (ix3 b (0 : Fin 1) (pos h w)) :=
  shapeCast_apply y shapeCasts_S8x1x2304_S8x1x48x48 (ix4 b (0 : Fin 1) h w) (ix3 b (0 : Fin 1) (pos h w))
    (by rewrite [Shape.rowMajor_val_three, Shape.rowMajor_val_four]
        show (b.val * 1 + 0) * 2304 + (h.val * 48 + w.val) = ((b.val * 1 + 0) * 48 + h.val) * 48 + w.val
        omega)

/-- A [8, 10, 2304] array read as [8, 10, 48, 48], at (b, r, h, w): the array at (b, r, 48 h + w). -/
theorem castZ_apply {α : Type} (z : Cert.Spec.SZ.Idx → α) (b : Fin 8) (r : Fin 10) (h w : Fin 48) :
    shapeCast S8x10x48x48 z Cert.Spec.castZ (ix4 b r h w) = z (ix3 b r (pos h w)) :=
  shapeCast_apply z Cert.Spec.castZ (ix4 b r h w) (ix3 b r (pos h w))
    (by rewrite [Shape.rowMajor_val_three, Shape.rowMajor_val_four]
        show (b.val * 10 + r.val) * 2304 + (h.val * 48 + w.val) = ((b.val * 10 + r.val) * 48 + h.val) * 48 + w.val
        omega)

/-! ## Reading the products and the maxima at an index -/

/-- A fine bank's score at (b, m, n): the sum over the 512 channels. -/
theorem fineScores_apply (bank : FVec Ideal S8x2304x512 .f32) (K : FVec Ideal S8x512x2304 .f32)
    (b : Fin 8) (m n : Fin 2304) : fineScores bank K (ix3 b m n) = Cert.Spec.dotAt bank K b m n :=
  Cert.LibBatchedProducts.dotGeneralNN_apply (B := 8) (M := 2304) (N := 2304) (K := 512)
    dot_S8x2304x512_S8x512x2304_S8x2304x2304_2_1_1_2_0_0_wf none bank K b m n

/-- In a [8, 2304, 2304] array reduced over its middle axis, the index over (b, n) with the dropped coordinate `k` put
    back is (b, k, n). -/
theorem lift_ix3 (hR : S8x2304x2304.Reduces [1] S8x2304) (b : Fin 8) (n : Fin 2304) (k : Fin (S8x2304x2304.size 1)) :
    hR.lift (ix2 b n) k = ix3 b (⟨k.val, k.isLt⟩ : Fin 2304) n := by
  funext c; apply Fin.ext
  match c with
  | ⟨0, _⟩ => rfl
  | ⟨1, _⟩ => rfl
  | ⟨2, _⟩ => rfl

/-- A maximum row at (b, 0, h, w): the fold of `max` from −∞ over the memory slots m of the array at (b, m, 48 h + w). -/
theorem maxRow_apply (x : FVec Ideal S8x2304x2304 .f32) (b : Fin 8) (h w : Fin 48) :
    maxRow x (ix4 b (0 : Fin 1) h w)
      = (Finset.univ : Finset (Fin 2304)).fold max Cert.Spec.negInf fun m => x (ix3 b m (pos h w)) := by
  have hR : S8x2304x2304.Reduces [1] S8x2304 := by decide
  unfold maxRow
  refine (cast_row_apply _ b h w).trans ?_
  refine (Host.reduce_eq_fold_single FloatOps.maximumf x _ reducesTo_S8x2304x2304_S8x2304_d1 hR h_S_ _).trans ?_
  have hf : (x ∘ hR.lift (ix2 b (pos h w))) = fun m : Fin 2304 => x (ix3 b m (pos h w)) :=
    funext fun k => congrArg x (lift_ix3 hR b (pos h w) k)
  exact congrArg (fun f => Finset.fold max Cert.Spec.negInf f (Finset.univ : Finset (Fin 2304))) hf

/-- A single-slot bank's row at (b, 0, h, w): its score against position 48 h + w. -/
theorem coarseRow_apply (bank : FVec Ideal S8x1x512 .f32) (K : FVec Ideal S8x512x2304 .f32) (b : Fin 8) (h w : Fin 48) :
    coarseRow bank K (ix4 b (0 : Fin 1) h w) = Cert.Spec.dotAt bank K b (0 : Fin 1) (pos h w) := by
  unfold coarseRow
  refine (cast_row3_apply _ b h w).trans ?_
  exact Cert.LibBatchedProducts.dotGeneralNN_apply (B := 8) (M := 1) (N := 2304) (K := 512)
    dot_S8x1x512_S8x512x2304_S8x1x2304_2_1_1_2_0_0_wf none bank K b (0 : Fin 1) (pos h w)

/-- A global bank's maximum row at (b, 0, h, w). -/
theorem globalRow_apply (bank : FVec Ideal S8x2304x512 .f32) (K : FVec Ideal S8x512x2304 .f32) (b : Fin 8) (h w : Fin 48) :
    maxRow (fineScores bank K) (ix4 b (0 : Fin 1) h w) = Cert.Spec.fineMax bank K b (pos h w) := by
  refine (maxRow_apply _ b h w).trans ?_
  unfold Cert.Spec.fineMax
  exact congrArg (fun f => Finset.fold max Cert.Spec.negInf f (Finset.univ : Finset (Fin 2304)))
    (funext fun m => fineScores_apply bank K b m (pos h w))

/-- A local bank's masked maximum row at (b, 0, h, w). -/
theorem localRow_apply (bank : FVec Ideal S8x2304x512 .f32) (K : FVec Ideal S8x512x2304 .f32)
    (Mk : FVec Ideal S8x2304x2304 .f32) (b : Fin 8) (h w : Fin 48) :
    maxRow (mulf (fineScores bank K) Mk) (ix4 b (0 : Fin 1) h w) = Cert.Spec.maskedMax bank K Mk b (pos h w) := by
  refine (maxRow_apply _ b h w).trans ?_
  unfold Cert.Spec.maskedMax
  exact congrArg (fun f => Finset.fold max Cert.Spec.negInf f (Finset.univ : Finset (Fin 2304)))
    (funext fun m => congrArg (· * Mk (ix3 b m (pos h w))) (fineScores_apply bank K b m (pos h w)))

/-! ## Reading the concatenations at an index -/

/-- Two arrays [8, n₁, 48, 48] and [8, n₂, 48, 48] concatenated along axis 1, at a row of the first. -/
theorem concat_left {α : Type} {n₁ n₂ n : Nat} (x₁ : (⟨4, ![8, n₁, 48, 48]⟩ : Shape).Idx → α)
    (x₂ : (⟨4, ![8, n₂, 48, 48]⟩ : Shape).Idx → α)
    (hc : Shape.Concatenates [(⟨4, ![8, n₁, 48, 48]⟩ : Shape), ⟨4, ![8, n₂, 48, 48]⟩] ⟨4, ![8, n, 48, 48]⟩ 1)
    (b : Fin 8) (r : Fin n) (r' : Fin n₁) (hr : r'.val = r.val) (h w : Fin 48) :
    concatenate (⟨4, ![8, n, 48, 48]⟩ : Shape) 1 [⟨_, x₁⟩, ⟨_, x₂⟩] hc (ix4 b r h w) = x₁ (ix4 b r' h w) :=
  concatenate_pair_apply_left 1 x₁ x₂ hc (ix4 b r h w) rfl (ix4 b r' h w) fun c => by
    match c with
    | ⟨0, _⟩ => rfl
    | ⟨1, _⟩ => exact hr
    | ⟨2, _⟩ => rfl
    | ⟨3, _⟩ => rfl

/-- … and at a row of the second: row `r` of the whole is row `r − n₁` of the second. -/
theorem concat_right {α : Type} {n₁ n₂ n : Nat} (x₁ : (⟨4, ![8, n₁, 48, 48]⟩ : Shape).Idx → α)
    (x₂ : (⟨4, ![8, n₂, 48, 48]⟩ : Shape).Idx → α)
    (hc : Shape.Concatenates [(⟨4, ![8, n₁, 48, 48]⟩ : Shape), ⟨4, ![8, n₂, 48, 48]⟩] ⟨4, ![8, n, 48, 48]⟩ 1)
    (b : Fin 8) (r : Fin n) (r' : Fin n₂) (hr : r'.val + n₁ = r.val) (h w : Fin 48) :
    concatenate (⟨4, ![8, n, 48, 48]⟩ : Shape) 1 [⟨_, x₁⟩, ⟨_, x₂⟩] hc (ix4 b r h w) = x₂ (ix4 b r' h w) :=
  concatenate_pair_apply_right 1 x₁ x₂ hc (ix4 b r h w) rfl rfl (ix4 b r' h w)
    (fun c hc' => by
      match c with
      | ⟨0, _⟩ => rfl
      | ⟨1, _⟩ => exact absurd rfl hc'
      | ⟨2, _⟩ => rfl
      | ⟨3, _⟩ => rfl)
    hr

/-- Six rows [8, 1, 48, 48] concatenated along axis 1, at row `k`: the `k`-th of them. -/
theorem concat6_apply {α : Type} (x : Fin 6 → (S8x1x48x48.Idx → α))
    (hc : Shape.Concatenates [S8x1x48x48, S8x1x48x48, S8x1x48x48, S8x1x48x48, S8x1x48x48, S8x1x48x48] S8x6x48x48 1)
    (b : Fin 8) (k : Fin 6) (h w : Fin 48) :
    concatenate S8x6x48x48 1 [⟨S8x1x48x48, x 0⟩, ⟨S8x1x48x48, x 1⟩, ⟨S8x1x48x48, x 2⟩, ⟨S8x1x48x48, x 3⟩,
        ⟨S8x1x48x48, x 4⟩, ⟨S8x1x48x48, x 5⟩] hc (ix4 b k h w)
      = x k (ix4 b (0 : Fin 1) h w) :=
  concatenate_ofFn_unit_apply 1 x hc rfl rfl (ix4 b k h w) k rfl (ix4 b (0 : Fin 1) h w) fun c hc' => by
    match c with
    | ⟨0, _⟩ => rfl
    | ⟨1, _⟩ => exact absurd rfl hc'
    | ⟨2, _⟩ => rfl
    | ⟨3, _⟩ => rfl

/-! ## The ten rows of the program's value -/

section Rows

variable (K : FVec Ideal S8x512x2304 .f32) (Mk : FVec Ideal S8x2304x2304 .f32) (a2 a3 a4 a5 : FVec Ideal S8x2304x512 .f32)
  (a6 a7 a8 a9 a10 a11 : FVec Ideal S8x1x512 .f32) (b : Fin 8) (h w : Fin 48)

/-- Row 0 of the four fine rows: the first global bank's maximum. -/
theorem fineRows_apply0 (r : Fin 4) (hr : r.val = 0) :
    fineRows K Mk a2 a3 a4 a5 (ix4 b r h w) = Cert.Spec.fineMax a2 K b (pos h w) := by
  unfold fineRows
  refine (concat_left _ _ _ b r (0 : Fin 2) hr.symm h w).trans ?_
  refine (concat_left _ _ _ b (0 : Fin 2) (0 : Fin 1) rfl h w).trans ?_
  exact globalRow_apply a2 K b h w

/-- Row 1: the second global bank's maximum. -/
theorem fineRows_apply1 (r : Fin 4) (hr : r.val = 1) :
    fineRows K Mk a2 a3 a4 a5 (ix4 b r h w) = Cert.Spec.fineMax a3 K b (pos h w) := by
  unfold fineRows
  refine (concat_left _ _ _ b r (1 : Fin 2) hr.symm h w).trans ?_
  refine (concat_right _ _ _ b (1 : Fin 2) (0 : Fin 1) rfl h w).trans ?_
  exact globalRow_apply a3 K b h w

/-- Row 2: the first local bank's masked maximum. -/
theorem fineRows_apply2 (r : Fin 4) (hr : r.val = 2) :
    fineRows K Mk a2 a3 a4 a5 (ix4 b r h w) = Cert.Spec.maskedMax a4 K Mk b (pos h w) := by
  unfold fineRows
  refine (concat_right _ _ _ b r (0 : Fin 2) hr.symm h w).trans ?_
  refine (concat_left _ _ _ b (0 : Fin 2) (0 : Fin 1) rfl h w).trans ?_
  exact localRow_apply a4 K Mk b h w

/-- Row 3: the second local bank's masked maximum. -/
theorem fineRows_apply3 (r : Fin 4) (hr : r.val = 3) :
    fineRows K Mk a2 a3 a4 a5 (ix4 b r h w) = Cert.Spec.maskedMax a5 K Mk b (pos h w) := by
  unfold fineRows
  refine (concat_right _ _ _ b r (1 : Fin 2) hr.symm h w).trans ?_
  refine (concat_right _ _ _ b (1 : Fin 2) (0 : Fin 1) rfl h w).trans ?_
  exact localRow_apply a5 K Mk b h w

/-- Row `k` of the six single-slot rows: bank `k`'s score. -/
theorem coarseRows_apply (k : Fin 6) :
    coarseRows K a6 a7 a8 a9 a10 a11 (ix4 b k h w)
      = Cert.Spec.dotAt (Cert.Spec.coarseSel a6 a7 a8 a9 a10 a11 k.val) K b (0 : Fin 1) (pos h w) := by
  unfold coarseRows
  refine (concat6_apply (fun j : Fin 6 => coarseRow (Cert.Spec.coarseSel a6 a7 a8 a9 a10 a11 j.val) K) _ b k h w).trans ?_
  exact coarseRow_apply _ K b h w

end Rows

/-! ## The rows of the common value -/

section SpecRows

variable (K : Cert.Spec.SK.Idx → EReal) (Mk : Cert.Spec.SM.Idx → EReal) (g₁ g₂ l₁ l₂ : Cert.Spec.SB.Idx → EReal)
  (c₀ c₁ c₂ c₃ c₄ c₅ : Cert.Spec.SC.Idx → EReal) (b : Fin 8) (n : Fin 2304) (r : Fin 10)

/-- The common value at (b, r, n), as the chain of cases on the row. -/
theorem Z_apply : Cert.Spec.Z K Mk g₁ g₂ l₁ l₂ c₀ c₁ c₂ c₃ c₄ c₅ (ix3 b r n)
    = if r.val = 0 then Cert.Spec.fineMax g₁ K b n
      else if r.val = 1 then Cert.Spec.fineMax g₂ K b n
      else if r.val = 2 then Cert.Spec.maskedMax l₁ K Mk b n
      else if r.val = 3 then Cert.Spec.maskedMax l₂ K Mk b n
      else Cert.Spec.dotAt (Cert.Spec.coarseSel c₀ c₁ c₂ c₃ c₄ c₅ (r.val - 4)) K b (0 : Fin 1) n := rfl

theorem Z_row0 (hr : r.val = 0) :
    Cert.Spec.Z K Mk g₁ g₂ l₁ l₂ c₀ c₁ c₂ c₃ c₄ c₅ (ix3 b r n) = Cert.Spec.fineMax g₁ K b n := by
  rw [Z_apply, if_pos hr]

theorem Z_row1 (hr : r.val = 1) :
    Cert.Spec.Z K Mk g₁ g₂ l₁ l₂ c₀ c₁ c₂ c₃ c₄ c₅ (ix3 b r n) = Cert.Spec.fineMax g₂ K b n := by
  rw [Z_apply, if_neg (by omega), if_pos hr]

theorem Z_row2 (hr : r.val = 2) :
    Cert.Spec.Z K Mk g₁ g₂ l₁ l₂ c₀ c₁ c₂ c₃ c₄ c₅ (ix3 b r n) = Cert.Spec.maskedMax l₁ K Mk b n := by
  rw [Z_apply, if_neg (by omega), if_neg (by omega), if_pos hr]

theorem Z_row3 (hr : r.val = 3) :
    Cert.Spec.Z K Mk g₁ g₂ l₁ l₂ c₀ c₁ c₂ c₃ c₄ c₅ (ix3 b r n) = Cert.Spec.maskedMax l₂ K Mk b n := by
  rw [Z_apply, if_neg (by omega), if_neg (by omega), if_neg (by omega), if_pos hr]

/-- Row `k + 4`: single-slot bank `k`'s score. -/
theorem Z_coarse (k : Fin 6) (hk : k.val + 4 = r.val) :
    Cert.Spec.Z K Mk g₁ g₂ l₁ l₂ c₀ c₁ c₂ c₃ c₄ c₅ (ix3 b r n)
      = Cert.Spec.dotAt (Cert.Spec.coarseSel c₀ c₁ c₂ c₃ c₄ c₅ k.val) K b (0 : Fin 1) n := by
  rw [Z_apply, if_neg (by omega), if_neg (by omega), if_neg (by omega), if_neg (by omega),
    show r.val - 4 = k.val by omega]

end SpecRows

/-! ## The program's value is the common value -/

section Value

variable (a0 : FVec Ideal S8x512x48x48 .f32) (a1 : FVec Ideal S8x2304x48x48 .f32) (a2 a3 a4 a5 : FVec Ideal S8x2304x512 .f32)
  (a6 a7 a8 a9 a10 a11 : FVec Ideal S8x1x512 .f32)

/-- At every index (b, r, h, w). -/
theorem value_at (b : Fin 8) (r : Fin 10) (h w : Fin 48) :
    refTerm a0 a1 a2 a3 a4 a5 a6 a7 a8 a9 a10 a11 (ix4 b r h w)
      = shapeCast S8x10x48x48 (Cert.Spec.Z (keyOf a0) (maskOf a1) a2 a3 a4 a5 a6 a7 a8 a9 a10 a11) Cert.Spec.castZ
          (ix4 b r h w) := by
  refine Eq.trans ?_ (castZ_apply _ b r h w).symm
  unfold refTerm
  by_cases h4 : r.val < 4
  · -- a fine row: row r of the first piece
    refine (concat_left _ _ _ b r (⟨r.val, h4⟩ : Fin 4) rfl h w).trans ?_
    by_cases e0 : r.val = 0
    · exact (fineRows_apply0 _ _ a2 a3 a4 a5 b h w ⟨r.val, h4⟩ e0).trans (Z_row0 _ _ _ _ _ _ _ _ _ _ _ _ b _ r e0).symm
    by_cases e1 : r.val = 1
    · exact (fineRows_apply1 _ _ a2 a3 a4 a5 b h w ⟨r.val, h4⟩ e1).trans (Z_row1 _ _ _ _ _ _ _ _ _ _ _ _ b _ r e1).symm
    by_cases e2 : r.val = 2
    · exact (fineRows_apply2 _ _ a2 a3 a4 a5 b h w ⟨r.val, h4⟩ e2).trans (Z_row2 _ _ _ _ _ _ _ _ _ _ _ _ b _ r e2).symm
    have e3 : r.val = 3 := by omega
    exact (fineRows_apply3 _ _ a2 a3 a4 a5 b h w ⟨r.val, h4⟩ e3).trans (Z_row3 _ _ _ _ _ _ _ _ _ _ _ _ b _ r e3).symm
  · -- a single-slot row: row r − 4 of the second piece
    have hk : r.val - 4 < 6 := by have := r.isLt; omega
    have hkr : (⟨r.val - 4, hk⟩ : Fin 6).val + 4 = r.val := by show r.val - 4 + 4 = r.val; omega
    refine (concat_right _ _ _ b r (⟨r.val - 4, hk⟩ : Fin 6) hkr h w).trans ?_
    exact (coarseRows_apply _ a6 a7 a8 a9 a10 a11 b h w ⟨r.val - 4, hk⟩).trans
      (Z_coarse _ _ _ _ _ _ _ _ _ _ _ _ b _ r ⟨r.val - 4, hk⟩ hkr).symm

/-- The program's value of its arguments is the common value of them, reshaped to [8, 10, 48, 48]. -/
theorem value_eq :
    refTerm a0 a1 a2 a3 a4 a5 a6 a7 a8 a9 a10 a11
      = shapeCast S8x10x48x48 (Cert.Spec.Z (keyOf a0) (maskOf a1) a2 a3 a4 a5 a6 a7 a8 a9 a10 a11) Cert.Spec.castZ := by
  funext i
  obtain ⟨b, r, h, w, rfl⟩ : ∃ (b : Fin 8) (r : Fin 10) (h w : Fin 48), i = ix4 b r h w :=
    ⟨i 0, i 1, i 2, i 3, eq_ix4 i⟩
  exact value_at a0 a1 a2 a3 a4 a5 a6 a7 a8 a9 a10 a11 b r h w

end Value

/-! ## The run, with its result stated as the common value -/

/-- The reference's result on core c, from the launch memory m. -/
def refSpec (m : (ℓ : Loc nD τ sig) → Buf (Elt Ideal) ℓ) (c : Dev nD) : FVec Ideal S8x10x48x48 .f32 :=
  shapeCast S8x10x48x48 (Cert.Spec.Z
    (shapeCast S8x512x2304 (m ((c.tc : Thread nD τ).loc main_arg0)) shapeCasts_S8x512x48x48_S8x512x2304)
    (shapeCast S8x2304x2304 (m ((c.tc : Thread nD τ).loc main_arg1)) shapeCasts_S8x2304x48x48_S8x2304x2304)
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) Cert.Spec.castZ

/-- From any memory with zero counters every weakly fair execution of the reference's @main terminates, on every
    device the result buffer at the common value of the arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = refSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (value_eq _ _ _ _ _ _ _ _ _ _ _ _), (h c).2⟩) (run_term m ρ)

end Cert.ReferenceIdeal.RefValue

end
-- ==== Proof.lean ====
/-
  A memory-bank matcher: for each of 8 batches and 2304 positions, ten matching scores of the position's 512-channel key
  against memory banks — the maximum over 2304 memory slots of the slot's score (its inner product with the key) for two
  global banks; the same maximum with every score first multiplied by a mask entry for two local banks; the single score of
  each of six one-slot banks — laid out as [8, 10, 48, 48].

  The kernel computes them in two tiled launches (the masked maxima; the unmasked maxima and the six single scores
  together, the six banks stacked into one), with the factors cast to a shorter float format before each product, and
  reorders the rows on the host; the reference computes each row by one batched product over the whole arrays.  On the
  extended reals the cast is the identity, a tile's product into a zero accumulator and the host's batched product are the
  same sums over the channels, a column maximum and the host's maximum are the same fold of `max` from −∞ over the memory
  slots, and the tiles' blocks partition the output arrays; so both programs end at one function of the arguments
  (`Cert.Spec.Z`, reshaped).  No law used needs the inputs to be finite.  The idealization rewrote nothing, so
  `preserves` is trivial; each frame is the program's run with its result dropped.
-/
import proofs.«171700_j49503793054049_2_alg».proof.Defs
import proofs.«171700_j49503793054049_2_alg».proof.Proof.Gen.Kernel
import proofs.«171700_j49503793054049_2_alg».proof.Proof.Gen.KernelIdeal
import proofs.«171700_j49503793054049_2_alg».proof.Proof.Gen.ReferenceIdeal
import proofs.«171700_j49503793054049_2_alg».proof.Proof.Gen.Pre_finite_inputs
import proofs.«171700_j49503793054049_2_alg».proof.Proof.KRun
import proofs.«171700_j49503793054049_2_alg».proof.Proof.KiRun
import proofs.«171700_j49503793054049_2_alg».proof.Proof.KiValue
import proofs.«171700_j49503793054049_2_alg».proof.Proof.RefValue
import Idealize.ShloMosaic.Adequacy
import Idealize.ShloMosaic.Init

noncomputable section

namespace Cert.Proof

open Idealize.ShloMosaic Idealize.SL.Sem

/-- The word-level program runs to the end and leaves its arguments as launched: the run through its five segments. -/
theorem frame_p : Cert.frame_Kernel := fun m ρ _ => Cert.Kernel.Hand.frame m ρ

/-- So does the idealized program: the same run read at the exact-real instance. -/
theorem frame_pi : Cert.frame_KernelIdeal := fun m ρ _ => Cert.KernelIdeal.Hand.frame m ρ

/-- The reference runs to the end and leaves its arguments as launched: its run with the result dropped. -/
theorem frame_ri : Cert.frame_ReferenceIdeal := fun m ρ _ =>
  (θ_run Cert.ReferenceIdeal.defs _ _).mono (fun _ h c => (h c).2) (Cert.ReferenceIdeal.RefValue.run_spec m ρ)

/-- The idealization rewrote no operation: nothing to preserve. -/
theorem preserves : Cert.preserves_Kernel_KernelIdeal := trivial

/-- The idealized program's run with its result named: the result buffer ends at the common value of the launch
    memory, every argument as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v8) = Cert.KernelIdeal.Hand.kerSpec m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c =>
    ⟨(h c Cert.KernelIdeal.main_v8 (by decide)).trans (Cert.KernelIdeal.Hand.W5_main_v8 m c),
     (h c Cert.KernelIdeal.main_arg0 (by decide)).trans (Cert.KernelIdeal.Hand.W5_kept m c Cert.KernelIdeal.main_arg0 (by decide) (by decide) (by decide) (by decide) (by decide)),
     (h c Cert.KernelIdeal.main_arg1 (by decide)).trans (Cert.KernelIdeal.Hand.W5_kept m c Cert.KernelIdeal.main_arg1 (by decide) (by decide) (by decide) (by decide) (by decide)),
     (h c Cert.KernelIdeal.main_arg2 (by decide)).trans (Cert.KernelIdeal.Hand.W5_kept m c Cert.KernelIdeal.main_arg2 (by decide) (by decide) (by decide) (by decide) (by decide)),
     (h c Cert.KernelIdeal.main_arg3 (by decide)).trans (Cert.KernelIdeal.Hand.W5_kept m c Cert.KernelIdeal.main_arg3 (by decide) (by decide) (by decide) (by decide) (by decide)),
     (h c Cert.KernelIdeal.main_arg4 (by decide)).trans (Cert.KernelIdeal.Hand.W5_kept m c Cert.KernelIdeal.main_arg4 (by decide) (by decide) (by decide) (by decide) (by decide)),
     (h c Cert.KernelIdeal.main_arg5 (by decide)).trans (Cert.KernelIdeal.Hand.W5_kept m c Cert.KernelIdeal.main_arg5 (by decide) (by decide) (by decide) (by decide) (by decide)),
     (h c Cert.KernelIdeal.main_arg6 (by decide)).trans (Cert.KernelIdeal.Hand.W5_kept m c Cert.KernelIdeal.main_arg6 (by decide) (by decide) (by decide) (by decide) (by decide)),
     (h c Cert.KernelIdeal.main_arg7 (by decide)).trans (Cert.KernelIdeal.Hand.W5_kept m c Cert.KernelIdeal.main_arg7 (by decide) (by decide) (by decide) (by decide) (by decide)),
     (h c Cert.KernelIdeal.main_arg8 (by decide)).trans (Cert.KernelIdeal.Hand.W5_kept m c Cert.KernelIdeal.main_arg8 (by decide) (by decide) (by decide) (by decide) (by decide)),
     (h c Cert.KernelIdeal.main_arg9 (by decide)).trans (Cert.KernelIdeal.Hand.W5_kept m c Cert.KernelIdeal.main_arg9 (by decide) (by decide) (by decide) (by decide) (by decide)),
     (h c Cert.KernelIdeal.main_arg10 (by decide)).trans (Cert.KernelIdeal.Hand.W5_kept m c Cert.KernelIdeal.main_arg10 (by decide) (by decide) (by decide) (by decide) (by decide)),
     (h c Cert.KernelIdeal.main_arg11 (by decide)).trans (Cert.KernelIdeal.Hand.W5_kept m c Cert.KernelIdeal.main_arg11 (by decide) (by decide) (by decide) (by decide) (by decide))⟩)
    (Cert.KernelIdeal.Hand.run_all m ρ)

/-- From memories that agree on the twelve arguments the two idealized programs end with the same result: both results
    are the common value `Cert.Spec.Z` of the arguments, reshaped to [8, 10, 48, 48]. -/
theorem algebraic : Cert.algebraic_KernelIdeal_ReferenceIdeal := by
  intro m ρ m' ρ' _ hagree
  refine ⟨fun c => Cert.KernelIdeal.Hand.kerSpec m c, kernel_run m ρ, ?_⟩
  refine (θ_run Cert.ReferenceIdeal.defs _ _).mono (fun _ h c => ⟨(h c).1.trans ?_, (h c).2⟩)
    (Cert.ReferenceIdeal.RefValue.run_spec m' ρ')
  obtain ⟨h0, h1, h2, h3, h4, h5, h6, h7, h8, h9, h10, h11⟩ := hagree c
  unfold Cert.ReferenceIdeal.RefValue.refSpec Cert.KernelIdeal.Hand.kerSpec
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
